-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S128x256 : Shape := ⟨2, ![128, 256]⟩
abbrev S256 : Shape := ⟨1, ![256]⟩
abbrev S256x64 : Shape := ⟨2, ![256, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S64 .f32) (main_arg6 : FVec F S64x1 .f32) (main_arg7 : FVec F S1 .f32) (main_v13 : IVec S_ 1) (main_v16 : IVec S256x64 1) : IVec S_ 1 :=
  let main_c_5 : IVec S_ 1 := constantI S_ 1 1#1
  let main_v17 : IVec S_ 1 := (fun x v => Host.reduce IntOp.andi x v reducesTo_S256x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x1 .f32 := Host.absf main_arg6
  let main_cst_8 : FVec F S_ .f32 := constant S_ .f32 0x7F800000#32
  let main_v25 : FVec F S64x1 .f32 := broadcastInDim S64x1 ![] bcast_S_S64x1 main_cst_8
  let main_v26 : IVec S64x1 1 := cmpf .olt main_v24 main_v25
  let main_c_9 : IVec S_ 1 := constantI S_ 1 1#1
  let main_v27 : IVec S_ 1 := (fun x v => Host.reduce IntOp.andi x v reducesTo_S64x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S50000x64 .f32) (main_arg1 : IVec S2x800000 32) (main_arg2 : FVec F S128x256 .f32) (main_arg3 : FVec F S256 .f32) (main_arg4 : FVec F S256x64 .f32) (main_arg5 : FVec F S64 .f32) (main_arg6 : FVec F S64x1 .f32) (main_arg7 : FVec F S1 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x64 .f32 := Host.absf main_arg4
  let main_cst_4 : FVec F S_ .f32 := constant S_ .f32 0x7F800000#32
  let main_v15 : FVec F S256x64 .f32 := broadcastInDim S256x64 ![] bcast_S_S256x64 main_cst_4
  let main_v16 : IVec S256x64 1 := cmpf .olt main_v14 main_v15
  fn_part1 (F := F) main_arg5 main_arg6 main_arg7 main_v13 main_v16
-- ==== Kernel.lean ====
abbrev S50000x64 : Shape := ⟨2, ![50000, 64]⟩
abbrev S2x800000 : Shape := ⟨2, ![2, 800000]⟩
abbrev S128x256 : Shape := ⟨2, ![128, 256]⟩
abbrev S256 : Shape := ⟨1, ![256]⟩
abbrev S256x64 : Shape := ⟨2, ![256, 64]⟩
abbrev S64 : Shape := ⟨1, ![64]⟩
abbrev S64x1 : Shape := ⟨2, ![64, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S800000x128 : Shape := ⟨2, ![800000, 128]⟩
abbrev S1x256 : Shape := ⟨2, ![1, 256]⟩
abbrev S1x64 : Shape := ⟨2, ![1, 64]⟩
abbrev S1x1 : Shape := ⟨2, ![1, 1]⟩
abbrev S800000x256 : Shape := ⟨2, ![800000, 256]⟩
abbrev S50x1x256 : Shape := ⟨3, ![50, 1, 256]⟩
abbrev S16000x128 : Shape := ⟨2, ![16000, 128]⟩
abbrev S16000x256 : Shape := ⟨2, ![16000, 256]⟩
abbrev S1x1x256 : Shape := ⟨3, ![1, 1, 256]⟩
abbrev S50x1x64 : Shape := ⟨3, ![50, 1, 64]⟩
abbrev S16000x64 : Shape := ⟨2, ![16000, 64]⟩
abbrev S1x1x64 : Shape := ⟨3, ![1, 1, 64]⟩
abbrev S50x1x16000 : Shape := ⟨3, ![50, 1, 16000]⟩
abbrev S1x1x16000 : Shape := ⟨3, ![1, 1, 16000]⟩
abbrev S16000 : Shape := ⟨1, ![16000]⟩

abbrev nBuf : Space → Nat
  | .hbm => 75
  | .vmem => 30
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S128x256, .f32⟩
  | .hbm, ⟨3, _⟩ => ⟨S256, .f32⟩
  | .hbm, ⟨4, _⟩ => ⟨S256x64, .f32⟩
  | .hbm, ⟨5, _⟩ => ⟨S64, .f32⟩
  | .hbm, ⟨6, _⟩ => ⟨S64x1, .f32⟩
  | .hbm, ⟨7, _⟩ => ⟨S1, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S50000x64, .bf16⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S800000x64, .bf16⟩
  | .hbm, ⟨22, _⟩ => ⟨S_, .i32⟩
  | .hbm, ⟨23, _⟩ => ⟨S800000, .i32⟩
  | .hbm, ⟨24, _⟩ => ⟨S800000, .i1⟩
  | .hbm, ⟨25, _⟩ => ⟨S_, .i32⟩
  | .hbm, ⟨26, _⟩ => ⟨S800000, .i32⟩
  | .hbm, ⟨27, _⟩ => ⟨S800000, .i32⟩
  | .hbm, ⟨28, _⟩ => ⟨S800000, .i32⟩
  | .hbm, ⟨29, _⟩ => ⟨S800000x1, .i32⟩
  | .hbm, ⟨30, _⟩ => ⟨S800000x64, .bf16⟩
  | .hbm, ⟨31, _⟩ => ⟨S800000x128, .bf16⟩
  | .hbm, ⟨32, _⟩ => ⟨S128x256, .bf16⟩
  | .hbm, ⟨33, _⟩ => ⟨S256x64, .bf16⟩
  | .hbm, ⟨34, _⟩ => ⟨S1x256, .f32⟩
  | .hbm, ⟨35, _⟩ => ⟨S1x64, .f32⟩
  | .hbm, ⟨36, _⟩ => ⟨S1x1, .f32⟩
  | .hbm, ⟨37, _⟩ => ⟨S800000x256, .bf16⟩
  | .hbm, ⟨38, _⟩ => ⟨S50x1x256, .f32⟩
  | .hbm, ⟨39, _⟩ => ⟨S50x1x256, .f32⟩
  | .hbm, ⟨40, _⟩ => ⟨S_, .f32⟩
  | .hbm, ⟨41, _⟩ => ⟨S1x256, .f32⟩
  | .hbm, ⟨42, _⟩ => ⟨S_, .f32⟩
  | .hbm, ⟨43, _⟩ => ⟨S1x256, .f32⟩
  | .hbm, ⟨44, _⟩ => ⟨S1x256, .f32⟩
  | .hbm, ⟨45, _⟩ => ⟨S_, .f32⟩
  | .hbm, ⟨46, _⟩ => ⟨S1x256, .f32⟩
  | .hbm, ⟨47, _⟩ => ⟨S_, .f32⟩
  | .hbm, ⟨48, _⟩ => ⟨S1x256, .f32⟩
  | .hbm, ⟨49, _⟩ => ⟨S1x256, .f32⟩
  | .hbm, ⟨50, _⟩ => ⟨S1x256, .f32⟩
  | .hbm, ⟨51, _⟩ => ⟨S1x256, .f32⟩
  | .hbm, ⟨52, _⟩ => ⟨S_, .f32⟩
  | .hbm, ⟨53, _⟩ => ⟨S1x256, .f32⟩
  | .hbm, ⟨54, _⟩ => ⟨S1x256, .f32⟩
  | .hbm, ⟨55, _⟩ => ⟨S800000x64, .bf16⟩
  | .hbm, ⟨56, _⟩ => ⟨S50x1x64, .f32⟩
  | .hbm, ⟨57, _⟩ => ⟨S50x1x64, .f32⟩
  | .hbm, ⟨58, _⟩ => ⟨S_, .f32⟩
  | .hbm, ⟨59, _⟩ => ⟨S1x64, .f32⟩
  | .hbm, ⟨60, _⟩ => ⟨S_, .f32⟩
  | .hbm, ⟨61, _⟩ => ⟨S1x64, .f32⟩
  | .hbm, ⟨62, _⟩ => ⟨S1x64, .f32⟩
  | .hbm, ⟨63, _⟩ => ⟨S_, .f32⟩
  | .hbm, ⟨64, _⟩ => ⟨S1x64, .f32⟩
  | .hbm, ⟨65, _⟩ => ⟨S_, .f32⟩
  | .hbm, ⟨66, _⟩ => ⟨S1x64, .f32⟩
  | .hbm, ⟨67, _⟩ => ⟨S1x64, .f32⟩
  | .hbm, ⟨68, _⟩ => ⟨S1x64, .f32⟩
  | .hbm, ⟨69, _⟩ => ⟨S1x64, .f32⟩
  | .hbm, ⟨70, _⟩ => ⟨S_, .f32⟩
  | .hbm, ⟨71, _⟩ => ⟨S1x64, .f32⟩
  | .hbm, ⟨72, _⟩ => ⟨S1x64, .f32⟩
  | .hbm, ⟨73, _⟩ => ⟨S50x1x16000, .f32⟩
  | .hbm, ⟨74, _⟩ => ⟨S800000x1, .f32⟩
  | .local _ .vmem, ⟨0, _⟩ => ⟨S16000x128, .bf16⟩
  | .local _ .vmem, ⟨1, _⟩ => ⟨S16000x128, .bf16⟩
  | .local _ .vmem, ⟨2, _⟩ => ⟨S128x256, .bf16⟩
  | .local _ .vmem, ⟨3, _⟩ => ⟨S1x256, .f32⟩
  | .local _ .vmem, ⟨4, _⟩ => ⟨S16000x256, .bf16⟩
  | .local _ .vmem, ⟨5, _⟩ => ⟨S16000x256, .bf16⟩
  | .local _ .vmem, ⟨6, _⟩ => ⟨S1x1x256, .f32⟩
  | .local _ .vmem, ⟨7, _⟩ => ⟨S1x1x256, .f32⟩
  | .local _ .vmem, ⟨8, _⟩ => ⟨S1x1x256, .f32⟩
  | .local _ .vmem, ⟨9, _⟩ => ⟨S1x1x256, .f32⟩
  | .local _ .vmem, ⟨10, _⟩ => ⟨S16000x256, .bf16⟩
  | .local _ .vmem, ⟨11, _⟩ => ⟨S16000x256, .bf16⟩
  | .local _ .vmem, ⟨12, _⟩ => ⟨S1x256, .f32⟩
  | .local _ .vmem, ⟨13, _⟩ => ⟨S1x256, .f32⟩
  | .local _ .vmem, ⟨14, _⟩ => ⟨S256x64, .bf16⟩
  | .local _ .vmem, ⟨15, _⟩ => ⟨S1x64, .f32⟩
  | .local _ .vmem, ⟨16, _⟩ => ⟨S16000x64, .bf16⟩
  | .local _ .vmem, ⟨17, _⟩ => ⟨S16000x64, .bf16⟩
  | .local _ .vmem, ⟨18, _⟩ => ⟨S1x1x64, .f32⟩
  | .local _ .vmem, ⟨19, _⟩ => ⟨S1x1x64, .f32⟩
  | .local _ .vmem, ⟨20, _⟩ => ⟨S1x1x64, .f32⟩
  | .local _ .vmem, ⟨21, _⟩ => ⟨S1x1x64, .f32⟩
  | .local _ .vmem, ⟨22, _⟩ => ⟨S16000x64, .bf16⟩
  | .local _ .vmem, ⟨23, _⟩ => ⟨S16000x64, .bf16⟩
  | .local _ .vmem, ⟨24, _⟩ => ⟨S1x64, .f32⟩
  | .local _ .vmem, ⟨25, _⟩ => ⟨S1x64, .f32⟩
  | .local _ .vmem, ⟨26, _⟩ => ⟨S64x1, .f32⟩
  | .local _ .vmem, ⟨27, _⟩ => ⟨S1x1, .f32⟩
  | .local _ .vmem, ⟨28, _⟩ => ⟨S1x1x16000, .f32⟩
  | .local _ .vmem, ⟨29, _⟩ => ⟨S1x1x16000, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_v5 : Ref sig .tc := ⟨.hbm, 14, rfl⟩
abbrev main_v6 : Ref sig .tc := ⟨.hbm, 15, rfl⟩
abbrev main_c_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c_1 : Ref sig .tc := ⟨.hbm, 22, rfl⟩
abbrev main_v12 : Ref sig .tc := ⟨.hbm, 23, rfl⟩
abbrev main_v13 : Ref sig .tc := ⟨.hbm, 24, rfl⟩
abbrev main_c_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25_0 : Ref sig .tc := ⟨.hbm, 37, rfl⟩
abbrev main_v25_1 : Ref sig .tc := ⟨.hbm, 38, rfl⟩
abbrev main_v25_2 : Ref sig .tc := ⟨.hbm, 39, rfl⟩
abbrev main_cst : Ref sig .tc := ⟨.hbm, 40, rfl⟩
abbrev main_v26 : Ref sig .tc := ⟨.hbm, 41, rfl⟩
abbrev main_cst_3 : Ref sig .tc := ⟨.hbm, 42, rfl⟩
abbrev main_v27 : Ref sig .tc := ⟨.hbm, 43, rfl⟩
abbrev main_v28 : Ref sig .tc := ⟨.hbm, 44, rfl⟩
abbrev main_cst_4 : Ref sig .tc := ⟨.hbm, 45, rfl⟩
abbrev main_v29 : Ref sig .tc := ⟨.hbm, 46, rfl⟩
abbrev main_cst_5 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_6 : Ref sig .tc := ⟨.hbm, 52, rfl⟩
abbrev main_v34 : Ref sig .tc := ⟨.hbm, 53, rfl⟩
abbrev main_v35 : Ref sig .tc := ⟨.hbm, 54, rfl⟩
abbrev main_v36_0 : Ref sig .tc := ⟨.hbm, 55, rfl⟩
abbrev main_v36_1 : Ref sig .tc := ⟨.hbm, 56, rfl⟩
abbrev main_v36_2 : Ref sig .tc := ⟨.hbm, 57, rfl⟩
abbrev main_cst_7 : Ref sig .tc := ⟨.hbm, 58, rfl⟩
abbrev main_v37 : Ref sig .tc := ⟨.hbm, 59, rfl⟩
abbrev main_cst_8 : Ref sig .tc := ⟨.hbm, 60, rfl⟩
abbrev main_v38 : Ref sig .tc := ⟨.hbm, 61, rfl⟩
abbrev main_v39 : Ref sig .tc := ⟨.hbm, 62, rfl⟩
abbrev main_cst_9 : Ref sig .tc := ⟨.hbm, 63, rfl⟩
abbrev main_v40 : Ref sig .tc := ⟨.hbm, 64, rfl⟩
abbrev main_cst_10 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_cst_11 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc1_stg6_1 : Ref sig .tc := ⟨.vmem, 19, rfl⟩
abbrev cc1_stg7_0 : Ref sig .tc := ⟨.vmem, 20, rfl⟩
abbrev cc1_stg7_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg2_0 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg5_0 : Ref sig .tc := ⟨.vmem, 28, rfl⟩
abbrev cc2_stg5_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc1_sem6_0 : DmaSem sig := 18
abbrev cc1_sem6_1 : DmaSem sig := 19
abbrev cc1_sem7_0 : DmaSem sig := 20
abbrev cc1_sem7_1 : DmaSem sig := 21
abbrev cc2_sem0_0 : DmaSem sig := 22
abbrev cc2_sem0_1 : DmaSem sig := 23
abbrev cc2_sem1_0 : DmaSem sig := 24
abbrev cc2_sem2_0 : DmaSem sig := 25
abbrev cc2_sem3_0 : DmaSem sig := 26
abbrev cc2_sem4_0 : DmaSem sig := 27
abbrev cc2_sem5_0 : DmaSem sig := 28
abbrev cc2_sem5_1 : DmaSem sig := 29

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S16000x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S16000x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x64 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S16000x64 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x1x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x1x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S16000x64 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S1x1x16000 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bitsLt_bf16_f32 : FTy.bits .bf16 < FTy.bits .f32
  bcast_S_S800000 : S_.BroadcastsInDim S800000 (![] : Fin 0 → Fin S800000.rank)
  bcast_S800000_S800000x1_0 : S800000.BroadcastsInDim S800000x1 (![0] : Fin 1 → Fin S800000x1.rank)
  concatenates_S800000x64_S800000x64_S800000x128_d1 : Shape.Concatenates [S800000x64, S800000x64] S800000x128 1
  shapeCasts_S256_S1x256 : S256.ShapeCasts S1x256
  shapeCasts_S64_S1x64 : S64.ShapeCasts S1x64
  shapeCasts_S1_S1x1 : S1.ShapeCasts S1x1
  inb_S16000x128_S16000x128_0_0 : ∀ a, (![0, 0] : Fin 2 → Nat) a + S16000x128.size a ≤ S16000x128.size a
  h_S16000x128 : 0 < S16000x128.numel
  shapeCasts_S16000x128_S16000x128 : S16000x128.ShapeCasts S16000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S16000x256 : S1x256.Broadcasts S16000x256
  inb_S16000x256_S16000x256_0_0 : ∀ a, (![0, 0] : Fin 2 → Nat) a + S16000x256.size a ≤ S16000x256.size a
  h_S16000x256 : 0 < S16000x256.numel
  packedbf16_S16000x256_S16000x256_0_0 : (Rect.unit (s := S16000x256) ![0, 0] S16000x256.size inb_S16000x256_S16000x256_0_0).PackedRows (EltTy.packing .bf16)
  reduces_S16000x256_S256 : S16000x256.Reduces [0] S256
  shapeCasts_S1x256_S1x1x256 : S1x256.ShapeCasts S1x1x256
  inb_S1x1x256_S1x1x256_0_0_0 : ∀ a, (![0, 0, 0] : Fin 3 → Nat) a + S1x1x256.size a ≤ S1x1x256.size a
  h_S1x1x256 : 0 < S1x1x256.numel
  reducesTo_S50x1x256_S1x256_d0 : S50x1x256.ReducesTo [0] S1x256
  h_S_ : 0 < S_.numel
  bcast_S_S1x256 : S_.BroadcastsInDim S1x256 (![] : Fin 0 → Fin S1x256.rank)
  shapeCasts_S16000x256_S16000x256 : S16000x256.ShapeCasts S16000x256
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S16000x64 : S1x64.Broadcasts S16000x64
  inb_S16000x64_S16000x64_0_0 : ∀ a, (![0, 0] : Fin 2 → Nat) a + S16000x64.size a ≤ S16000x64.size a
  h_S16000x64 : 0 < S16000x64.numel
  packedbf16_S16000x64_S16000x64_0_0 : (Rect.unit (s := S16000x64) ![0, 0] S16000x64.size inb_S16000x64_S16000x64_0_0).PackedRows (EltTy.packing .bf16)
  reduces_S16000x64_S64 : S16000x64.Reduces [0] S64
  shapeCasts_S1x64_S1x1x64 : S1x64.ShapeCasts S1x1x64
  inb_S1x1x64_S1x1x64_0_0_0 : ∀ a, (![0, 0, 0] : Fin 3 → Nat) a + S1x1x64.size a ≤ S1x1x64.size a
  h_S1x1x64 : 0 < S1x1x64.numel
  reducesTo_S50x1x64_S1x64_d0 : S50x1x64.ReducesTo [0] S1x64
  bcast_S_S1x64 : S_.BroadcastsInDim S1x64 (![] : Fin 0 → Fin S1x64.rank)
  shapeCasts_S16000x64_S16000x64 : S16000x64.ShapeCasts S16000x64
  inb_S64x1_S64x1_0_0 : ∀ a, (![0, 0] : Fin 2 → Nat) a + S64x1.size a ≤ S64x1.size a
  h_S64x1 : 0 < S64x1.numel
  shapeCasts_S64x1_S64 : S64x1.ShapeCasts S64
  reduces_S16000x64_S16000 : S16000x64.Reduces [1] S16000
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  shapeCasts_S16000_S1x1x16000 : S16000.ShapeCasts S1x1x16000
  inb_S1x1x16000_S1x1x16000_0_0_0 : ∀ a, (![0, 0, 0] : Fin 3 → Nat) a + S1x1x16000.size a ≤ S1x1x16000.size a
  h_S1x1x16000 : 0 < S1x1x16000.numel
  shapeCasts_S50x1x16000_S800000x1 : S50x1x16000.ShapeCasts S800000x1
  gather_S50000x64_S800000x1_S800000x64_1_0_n_n_0_1_164_wf : GatherDims.WF S50000x64 S800000x1 S800000x64 [1] [0] [] [0] [] 1 ![1, 64]
  dot_S16000x128_S128x256_S16000x256_1_0_0_1_n_n_wf : DotDims.WF S16000x128 S128x256 S16000x256 [1] [0] [0] [1] [] []
  dot_S16000x256_S256x64_S16000x64_1_0_0_1_n_n_wf : DotDims.WF S16000x256 S256x64 S16000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16000x128.size a ≤ S800000x128.size a
  hwx0_0 : ∀ i : grid0.Coords, EltTy.bits .bf16 = 32 ∨ (Rect.block (s := S800000x128) S16000x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .bf16 = 32 ∨ (Rect.block (s := S128x256) S128x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16000x256.size a ≤ S800000x256.size a
  hwx0_3 : ∀ i : grid0.Coords, EltTy.bits .bf16 = 32 ∨ (Rect.block (s := S800000x256) S16000x256.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x256.size a ≤ S50x1x256.size a
  hwx0_4 : ∀ i : grid0.Coords, EltTy.bits .f32 = 32 ∨ (Rect.block (s := S50x1x256) S1x1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x256.size a ≤ S50x1x256.size a
  hwx0_5 : ∀ i : grid0.Coords, EltTy.bits .f32 = 32 ∨ (Rect.block (s := S50x1x256) S1x1x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S16000x256.size a ≤ S800000x256.size a
  hwx1_0 : ∀ i : grid1.Coords, EltTy.bits .bf16 = 32 ∨ (Rect.block (s := S800000x256) S16000x256.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x64.size a ≤ S256x64.size a
  hwx1_3 : ∀ i : grid1.Coords, EltTy.bits .bf16 = 32 ∨ (Rect.block (s := S256x64) S256x64.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S16000x64.size a ≤ S800000x64.size a
  hwx1_5 : ∀ i : grid1.Coords, EltTy.bits .bf16 = 32 ∨ (Rect.block (s := S800000x64) S16000x64.size (cc1_transform_5 i) (hinb1_5 i)).WholeWords (EltTy.packing .bf16)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x1x64.size a ≤ S50x1x64.size a
  hwx1_6 : ∀ i : grid1.Coords, EltTy.bits .f32 = 32 ∨ (Rect.block (s := S50x1x64) S1x1x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x1x64.size a ≤ S50x1x64.size a
  hwx1_7 : ∀ i : grid1.Coords, EltTy.bits .f32 = 32 ∨ (Rect.block (s := S50x1x64) S1x1x64.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S16000x64.size a ≤ S800000x64.size a
  hwx2_0 : ∀ i : grid2.Coords, EltTy.bits .bf16 = 32 ∨ (Rect.block (s := S800000x64) S16000x64.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x1.size a ≤ S64x1.size a
  hwx2_3 : ∀ i : grid2.Coords, EltTy.bits .f32 = 32 ∨ (Rect.block (s := S64x1) S64x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x1.size a ≤ S1x1.size a
  hwx2_4 : ∀ i : grid2.Coords, EltTy.bits .f32 = 32 ∨ (Rect.block (s := S1x1) S1x1.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1x1x16000.size a ≤ S50x1x16000.size a
  hwx2_5 : ∀ i : grid2.Coords, EltTy.bits .f32 = 32 ∨ (Rect.block (s := S50x1x16000) S1x1x16000.size (cc2_transform_5 i) (hinb2_5 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S16000x128_S128x256_S16000x256_1_0_0_1_n_n : DotDims S16000x128 S128x256 S16000x256 where
  lhsContracting := [1]
  rhsContracting := [0]
  lhsNonContracting := [0]
  rhsNonContracting := [1]
  lhsBatch := []
  rhsBatch := []
  wf := dot_S16000x128_S128x256_S16000x256_1_0_0_1_n_n_wf
def dot_S16000x256_S256x64_S16000x64_1_0_0_1_n_n : DotDims S16000x256 S256x64 S16000x64 where
  lhsContracting := [1]
  rhsContracting := [0]
  lhsNonContracting := [0]
  rhsNonContracting := [1]
  lhsBatch := []
  rhsBatch := []
  wf := dot_S16000x256_S256x64_S16000x64_1_0_0_1_n_n_wf

abbrev win0_0 : Pipeline.Window sig grid0 :=
  Pipeline.Window.ofSpec (Memref.whole main_v19) S16000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v22) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25_0) S16000x256.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v25_1) S1x1x256.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v25_2) S1x1x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v25_0) S16000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v35) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v21) S256x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v23) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v36_0) S16000x64.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v36_1) S1x1x64.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v36_2) S1x1x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v36_0) S16000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v39) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg6) S64x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v24) S1x1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v47) S1x1x16000.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S128x256 : Shape := ⟨2, ![128, 256]⟩
abbrev S256 : Shape := ⟨1, ![256]⟩
abbrev S256x64 : Shape := ⟨2, ![256, 64]⟩
abbrev S64 : Shape := ⟨1, ![64]⟩
abbrev S64x1 : Shape := ⟨2, ![64, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S800000x128 : Shape := ⟨2, ![800000, 128]⟩
abbrev S800000x256 : Shape := ⟨2, ![800000, 256]⟩
abbrev S1x256 : Shape := ⟨2, ![1, 256]⟩
abbrev S1x64 : Shape := ⟨2, ![1, 64]⟩
abbrev S1x1 : Shape := ⟨2, ![1, 1]⟩

abbrev nBuf : Space → Nat
  | .hbm => 95
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S128x256, .f32⟩
  | .hbm, ⟨3, _⟩ => ⟨S256, .f32⟩
  | .hbm, ⟨4, _⟩ => ⟨S256x64, .f32⟩
  | .hbm, ⟨5, _⟩ => ⟨S64, .f32⟩
  | .hbm, ⟨6, _⟩ => ⟨S64x1, .f32⟩
  | .hbm, ⟨7, _⟩ => ⟨S1, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x64, .f32⟩
  | .hbm, ⟨21, _⟩ => ⟨S_, .i32⟩
  | .hbm, ⟨22, _⟩ => ⟨S800000, .i32⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S800000x1, .i32⟩
  | .hbm, ⟨29, _⟩ => ⟨S800000x64, .f32⟩
  | .hbm, ⟨30, _⟩ => ⟨S800000x128, .f32⟩
  | .hbm, ⟨31, _⟩ => ⟨S800000x256, .f32⟩
  | .hbm, ⟨32, _⟩ => ⟨S1x256, .f32⟩
  | .hbm, ⟨33, _⟩ => ⟨S800000x256, .f32⟩
  | .hbm, ⟨34, _⟩ => ⟨S800000x256, .f32⟩
  | .hbm, ⟨35, _⟩ => ⟨S_, .f32⟩
  | .hbm, ⟨36, _⟩ => ⟨S256, .f32⟩
  | .hbm, ⟨37, _⟩ => ⟨S1x256, .f32⟩
  | .hbm, ⟨38, _⟩ => ⟨S_, .f32⟩
  | .hbm, ⟨39, _⟩ => ⟨S1x256, .f32⟩
  | .hbm, ⟨40, _⟩ => ⟨S1x256, .f32⟩
  | .hbm, ⟨41, _⟩ => ⟨S800000x256, .f32⟩
  | .hbm, ⟨42, _⟩ => ⟨S800000x256, .f32⟩
  | .hbm, ⟨43, _⟩ => ⟨S800000x256, .f32⟩
  | .hbm, ⟨44, _⟩ => ⟨S_, .f32⟩
  | .hbm, ⟨45, _⟩ => ⟨S256, .f32⟩
  | .hbm, ⟨46, _⟩ => ⟨S1x256, .f32⟩
  | .hbm, ⟨47, _⟩ => ⟨S_, .f32⟩
  | .hbm, ⟨48, _⟩ => ⟨S1x256, .f32⟩
  | .hbm, ⟨49, _⟩ => ⟨S1x256, .f32⟩
  | .hbm, ⟨50, _⟩ => ⟨S800000x256, .f32⟩
  | .hbm, ⟨51, _⟩ => ⟨S800000x256, .f32⟩
  | .hbm, ⟨52, _⟩ => ⟨S_, .f32⟩
  | .hbm, ⟨53, _⟩ => ⟨S1x256, .f32⟩
  | .hbm, ⟨54, _⟩ => ⟨S1x256, .f32⟩
  | .hbm, ⟨55, _⟩ => ⟨S1x256, .f32⟩
  | .hbm, ⟨56, _⟩ => ⟨S800000x256, .f32⟩
  | .hbm, ⟨57, _⟩ => ⟨S800000x256, .f32⟩
  | .hbm, ⟨58, _⟩ => ⟨S_, .f32⟩
  | .hbm, ⟨59, _⟩ => ⟨S800000x256, .f32⟩
  | .hbm, ⟨60, _⟩ => ⟨S800000x256, .f32⟩
  | .hbm, ⟨61, _⟩ => ⟨S800000x64, .f32⟩
  | .hbm, ⟨62, _⟩ => ⟨S1x64, .f32⟩
  | .hbm, ⟨63, _⟩ => ⟨S800000x64, .f32⟩
  | .hbm, ⟨64, _⟩ => ⟨S800000x64, .f32⟩
  | .hbm, ⟨65, _⟩ => ⟨S_, .f32⟩
  | .hbm, ⟨66, _⟩ => ⟨S64, .f32⟩
  | .hbm, ⟨67, _⟩ => ⟨S1x64, .f32⟩
  | .hbm, ⟨68, _⟩ => ⟨S_, .f32⟩
  | .hbm, ⟨69, _⟩ => ⟨S1x64, .f32⟩
  | .hbm, ⟨70, _⟩ => ⟨S1x64, .f32⟩
  | .hbm, ⟨71, _⟩ => ⟨S800000x64, .f32⟩
  | .hbm, ⟨72, _⟩ => ⟨S800000x64, .f32⟩
  | .hbm, ⟨73, _⟩ => ⟨S800000x64, .f32⟩
  | .hbm, ⟨74, _⟩ => ⟨S_, .f32⟩
  | .hbm, ⟨75, _⟩ => ⟨S64, .f32⟩
  | .hbm, ⟨76, _⟩ => ⟨S1x64, .f32⟩
  | .hbm, ⟨77, _⟩ => ⟨S_, .f32⟩
  | .hbm, ⟨78, _⟩ => ⟨S1x64, .f32⟩
  | .hbm, ⟨79, _⟩ => ⟨S1x64, .f32⟩
  | .hbm, ⟨80, _⟩ => ⟨S800000x64, .f32⟩
  | .hbm, ⟨81, _⟩ => ⟨S800000x64, .f32⟩
  | .hbm, ⟨82, _⟩ => ⟨S_, .f32⟩
  | .hbm, ⟨83, _⟩ => ⟨S1x64, .f32⟩
  | .hbm, ⟨84, _⟩ => ⟨S1x64, .f32⟩
  | .hbm, ⟨85, _⟩ => ⟨S1x64, .f32⟩
  | .hbm, ⟨86, _⟩ => ⟨S800000x64, .f32⟩
  | .hbm, ⟨87, _⟩ => ⟨S800000x64, .f32⟩
  | .hbm, ⟨88, _⟩ => ⟨S_, .f32⟩
  | .hbm, ⟨89, _⟩ => ⟨S800000x64, .f32⟩
  | .hbm, ⟨90, _⟩ => ⟨S800000x64, .f32⟩
  | .hbm, ⟨91, _⟩ => ⟨S800000x1, .f32⟩
  | .hbm, ⟨92, _⟩ => ⟨S1x1, .f32⟩
  | .hbm, ⟨93, _⟩ => ⟨S800000x1, .f32⟩
  | .hbm, ⟨94, _⟩ => ⟨S800000x1, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c_1 : Ref sig .tc := ⟨.hbm, 21, rfl⟩
abbrev main_v11 : Ref sig .tc := ⟨.hbm, 22, rfl⟩
abbrev main_v12 : Ref sig .tc := ⟨.hbm, 23, rfl⟩
abbrev main_c_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_4 : Ref sig .tc := ⟨.hbm, 44, rfl⟩
abbrev main_v30 : Ref sig .tc := ⟨.hbm, 45, rfl⟩
abbrev main_v31 : Ref sig .tc := ⟨.hbm, 46, rfl⟩
abbrev main_cst_5 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_6 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_call0_cst : Ref sig .tc := ⟨.hbm, 58, rfl⟩
abbrev main_call0_v0 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_7 : Ref sig .tc := ⟨.hbm, 65, rfl⟩
abbrev main_v46 : Ref sig .tc := ⟨.hbm, 66, rfl⟩
abbrev main_v47 : Ref sig .tc := ⟨.hbm, 67, rfl⟩
abbrev main_cst_8 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_9 : Ref sig .tc := ⟨.hbm, 74, rfl⟩
abbrev main_v53 : Ref sig .tc := ⟨.hbm, 75, rfl⟩
abbrev main_v54 : Ref sig .tc := ⟨.hbm, 76, rfl⟩
abbrev main_cst_10 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_call1_cst : Ref sig .tc := ⟨.hbm, 88, rfl⟩
abbrev main_call1_v0 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x64_S800000x64_S800000x128_d1 : Shape.Concatenates [S800000x64, S800000x64] S800000x128 1
  bcast_S256_S1x256_1 : S256.BroadcastsInDim S1x256 (![1] : Fin 1 → Fin S1x256.rank)
  bcast_S1x256_S800000x256_0_1 : S1x256.BroadcastsInDim S800000x256 (![0, 1] : Fin 2 → Fin S800000x256.rank)
  reducesTo_S800000x256_S256_d0 : S800000x256.ReducesTo [0] S256
  h_S_ : 0 < S_.numel
  bcast_S_S1x256 : S_.BroadcastsInDim S1x256 (![] : Fin 0 → Fin S1x256.rank)
  bcast_S_S800000x256 : S_.BroadcastsInDim S800000x256 (![] : Fin 0 → Fin S800000x256.rank)
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  reducesTo_S800000x64_S64_d0 : S800000x64.ReducesTo [0] S64
  bcast_S_S1x64 : S_.BroadcastsInDim S1x64 (![] : Fin 0 → Fin S1x64.rank)
  bcast_S_S800000x64 : S_.BroadcastsInDim S800000x64 (![] : Fin 0 → Fin S800000x64.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  gather_S50000x64_S800000x1_S800000x64_1_0_n_n_0_1_164_wf : GatherDims.WF S50000x64 S800000x1 S800000x64 [1] [0] [] [0] [] 1 ![1, 64]
  dot_S800000x128_S128x256_S800000x256_1_0_0_1_n_n_wf : DotDims.WF S800000x128 S128x256 S800000x256 [1] [0] [0] [1] [] []
  dot_S800000x256_S256x64_S800000x64_1_0_0_1_n_n_wf : DotDims.WF S800000x256 S256x64 S800000x64 [1] [0] [0] [1] [] []
  dot_S800000x64_S64x1_S800000x1_1_0_0_1_n_n_wf : DotDims.WF S800000x64 S64x1 S800000x1 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x128_S128x256_S800000x256_1_0_0_1_n_n : DotDims S800000x128 S128x256 S800000x256 where
  lhsContracting := [1]
  rhsContracting := [0]
  lhsNonContracting := [0]
  rhsNonContracting := [1]
  lhsBatch := []
  rhsBatch := []
  wf := dot_S800000x128_S128x256_S800000x256_1_0_0_1_n_n_wf
def dot_S800000x256_S256x64_S800000x64_1_0_0_1_n_n : DotDims S800000x256 S256x64 S800000x64 where
  lhsContracting := [1]
  rhsContracting := [0]
  lhsNonContracting := [0]
  rhsNonContracting := [1]
  lhsBatch := []
  rhsBatch := []
  wf := dot_S800000x256_S256x64_S800000x64_1_0_0_1_n_n_wf
def dot_S800000x64_S64x1_S800000x1_1_0_0_1_n_n : DotDims S800000x64 S64x1 S800000x1 where
  lhsContracting := [1]
  rhsContracting := [0]
  lhsNonContracting := [0]
  rhsNonContracting := [1]
  lhsBatch := []
  rhsBatch := []
  wf := dot_S800000x64_S64x1_S800000x1_1_0_0_1_n_n_wf

class Facts : Prop extends Facts₀ where

variable [Facts]
-- ==== Proof.KRun.lean ====
/-
  The idealized kernel program's run with its result named.

  Every weakly fair execution of the program — three grids of 50 tiles each among four stretches of host operations —
  terminates without a fault; the buffer that holds the result ends at the contents the last host stretch leaves, and the
  argument arrays end as launched. The buffer contents at the boundaries between stretches and grids (`W0` … `W7`) are those
  of the frame certificate this module imports; the frame certificate's own statement keeps only the arguments, so the run
  is launched here once more with the result buffer kept in the final condition as well.
-/
import proofs.«113298_j41841571397745_2_alg».proof.Proof.KernelIdealFrame

set_option maxRecDepth 16384

noncomputable section

namespace Cert.KernelIdeal.Run

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run: the result buffer ends at the last boundary's contents, the arguments as launched. -/
theorem run_named : θ_run defs (onTc (τ := τ) (main (F := F))) ⟨m, fun _ => 0, ρ⟩ (fun r => ∀ c : Dev nD,
      r.2.mem ((c.tc : Thread nD τ).loc main_v48) = W7 m ρ c (Proc.devRef .tc main_v48)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v48 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c)⟩)

end Cert.KernelIdeal.Run

end
-- ==== Proof.LibRowOps.lean ====
/-
  General reads at an index, at the ideal values, used by the row-local stages of a network: a matrix product
  accumulated into zero, a column broadcast across the columns, and the select that spells the exponential linear unit.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost
import Idealize.ShloMosaic.Lib.StackMember

noncomputable section

open scoped BigOperators

namespace Cert.RowLib

open Idealize.ShloMosaic Idealize.ShloMosaic.ValueIdx

/-- A dot's dimension numbers that contract the left operand's columns with the right operand's rows, with no batch
    axis, are the plain m×k by k×n product's. -/
theorem dotDims_eq_plain {m k n : Nat} (D : DotDims ⟨2, ![m, k]⟩ ⟨2, ![k, n]⟩ ⟨2, ![m, n]⟩)
    (hlc : D.lhsContracting = [1]) (hrc : D.rhsContracting = [0]) (hln : D.lhsNonContracting = [0])
    (hrn : D.rhsNonContracting = [1]) (hlb : D.lhsBatch = []) (hrb : D.rhsBatch = []) : D = DotDims.plain m k n := by
  obtain ⟨lc, rc, ln, rn, lb, rb, wf⟩ := D
  dsimp only at hlc hrc hln hrn hlb hrb
  subst hlc hrc hln hrn hlb hrb
  rfl

/-- The plain product of an m×k by a k×n matrix accumulated into the zero splat, read at (a, b), is the sum over the
    contracted coordinate of the products of the entries: row a of the left operand against column b of the right. -/
theorem matmul_plain_zero_ix2 {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) := by
  rw [matmul_zero_eq_dotGeneral]
  exact StackMember.dotGeneral_plain_apply prec A B a b

/-- An [a, 1] array broadcast to [a, b] reads, at (p, c), the operand's one column at row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A select on "h is above z" is the `if` on the order of the extended reals. -/
theorem select_cmpf_ogt {α : Type} (h z : Ideal .f32) (A B : α) :
    Scalar.select (FloatOps.cmpf .ogt h z) A B = if z < h then A else B := by
  show Scalar.select (Ideal.cmp .ogt h z) A B = _
  unfold Ideal.cmp Scalar.select
  by_cases hh : z < h <;> simp [hh]

end Cert.RowLib

end
-- ==== Proof.KTile.lean ====
/-
  What the three kernel bodies compute on one tile, read entry by entry at the exact (extended real) values.

  Body 1, on a tile of 16000 rows of the edge features: row r times the first weight matrix plus the bias (an entry of
  the first layer before normalization); and, per channel, the sum over the tile's rows of these entries and of their
  squares.
  Body 2, on a tile of first-layer entries with the channel means and variances: subtract the mean, multiply by the
  reciprocal square root of the variance plus the small constant, clip below at zero; that row times the second weight
  matrix plus the bias; and the per-channel sums of these entries and of their squares over the tile.
  Body 3, on a tile of second-layer entries: the same normalization and clipping, then the dot product of the row with
  the last layer's weight column plus its bias.
-/
import proofs.«113298_j41841571397745_2_alg».proof.Proof.Gen.KernelIdeal.Skeleton
import proofs.«113298_j41841571397745_2_alg».proof.Proof.LibRowOps
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Tile

open Cert.KernelIdeal Cert.KernelIdeal.Gen Idealize.ShloMosaic Idealize.ShloMosaic.ValueIdx Cert.RowLib

/-! ## The matrix products are plain row-by-column products -/

theorem dot1_plain : dot_S16000x128_S128x256_S16000x256_1_0_0_1_n_n = DotDims.plain 16000 128 256 :=
  dotDims_eq_plain _ rfl rfl rfl rfl rfl rfl

theorem dot2_plain : dot_S16000x256_S256x64_S16000x64_1_0_0_1_n_n = DotDims.plain 16000 256 64 :=
  dotDims_eq_plain _ rfl rfl rfl rfl rfl rfl

/-! ## Sums along one axis of a two-axis tile -/

/-- The sum down the rows of a 16000-row tile with `n` columns, read at column `c`. -/
theorem colSum_apply {n : ℕ} (src : FVec Ideal ⟨2, ![16000, n]⟩ .f32)
    (h : (⟨2, ![16000, n]⟩ : Shape).Reduces [(0 : Fin 2)] ⟨1, ![n]⟩) (hφ : FKind.Formats FTy.f32)
    (hacc : (0x00000000#32 : BitVec 32) = FKind.add.neutral .f32 hφ) (c : Fin n) :
    multiReduction .add [(0 : Fin 2)] ⟨1, ![n]⟩ src 0x00000000#32 h hφ hacc (ix1 c) = ∑ r : Fin 16000, src (ix2 r c) := by
  refine (Ideal.multiReduction_add_single src 0x00000000#32 h hφ hacc (ix1 c)).trans ?_
  refine Finset.sum_congr rfl fun r _ => congrArg src (funext fun a => Fin.ext ?_)
  match a with
  | ⟨0, _⟩ => rfl
  | ⟨1, _⟩ => rfl

/-- The sum along the columns of a tile with `m` rows and `n` columns, read at row `r`. -/
theorem rowSum_apply {m n : ℕ} (src : FVec Ideal ⟨2, ![m, n]⟩ .f32)
    (h : (⟨2, ![m, n]⟩ : Shape).Reduces [(1 : Fin 2)] ⟨1, ![m]⟩) (hφ : FKind.Formats FTy.f32)
    (hacc : (0x00000000#32 : BitVec 32) = FKind.add.neutral .f32 hφ) (r : Fin m) :
    multiReduction .add [(1 : Fin 2)] ⟨1, ![m]⟩ src 0x00000000#32 h hφ hacc (ix1 r) = ∑ k : Fin n, src (ix2 r k) := by
  refine (Ideal.multiReduction_add_single src 0x00000000#32 h hφ hacc (ix1 r)).trans ?_
  refine Finset.sum_congr rfl fun k _ => congrArg src (funext fun a => Fin.ext ?_)
  match a with
  | ⟨0, _⟩ => rfl
  | ⟨1, _⟩ => rfl

/-! ## Body 1: the first affine layer on a tile, and its column sums -/

section Body1
variable (x0 : Vec Ideal S16000x128 .bf16) (x1 : Vec Ideal S128x256 .bf16) (x2 : Vec Ideal S1x256 .f32)

/-- An entry of the first layer: row `r` of the tile times column `c` of the weights, plus the bias. -/
theorem k0_pay1_apply (r : Fin 16000) (c : Fin 256) :
    k0_pay1 x0 x1 x2 (ix2 r c) = (∑ k : Fin 128, x0 (ix2 r k) * x1 (ix2 k c)) + x2 (ix2 (0 : Fin 1) c) := by
  unfold k0_pay1
  rw [shapeCast_self, shapeCast_self, shapeCast_self, dot1_plain, addf_apply, matmul_plain_zero_ix2,
    broadcastTo_1b_ab_apply]

/-- The stored entry is the same extended real: narrowing the format changes nothing at the exact values. -/
theorem k0_pay2_apply (r : Fin 16000) (c : Fin 256) :
    k0_pay2 x0 x1 x2 (ix2 r c) = k0_pay1 x0 x1 x2 (ix2 r c) := rfl

/-- The tile's column sum of the first layer's entries. -/
theorem k0_pay3_apply (c : Fin 256) :
    k0_pay3 x0 x1 x2 (ix3 (0 : Fin 1) (0 : Fin 1) c) = ∑ r : Fin 16000, k0_pay1 x0 x1 x2 (ix2 r c) := by
  unfold k0_pay3
  dsimp only
  rw [shapeCast_ab_1ab_apply, shapeCast_a_1a_apply]
  exact colSum_apply _ _ _ _ c

/-- The tile's column sum of the squares of the first layer's entries. -/
theorem k0_pay4_apply (c : Fin 256) :
    k0_pay4 x0 x1 x2 (ix3 (0 : Fin 1) (0 : Fin 1) c)
      = ∑ r : Fin 16000, k0_pay1 x0 x1 x2 (ix2 r c) * k0_pay1 x0 x1 x2 (ix2 r c) := by
  unfold k0_pay4
  dsimp only
  rw [shapeCast_ab_1ab_apply, shapeCast_a_1a_apply]
  refine (colSum_apply _ _ _ _ c).trans ?_
  exact Finset.sum_congr rfl fun r _ => mulf_apply _ _ _

end Body1

/-! ## Normalizing and clipping, read at an entry -/

/-- The entry at `(r, k)` of a tile normalized with a row of means and a row of variances and clipped below at zero:
    the entry minus column `k`'s mean, times the reciprocal square root of column `k`'s variance plus the small
    constant, or zero if that is negative. Widening the format changes nothing at the exact values, a row broadcast
    down the rows reads its one row, and the pattern of `+0.0` denotes zero. -/
theorem normClip_apply {n : ℕ} (x0 : FVec Ideal ⟨2, ![16000, n]⟩ .bf16) (x1 x2 : FVec Ideal ⟨2, ![1, n]⟩ .f32)
    (hb : (⟨2, ![1, n]⟩ : Shape).Broadcasts ⟨2, ![16000, n]⟩) (hlt : FTy.bits .bf16 < FTy.bits .f32)
    (r : Fin 16000) (k : Fin n) :
    maximumf (mulf (subf (extf .f32 x0 hlt) (broadcastTo ⟨2, ![16000, n]⟩ x1 hb))
        (broadcastTo ⟨2, ![16000, n]⟩
          (rsqrt (addf x2 (broadcast ⟨2, ![1, n]⟩ (Scalar.ofBits (F := Ideal) .f32 0x3727C5AC#32)))) hb))
      (broadcast ⟨2, ![16000, n]⟩ (Scalar.ofBits (F := Ideal) .f32 0x00000000#32)) (ix2 r k)
      = max ((x0 (ix2 r k) - x1 (ix2 (0 : Fin 1) k))
          * Ideal.rsqrt (x2 (ix2 (0 : Fin 1) k) + Ideal.ofBits .f32 0x3727C5AC#32)) 0 := by
  rw [maximumf_apply, mulf_apply, subf_apply, extf_apply, broadcastTo_1b_ab_apply, broadcastTo_1b_ab_apply,
    broadcast_apply]
  show max ((x0 (ix2 r k) - x1 (ix2 (0 : Fin 1) k))
    * Ideal.rsqrt (x2 (ix2 (0 : Fin 1) k) + Ideal.ofBits .f32 0x3727C5AC#32)) (Ideal.ofBits .f32 0x00000000#32) = _
  rw [Ideal.ofBits_zero_f32]

/-! ## Body 2: normalize and clip the first layer's tile, the second affine layer, and its column sums -/

section Body2
variable (x0 : Vec Ideal S16000x256 .bf16) (x1 x2 : Vec Ideal S1x256 .f32) (x3 : Vec Ideal S256x64 .bf16)
  (x4 : Vec Ideal S1x64 .f32)

/-- An entry of the second layer: row `r` of the normalized and clipped tile times column `c` of the weights, plus
    the bias. -/
theorem k1_pay1_apply (r : Fin 16000) (c : Fin 64) :
    k1_pay1 x0 x1 x2 x3 x4 (ix2 r c)
      = (∑ k : Fin 256, max ((x0 (ix2 r k) - x1 (ix2 (0 : Fin 1) k))
          * Ideal.rsqrt (x2 (ix2 (0 : Fin 1) k) + Ideal.ofBits .f32 0x3727C5AC#32)) 0 * x3 (ix2 k c))
        + x4 (ix2 (0 : Fin 1) c) := by
  unfold k1_pay1
  simp only [shapeCast_self]
  rw [dot2_plain, addf_apply, matmul_plain_zero_ix2, broadcastTo_1b_ab_apply]
  refine congrArg (· + x4 (ix2 (0 : Fin 1) c)) (Finset.sum_congr rfl fun k _ => congrArg (· * x3 (ix2 k c)) ?_)
  rw [truncf_apply]
  exact normClip_apply _ _ _ _ _ r k

/-- The stored entry is the same extended real. -/
theorem k1_pay2_apply (r : Fin 16000) (c : Fin 64) :
    k1_pay2 x0 x1 x2 x3 x4 (ix2 r c) = k1_pay1 x0 x1 x2 x3 x4 (ix2 r c) := rfl

/-- The tile's column sum of the second layer's entries. -/
theorem k1_pay3_apply (c : Fin 64) :
    k1_pay3 x0 x1 x2 x3 x4 (ix3 (0 : Fin 1) (0 : Fin 1) c) = ∑ r : Fin 16000, k1_pay1 x0 x1 x2 x3 x4 (ix2 r c) := by
  unfold k1_pay3
  dsimp only
  rw [shapeCast_ab_1ab_apply, shapeCast_a_1a_apply]
  exact colSum_apply _ _ _ _ c

/-- The tile's column sum of the squares of the second layer's entries. -/
theorem k1_pay4_apply (c : Fin 64) :
    k1_pay4 x0 x1 x2 x3 x4 (ix3 (0 : Fin 1) (0 : Fin 1) c)
      = ∑ r : Fin 16000, k1_pay1 x0 x1 x2 x3 x4 (ix2 r c) * k1_pay1 x0 x1 x2 x3 x4 (ix2 r c) := by
  unfold k1_pay4
  dsimp only
  rw [shapeCast_ab_1ab_apply, shapeCast_a_1a_apply]
  refine (colSum_apply _ _ _ _ c).trans ?_
  exact Finset.sum_congr rfl fun r _ => mulf_apply _ _ _

end Body2

/-! ## Body 3: normalize and clip the second layer's tile, then the last layer -/

section Body3
variable (x0 : Vec Ideal S16000x64 .bf16) (x1 x2 : Vec Ideal S1x64 .f32) (x3 : Vec Ideal S64x1 .f32)
  (x4 : Vec Ideal S1x1 .f32)

/-- An output entry: row `r` of the normalized and clipped tile against the last layer's weight column, plus its
    bias. The weight column is read as a row (same row-major position), multiplied in entry by entry, and the products
    are summed along the row; the result is laid out with two leading unit axes. -/
theorem k2_pay1_apply (r : Fin 16000) :
    k2_pay1 x0 x1 x2 x3 x4 (ix3 (0 : Fin 1) (0 : Fin 1) r)
      = (∑ k : Fin 64, max ((x0 (ix2 r k) - x1 (ix2 (0 : Fin 1) k))
          * Ideal.rsqrt (x2 (ix2 (0 : Fin 1) k) + Ideal.ofBits .f32 0x3727C5AC#32)) 0 * x3 (ix2 k (0 : Fin 1)))
        + x4 (ix2 (0 : Fin 1) (0 : Fin 1)) := by
  unfold k2_pay1
  simp only [shapeCast_self]
  refine (shapeCast_apply _ _ _ (ix1 r) ?_).trans ?_
  · rw [Shape.rowMajor_val_one, Shape.rowMajor_val_three]
    show r.val = (0 * 1 + 0) * 16000 + r.val
    omega
  rw [addf_apply, broadcast_apply]
  refine congrArg₂ (· + ·) ?_ ?_
  · refine (rowSum_apply _ _ _ _ r).trans (Finset.sum_congr rfl fun k _ => ?_)
    rw [mulf_apply, broadcastTo_1b_ab_apply, shapeCast_a_1a_apply]
    refine congrArg₂ (· * ·) (normClip_apply _ _ _ _ _ r k) ?_
    refine shapeCast_apply _ _ _ (ix2 k (0 : Fin 1)) ?_
    rw [Shape.rowMajor_val_two, Shape.rowMajor_val_one]
    show k.val * 1 + 0 = k.val
    omega
  · exact congrArg x4 (funext fun a => Fin.ext (by
      match a with
      | ⟨0, _⟩ => rfl
      | ⟨1, _⟩ => rfl))

end Body3

end Cert.KernelIdeal.Tile

end
-- ==== Proof.Spec.lean ====
/-
  The network both programs compute, as functions on the extended reals.

  An edge feature matrix X (one row per edge) goes through three affine layers. After each of the first two, every
  channel is normalized over ALL edges (subtract the channel's mean, multiply by the reciprocal square root of the
  channel's variance plus a small constant) and clipped below at zero. The last layer has one output channel.

  The statistics are written twice. `meanAll` / `varAll` take the mean of the column and the mean of the squared
  deviations from it, summing over all edges at once. `meanTiled` / `varTiled` sum the column and its squares tile by
  tile (50 tiles of 16000 consecutive edges), add the 50 partial sums, and take the variance as the mean of the
  squares minus the square of the mean, clipped below at zero. On real numbers the two agree.
-/
import Idealize.ShloMosaic.PureOps.Ideal

noncomputable section

open scoped BigOperators

namespace Cert.EdgeNet

open Idealize.ShloMosaic

/-- The number of edges, 800000, as the value of its single-precision pattern. -/
abbrev nEdges : EReal := Ideal.ofBits .f32 0x49435000#32
/-- The small constant added to a variance before the reciprocal square root. -/
abbrev epsVar : EReal := Ideal.ofBits .f32 0x3727C5AC#32

/-- Edge `16000 * t + r`: position `r` of tile `t`. -/
def tileRow (t : Fin 50) (r : Fin 16000) : Fin 800000 := ⟨16000 * t.val + r.val, by omega⟩

variable {K C : ℕ}

/-- An affine layer: row `e` of `X` times `W`, plus the bias. -/
def affine {E : ℕ} (X : Fin E → Fin K → EReal) (W : Fin K → Fin C → EReal) (b : Fin C → EReal) :
    Fin E → Fin C → EReal :=
  fun e c => (∑ k : Fin K, X e k * W k c) + b c

/-- A channel's mean over all edges. -/
def meanAll (H : Fin 800000 → Fin C → EReal) : Fin C → EReal :=
  fun c => Ideal.div (∑ e : Fin 800000, H e c) nEdges

/-- A channel's variance over all edges: the mean of the squared deviations from the mean. -/
def varAll (H : Fin 800000 → Fin C → EReal) : Fin C → EReal :=
  fun c => Ideal.div (∑ e : Fin 800000, (H e c - meanAll H c) * (H e c - meanAll H c)) nEdges

/-- A channel's mean from per-tile partial sums. -/
def meanTiled (H : Fin 800000 → Fin C → EReal) : Fin C → EReal :=
  fun c => Ideal.div (∑ t : Fin 50, ∑ r : Fin 16000, H (tileRow t r) c) nEdges

/-- A channel's variance from per-tile partial sums of squares: mean of squares minus squared mean, clipped at zero. -/
def varTiled (H : Fin 800000 → Fin C → EReal) : Fin C → EReal :=
  fun c => max (Ideal.div (∑ t : Fin 50, ∑ r : Fin 16000, H (tileRow t r) c * H (tileRow t r) c) nEdges
    - meanTiled H c * meanTiled H c) 0

/-- Normalize each channel with the given mean and variance, then clip below at zero. -/
def normRelu {E : ℕ} (H : Fin E → Fin C → EReal) (μ v : Fin C → EReal) : Fin E → Fin C → EReal :=
  fun e c => max ((H e c - μ c) * Ideal.rsqrt (v c + epsVar)) 0

/-- The last layer: one output channel. -/
def lastLayer {E : ℕ} (A : Fin E → Fin C → EReal) (w : Fin C → EReal) (b : EReal) : Fin E → EReal :=
  fun e => (∑ c : Fin C, A e c * w c) + b

/-- The whole network with the statistics taken over all edges at once. -/
def netAll (X : Fin 800000 → Fin 128 → EReal) (W1 : Fin 128 → Fin 256 → EReal) (b1 : Fin 256 → EReal)
    (W2 : Fin 256 → Fin 64 → EReal) (b2 : Fin 64 → EReal) (w3 : Fin 64 → EReal) (b3 : EReal) : Fin 800000 → EReal :=
  let H1 := affine X W1 b1
  let A1 := normRelu H1 (meanAll H1) (varAll H1)
  let H2 := affine A1 W2 b2
  let A2 := normRelu H2 (meanAll H2) (varAll H2)
  lastLayer A2 w3 b3

/-- The whole network with the statistics taken tile by tile. -/
def netTiled (X : Fin 800000 → Fin 128 → EReal) (W1 : Fin 128 → Fin 256 → EReal) (b1 : Fin 256 → EReal)
    (W2 : Fin 256 → Fin 64 → EReal) (b2 : Fin 64 → EReal) (w3 : Fin 64 → EReal) (b3 : EReal) : Fin 800000 → EReal :=
  let H1 := affine X W1 b1
  let A1 := normRelu H1 (meanTiled H1) (varTiled H1)
  let H2 := affine A1 W2 b2
  let A2 := normRelu H2 (meanTiled H2) (varTiled H2)
  lastLayer A2 w3 b3

end Cert.EdgeNet

end
-- ==== Proof.KGrid0.lean ====
/-
  What the first grid leaves in its three output arrays, as whole-array functions of its three input arrays.

  The grid has 50 points; point t stages rows 16000·t … 16000·t + 15999 of the edge feature matrix, the whole first weight
  matrix and the bias row, and writes back rows 16000·t … of the first layer's entries (before normalization) and row t of
  the two arrays of per-tile sums. The blocks of each output tile its array, so after the grid each output array IS one
  function of the input arrays: entry (e, c) of the first is row e of the features times column c of the weights plus the
  bias; entry (t, 0, c) of the second is the sum of those over the 16000 rows of tile t, and of the third the sum of their
  squares.
-/
import proofs.«113298_j41841571397745_2_alg».proof.Proof.KernelIdealFrame
import proofs.«113298_j41841571397745_2_alg».proof.Proof.KTile
import proofs.«113298_j41841571397745_2_alg».proof.Proof.Spec
import Idealize.ShloMosaic.Lib.Pipeline.Value
import Idealize.ShloMosaic.Lib.ValueIdx

set_option maxRecDepth 16384

noncomputable section

open scoped BigOperators

namespace Cert.KernelIdeal.Grid0

open Cert.KernelIdeal Cert.KernelIdeal.Gen Cert.KernelIdeal.GenP Cert.KernelIdeal.Tile Cert.EdgeNet
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-- Where each window's block sits at point `t`: the row-tiled windows at block row `t`, the others at the origin. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 3) = t.val ∧ win0_4.index t (1 : Fin 3) = 0 ∧ win0_4.index t (2 : Fin 3) = 0
    ∧ win0_5.index t (0 : Fin 3) = t.val ∧ win0_5.index t (1 : Fin 3) = 0 ∧ win0_5.index t (2 : Fin 3) = 0 :=
  (by decide +kernel : ∀ t : Fin grid0.N, _)

/-- The point as a tile number. -/
abbrev tileOf (t : Fin cfg0.N) : Fin 50 := Fin.cast N_0 t

/-- The features, the weights and the bias as the grid finds them, by coordinates. -/
abbrev featOf (A0 : S800000x128.Idx → EReal) : Fin 800000 → Fin 128 → EReal := fun e k => A0 (ix2 e k)
abbrev matOf (A1 : S128x256.Idx → EReal) : Fin 128 → Fin 256 → EReal := fun k c => A1 (ix2 k c)
abbrev rowOf (A2 : S1x256.Idx → EReal) : Fin 256 → EReal := fun c => A2 (ix2 (0 : Fin 1) c)

/-- The first layer's entries before normalization. -/
abbrev pre (A0 : S800000x128.Idx → EReal) (A1 : S128x256.Idx → EReal) (A2 : S1x256.Idx → EReal) : Fin 800000 → Fin 256 → EReal :=
  affine (featOf A0) (matOf A1) (rowOf A2)

/-- The three output arrays as functions of the input arrays. -/
def outPre (A0 : S800000x128.Idx → EReal) (A1 : S128x256.Idx → EReal) (A2 : S1x256.Idx → EReal) : S800000x256.Idx → EReal :=
  fun i => pre A0 A1 A2 ⟨(i 0).val, idx2_lt0 i⟩ ⟨(i 1).val, idx2_lt1 i⟩
def outSum (A0 : S800000x128.Idx → EReal) (A1 : S128x256.Idx → EReal) (A2 : S1x256.Idx → EReal) : S50x1x256.Idx → EReal :=
  fun i => ∑ r : Fin 16000, pre A0 A1 A2 (tileRow ⟨(i 0).val, (i 0).isLt⟩ r) ⟨(i 2).val, (i 2).isLt⟩
def outSumSq (A0 : S800000x128.Idx → EReal) (A1 : S128x256.Idx → EReal) (A2 : S1x256.Idx → EReal) : S50x1x256.Idx → EReal :=
  fun i => ∑ r : Fin 16000, pre A0 A1 A2 (tileRow ⟨(i 0).val, (i 0).isLt⟩ r) ⟨(i 2).val, (i 2).isLt⟩
    * pre A0 A1 A2 (tileRow ⟨(i 0).val, (i 0).isLt⟩ r) ⟨(i 2).val, (i 2).isLt⟩

/-! ## One tile's entry of the first layer, from the staged blocks -/

/-- Entry (r, q) of the body's first-layer tile at point `t` is entry (16000·t + r, q) of the whole first layer. -/
theorem tile_pre (c : Dev nD) (t : Fin cfg0.N) (r : Fin 16000) (q : Fin 256) :
    k0_pay1 (iblk0 V c 0 t) (iblk0 V c 1 t) (iblk0 V c 2 t) (ix2 r q)
      = pre (V c (Pipeline.arrRef spec0 0)) (V c (Pipeline.arrRef spec0 1)) (V c (Pipeline.arrRef spec0 2)) (tileRow (tileOf t) r) q := by
  obtain ⟨e00, e01, e10, e11, e20, e21, -⟩ := idx_facts t
  refine (k0_pay1_apply (iblk0 V c 0 t) (iblk0 V c 1 t) (iblk0 V c 2 t) r q).trans ?_
  have b0 : ∀ k : Fin 128, iblk0 V c 0 t (ix2 r k) = featOf (V c (Pipeline.arrRef spec0 0)) (tileRow (tileOf t) r) k := fun k => by
    show (V c (Pipeline.arrRef spec0 0) : S800000x128.Idx → EReal) (((cfg0.win 0).blk t).view.emb (ix2 r k)) = _
    refine congrArg (V c (Pipeline.arrRef spec0 0) : S800000x128.Idx → EReal) (funext fun a => Fin.ext ?_)
    match a with
    | ⟨0, _⟩ => show win0_0.index t (0 : Fin 2) * 16000 + 1 * r.val = 16000 * t.val + r.val; omega
    | ⟨1, _⟩ => show win0_0.index t (1 : Fin 2) * 128 + 1 * k.val = k.val; omega
  have b1 : ∀ k : Fin 128, iblk0 V c 1 t (ix2 k q) = matOf (V c (Pipeline.arrRef spec0 1)) k q := fun k => by
    show (V c (Pipeline.arrRef spec0 1) : S128x256.Idx → EReal) (((cfg0.win 1).blk t).view.emb (ix2 k q)) = _
    refine congrArg (V c (Pipeline.arrRef spec0 1) : S128x256.Idx → EReal) (funext fun a => Fin.ext ?_)
    match a with
    | ⟨0, _⟩ => show win0_1.index t (0 : Fin 2) * 128 + 1 * k.val = k.val; omega
    | ⟨1, _⟩ => show win0_1.index t (1 : Fin 2) * 256 + 1 * q.val = q.val; omega
  have b2 : iblk0 V c 2 t (ix2 (0 : Fin 1) q) = rowOf (V c (Pipeline.arrRef spec0 2)) q := by
    show (V c (Pipeline.arrRef spec0 2) : S1x256.Idx → EReal) (((cfg0.win 2).blk t).view.emb (ix2 (0 : Fin 1) q)) = _
    refine congrArg (V c (Pipeline.arrRef spec0 2) : S1x256.Idx → EReal) (funext fun a => Fin.ext ?_)
    match a with
    | ⟨0, _⟩ => show win0_2.index t (0 : Fin 2) * 1 + 1 * 0 = 0; omega
    | ⟨1, _⟩ => show win0_2.index t (1 : Fin 2) * 256 + 1 * q.val = q.val; omega
  show _ = (∑ k : Fin 128, featOf (V c (Pipeline.arrRef spec0 0)) (tileRow (tileOf t) r) k * matOf (V c (Pipeline.arrRef spec0 1)) k q)
      + rowOf (V c (Pipeline.arrRef spec0 2)) q
  rw [b2]
  exact congrArg (· + _) (Finset.sum_congr rfl fun k _ => by rw [b0 k, b1 k])

/-! ## What point `t` writes back: its block of the whole-array functions -/

section WriteBacks
variable (c : Dev nD) (t : Fin cfg0.N)

local notation "A0" => (V c (Pipeline.arrRef spec0 0))
local notation "A1" => (V c (Pipeline.arrRef spec0 1))
local notation "A2" => (V c (Pipeline.arrRef spec0 2))

theorem flushed_pre :
    (dat0 V c).flushed 3 t = ((cfg0.win 3).blk t).view.read (Elt Ideal) (outPre A0 A1 A2) := by
  show (cfg0.win 3).cut (grid0.coords t) ((dat0 V c).after 3 t) = _
  rw [after0_3]
  unfold out0_3
  rw [View.canon_unit_zero hz2]
  simp only [View.ld_unit_zero (S := S16000x128) hz2, View.ld_unit_zero (S := S128x256) hz2, View.ld_unit_zero (S := S1x256) hz2]
  have key : ∀ j : S16000x256.Idx, k0_pay2 (iblk0 V c 0 t) (iblk0 V c 1 t) (iblk0 V c 2 t) j
      = outPre A0 A1 A2 (((cfg0.win 3).blk t).view.emb j) := fun j => by
    obtain ⟨r, q, rfl⟩ : ∃ (r : Fin 16000) (q : Fin 256), j = ix2 r q := ⟨j 0, j 1, eq_ix2 j⟩
    obtain ⟨-, -, -, -, -, -, e30, e31, -⟩ := idx_facts t
    refine (k0_pay2_apply (iblk0 V c 0 t) (iblk0 V c 1 t) (iblk0 V c 2 t) r q).trans ((tile_pre V c t r q).trans ?_)
    unfold outPre
    exact congrArg₂ (pre A0 A1 A2)
      (Fin.ext (by show 16000 * t.val + r.val = win0_3.index t (0 : Fin 2) * 16000 + 1 * r.val; omega))
      (Fin.ext (by show q.val = win0_3.index t (1 : Fin 2) * 256 + 1 * q.val; omega))
  funext j
  exact key j

theorem flushed_sum :
    (dat0 V c).flushed 4 t = ((cfg0.win 4).blk t).view.read (Elt Ideal) (outSum A0 A1 A2) := by
  show (cfg0.win 4).cut (grid0.coords t) ((dat0 V c).after 4 t) = _
  rw [after0_4]
  unfold out0_4
  rw [View.canon_unit_zero hz3]
  simp only [View.ld_unit_zero (S := S16000x128) hz2, View.ld_unit_zero (S := S128x256) hz2, View.ld_unit_zero (S := S1x256) hz2]
  have key : ∀ j : S1x1x256.Idx, k0_pay3 (iblk0 V c 0 t) (iblk0 V c 1 t) (iblk0 V c 2 t) j
      = outSum A0 A1 A2 (((cfg0.win 4).blk t).view.emb j) := fun j => by
    obtain ⟨u, u', q, rfl⟩ : ∃ (u u' : Fin 1) (q : Fin 256), j = ix3 u u' q := ⟨j 0, j 1, j 2, eq_ix3 j⟩
    obtain rfl : u = 0 := Fin.ext (by omega)
    obtain rfl : u' = 0 := Fin.ext (by omega)
    obtain ⟨-, -, -, -, -, -, -, -, e40, e41, e42, -⟩ := idx_facts t
    refine (k0_pay3_apply (iblk0 V c 0 t) (iblk0 V c 1 t) (iblk0 V c 2 t) q).trans ?_
    unfold outSum
    refine Finset.sum_congr rfl fun r _ => (tile_pre V c t r q).trans ?_
    exact congrArg₂ (pre A0 A1 A2)
      (Fin.ext (by show 16000 * t.val + r.val = 16000 * (win0_4.index t (0 : Fin 3) * 1 + 1 * 0) + r.val; omega))
      (Fin.ext (by show q.val = win0_4.index t (2 : Fin 3) * 256 + 1 * q.val; omega))
  funext j
  exact key j

theorem flushed_sumSq :
    (dat0 V c).flushed 5 t = ((cfg0.win 5).blk t).view.read (Elt Ideal) (outSumSq A0 A1 A2) := by
  show (cfg0.win 5).cut (grid0.coords t) ((dat0 V c).after 5 t) = _
  rw [after0_5]
  unfold out0_5
  rw [View.canon_unit_zero hz3]
  simp only [View.ld_unit_zero (S := S16000x128) hz2, View.ld_unit_zero (S := S128x256) hz2, View.ld_unit_zero (S := S1x256) hz2]
  have key : ∀ j : S1x1x256.Idx, k0_pay4 (iblk0 V c 0 t) (iblk0 V c 1 t) (iblk0 V c 2 t) j
      = outSumSq A0 A1 A2 (((cfg0.win 5).blk t).view.emb j) := fun j => by
    obtain ⟨u, u', q, rfl⟩ : ∃ (u u' : Fin 1) (q : Fin 256), j = ix3 u u' q := ⟨j 0, j 1, j 2, eq_ix3 j⟩
    obtain rfl : u = 0 := Fin.ext (by omega)
    obtain rfl : u' = 0 := Fin.ext (by omega)
    obtain ⟨-, -, -, -, -, -, -, -, -, -, -, e50, e51, e52⟩ := idx_facts t
    refine (k0_pay4_apply (iblk0 V c 0 t) (iblk0 V c 1 t) (iblk0 V c 2 t) q).trans ?_
    unfold outSumSq
    have hrow : ∀ r : Fin 16000, k0_pay1 (iblk0 V c 0 t) (iblk0 V c 1 t) (iblk0 V c 2 t) (ix2 r q)
        = pre A0 A1 A2 (tileRow ⟨(((cfg0.win 5).blk t).view.emb (ix3 (0 : Fin 1) (0 : Fin 1) q) 0).val, (((cfg0.win 5).blk t).view.emb (ix3 (0 : Fin 1) (0 : Fin 1) q) 0).isLt⟩ r)
            ⟨(((cfg0.win 5).blk t).view.emb (ix3 (0 : Fin 1) (0 : Fin 1) q) 2).val, (((cfg0.win 5).blk t).view.emb (ix3 (0 : Fin 1) (0 : Fin 1) q) 2).isLt⟩ := fun r =>
      (tile_pre V c t r q).trans (congrArg₂ (pre A0 A1 A2)
        (Fin.ext (by show 16000 * t.val + r.val = 16000 * (win0_5.index t (0 : Fin 3) * 1 + 1 * 0) + r.val; omega))
        (Fin.ext (by show q.val = win0_5.index t (2 : Fin 3) * 256 + 1 * q.val; omega)))
    exact Finset.sum_congr rfl fun r _ => by rw [hrow r]
  funext j
  exact key j

end WriteBacks

/-! ## The blocks tile the arrays -/

theorem mem_blk3 (t : Fin cfg0.N) (i : S800000x256.Idx) :
    i ∈ ((cfg0.win 3).blk t).view.set ↔ ∀ a : Fin 2, win0_3.index t a * S16000x256.size a ≤ (i a).val ∧ (i a).val < win0_3.index t a * S16000x256.size a + S16000x256.size a := by
  show i ∈ ((View.whole main_v25_0).slice (win0_3.rect t)).set ↔ _
  rw [View.set_slice_whole, Rect.mem_set_unit]
  exact Iff.rfl

theorem mem_blk4 (t : Fin cfg0.N) (i : S50x1x256.Idx) :
    i ∈ ((cfg0.win 4).blk t).view.set ↔ ∀ a : Fin 3, win0_4.index t a * S1x1x256.size a ≤ (i a).val ∧ (i a).val < win0_4.index t a * S1x1x256.size a + S1x1x256.size a := by
  show i ∈ ((View.whole main_v25_1).slice (win0_4.rect t)).set ↔ _
  rw [View.set_slice_whole, Rect.mem_set_unit]
  exact Iff.rfl

theorem mem_blk5 (t : Fin cfg0.N) (i : S50x1x256.Idx) :
    i ∈ ((cfg0.win 5).blk t).view.set ↔ ∀ a : Fin 3, win0_5.index t a * S1x1x256.size a ≤ (i a).val ∧ (i a).val < win0_5.index t a * S1x1x256.size a + S1x1x256.size a := by
  show i ∈ ((View.whole main_v25_2).slice (win0_5.rect t)).set ↔ _
  rw [View.set_slice_whole, Rect.mem_set_unit]
  exact Iff.rfl

/-- Row `e` of the first layer lies in the block of point `e / 16000`. -/
theorem cover3 (i : S800000x256.Idx) : ∃ t : Fin cfg0.N, (cfg0.win 3).flush t = true ∧ i ∈ ((cfg0.win 3).blk t).view.set := by
  have hi0 : (i 0).val < 800000 := (i 0).isLt
  have hi1 : (i 1).val < 256 := (i 1).isLt
  have hN : grid0.N = 50 := N_0
  refine ⟨⟨(i 0).val / 16000, by show _ < grid0.N; omega⟩, flush0_3 _, ?_⟩
  obtain ⟨-, -, -, -, -, -, e30, e31, -⟩ := idx_facts ⟨(i 0).val / 16000, by show _ < grid0.N; omega⟩
  have e30' : win0_3.index ⟨(i 0).val / 16000, by show _ < grid0.N; omega⟩ (0 : Fin 2) = (i 0).val / 16000 := e30
  rw [mem_blk3]
  intro a
  match a with
  | ⟨0, _⟩ => show win0_3.index _ (0 : Fin 2) * 16000 ≤ (i 0).val ∧ (i 0).val < win0_3.index _ (0 : Fin 2) * 16000 + 16000; omega
  | ⟨1, _⟩ => show win0_3.index _ (1 : Fin 2) * 256 ≤ (i 1).val ∧ (i 1).val < win0_3.index _ (1 : Fin 2) * 256 + 256; omega

/-- Row `t` of a per-tile array is the block of point `t`. -/
theorem cover4 (i : S50x1x256.Idx) : ∃ t : Fin cfg0.N, (cfg0.win 4).flush t = true ∧ i ∈ ((cfg0.win 4).blk t).view.set := by
  have hi0 : (i 0).val < 50 := (i 0).isLt
  have hi1 : (i 1).val < 1 := (i 1).isLt
  have hi2 : (i 2).val < 256 := (i 2).isLt
  have hN : grid0.N = 50 := N_0
  refine ⟨⟨(i 0).val, by show _ < grid0.N; omega⟩, flush0_4 _, ?_⟩
  obtain ⟨-, -, -, -, -, -, -, -, e40, e41, e42, -⟩ := idx_facts ⟨(i 0).val, by show _ < grid0.N; omega⟩
  have e40' : win0_4.index ⟨(i 0).val, by show _ < grid0.N; omega⟩ (0 : Fin 3) = (i 0).val := e40
  rw [mem_blk4]
  intro a
  match a with
  | ⟨0, _⟩ => show win0_4.index _ (0 : Fin 3) * 1 ≤ (i 0).val ∧ (i 0).val < win0_4.index _ (0 : Fin 3) * 1 + 1; omega
  | ⟨1, _⟩ => show win0_4.index _ (1 : Fin 3) * 1 ≤ (i 1).val ∧ (i 1).val < win0_4.index _ (1 : Fin 3) * 1 + 1; omega
  | ⟨2, _⟩ => show win0_4.index _ (2 : Fin 3) * 256 ≤ (i 2).val ∧ (i 2).val < win0_4.index _ (2 : Fin 3) * 256 + 256; omega

theorem cover5 (i : S50x1x256.Idx) : ∃ t : Fin cfg0.N, (cfg0.win 5).flush t = true ∧ i ∈ ((cfg0.win 5).blk t).view.set := by
  have hi0 : (i 0).val < 50 := (i 0).isLt
  have hi1 : (i 1).val < 1 := (i 1).isLt
  have hi2 : (i 2).val < 256 := (i 2).isLt
  have hN : grid0.N = 50 := N_0
  refine ⟨⟨(i 0).val, by show _ < grid0.N; omega⟩, flush0_5 _, ?_⟩
  obtain ⟨-, -, -, -, -, -, -, -, -, -, -, e50, e51, e52⟩ := idx_facts ⟨(i 0).val, by show _ < grid0.N; omega⟩
  have e50' : win0_5.index ⟨(i 0).val, by show _ < grid0.N; omega⟩ (0 : Fin 3) = (i 0).val := e50
  rw [mem_blk5]
  intro a
  match a with
  | ⟨0, _⟩ => show win0_5.index _ (0 : Fin 3) * 1 ≤ (i 0).val ∧ (i 0).val < win0_5.index _ (0 : Fin 3) * 1 + 1; omega
  | ⟨1, _⟩ => show win0_5.index _ (1 : Fin 3) * 1 ≤ (i 1).val ∧ (i 1).val < win0_5.index _ (1 : Fin 3) * 1 + 1; omega
  | ⟨2, _⟩ => show win0_5.index _ (2 : Fin 3) * 256 ≤ (i 2).val ∧ (i 2).val < win0_5.index _ (2 : Fin 3) * 256 + 256; omega

/-! ## The arrays after the grid -/

theorem final_pre (c : Dev nD) : (dat0 V c).arrAt 3 cfg0.N
    = outPre (V c (Pipeline.arrRef spec0 0)) (V c (Pipeline.arrRef spec0 1)) (V c (Pipeline.arrRef spec0 2)) :=
  (dat0 V c).arrAt_eq_of_cover 3 _ (fun t _ => flushed_pre V c t) cover3

theorem final_sum (c : Dev nD) : (dat0 V c).arrAt 4 cfg0.N
    = outSum (V c (Pipeline.arrRef spec0 0)) (V c (Pipeline.arrRef spec0 1)) (V c (Pipeline.arrRef spec0 2)) :=
  (dat0 V c).arrAt_eq_of_cover 4 _ (fun t _ => flushed_sum V c t) cover4

theorem final_sumSq (c : Dev nD) : (dat0 V c).arrAt 5 cfg0.N
    = outSumSq (V c (Pipeline.arrRef spec0 0)) (V c (Pipeline.arrRef spec0 1)) (V c (Pipeline.arrRef spec0 2)) :=
  (dat0 V c).arrAt_eq_of_cover 5 _ (fun t _ => flushed_sumSq V c t) cover5

end Cert.KernelIdeal.Grid0

end
-- ==== Proof.KGrid1.lean ====
/-
  What the second grid leaves in its three output arrays, as whole-array functions of its five input arrays.

  The grid has 50 points; point t stages rows 16000·t … 16000·t + 15999 of the first layer's entries, the whole rows of
  channel means and channel variances, the whole second weight matrix and the bias row, and writes back rows
  16000·t … of the second layer's entries (before normalization) and row t of the two arrays of per-tile sums. The blocks
  of each output tile its array, so after the grid each output array IS one function of the input arrays: entry (e, c) of
  the first is row e of the normalized and clipped first layer times column c of the weights plus the bias; entry
  (t, 0, c) of the second is the sum of those over the 16000 rows of tile t, and of the third the sum of their squares.
-/
import proofs.«113298_j41841571397745_2_alg».proof.Proof.KernelIdealFrame
import proofs.«113298_j41841571397745_2_alg».proof.Proof.KTile
import proofs.«113298_j41841571397745_2_alg».proof.Proof.Spec
import Idealize.ShloMosaic.Lib.Pipeline.Value
import Idealize.ShloMosaic.Lib.ValueIdx

set_option maxRecDepth 16384

noncomputable section

open scoped BigOperators

namespace Cert.KernelIdeal.Grid1

open Cert.KernelIdeal Cert.KernelIdeal.Gen Cert.KernelIdeal.GenP Cert.KernelIdeal.Tile Cert.EdgeNet
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-- Where each window's block sits at point `t`: the row-tiled windows at block row `t`, the others at the origin. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0
    ∧ win1_6.index t (0 : Fin 3) = t.val ∧ win1_6.index t (1 : Fin 3) = 0 ∧ win1_6.index t (2 : Fin 3) = 0
    ∧ win1_7.index t (0 : Fin 3) = t.val ∧ win1_7.index t (1 : Fin 3) = 0 ∧ win1_7.index t (2 : Fin 3) = 0 :=
  (by decide +kernel : ∀ t : Fin grid1.N, _)

/-- The point as a tile number. -/
abbrev tileOf (t : Fin cfg1.N) : Fin 50 := Fin.cast N_1 t

/-- The first layer's entries, the channel means and variances, the weights and the bias as the grid finds them, by
    coordinates. -/
abbrev featOf (A0 : S800000x256.Idx → EReal) : Fin 800000 → Fin 256 → EReal := fun e k => A0 (ix2 e k)
abbrev chanOf (A : S1x256.Idx → EReal) : Fin 256 → EReal := fun k => A (ix2 (0 : Fin 1) k)
abbrev matOf (A3 : S256x64.Idx → EReal) : Fin 256 → Fin 64 → EReal := fun k c => A3 (ix2 k c)
abbrev rowOf (A4 : S1x64.Idx → EReal) : Fin 64 → EReal := fun c => A4 (ix2 (0 : Fin 1) c)

/-- The second layer's entries before normalization: the first layer normalized with the given means and variances and
    clipped, through the second affine layer. -/
abbrev pre (A0 : S800000x256.Idx → EReal) (A1 A2 : S1x256.Idx → EReal) (A3 : S256x64.Idx → EReal) (A4 : S1x64.Idx → EReal) : Fin 800000 → Fin 64 → EReal :=
  affine (normRelu (featOf A0) (chanOf A1) (chanOf A2)) (matOf A3) (rowOf A4)

/-- The three output arrays as functions of the input arrays. -/
def outPre (A0 : S800000x256.Idx → EReal) (A1 A2 : S1x256.Idx → EReal) (A3 : S256x64.Idx → EReal) (A4 : S1x64.Idx → EReal) : S800000x64.Idx → EReal :=
  fun i => pre A0 A1 A2 A3 A4 ⟨(i 0).val, idx2_lt0 i⟩ ⟨(i 1).val, idx2_lt1 i⟩
def outSum (A0 : S800000x256.Idx → EReal) (A1 A2 : S1x256.Idx → EReal) (A3 : S256x64.Idx → EReal) (A4 : S1x64.Idx → EReal) : S50x1x64.Idx → EReal :=
  fun i => ∑ r : Fin 16000, pre A0 A1 A2 A3 A4 (tileRow ⟨(i 0).val, (i 0).isLt⟩ r) ⟨(i 2).val, (i 2).isLt⟩
def outSumSq (A0 : S800000x256.Idx → EReal) (A1 A2 : S1x256.Idx → EReal) (A3 : S256x64.Idx → EReal) (A4 : S1x64.Idx → EReal) : S50x1x64.Idx → EReal :=
  fun i => ∑ r : Fin 16000, pre A0 A1 A2 A3 A4 (tileRow ⟨(i 0).val, (i 0).isLt⟩ r) ⟨(i 2).val, (i 2).isLt⟩
    * pre A0 A1 A2 A3 A4 (tileRow ⟨(i 0).val, (i 0).isLt⟩ r) ⟨(i 2).val, (i 2).isLt⟩

/-! ## One tile's entry of the second layer, from the staged blocks -/

/-- The five input arrays as the grid finds them on core `c`. -/
def arr0 (c : Dev nD) : S800000x256.Idx → EReal := V c (Pipeline.arrRef spec1 0)
def arr1 (c : Dev nD) : S1x256.Idx → EReal := V c (Pipeline.arrRef spec1 1)
def arr2 (c : Dev nD) : S1x256.Idx → EReal := V c (Pipeline.arrRef spec1 2)
def arr3 (c : Dev nD) : S256x64.Idx → EReal := V c (Pipeline.arrRef spec1 3)
def arr4 (c : Dev nD) : S1x64.Idx → EReal := V c (Pipeline.arrRef spec1 4)

/-- If the staged blocks read, at row `r` and column `q`, row `e` of the first layer, the means, the variances, column
    `q` of the weights and entry `q` of the bias, then entry (r, q) of the body's second-layer tile is entry (e, q) of
    the whole second layer. -/
theorem pre_of_blocks (A0 : S800000x256.Idx → EReal) (A1 A2 : S1x256.Idx → EReal) (A3 : S256x64.Idx → EReal) (A4 : S1x64.Idx → EReal)
    (x0 : Vec Ideal S16000x256 .bf16) (x1 x2 : Vec Ideal S1x256 .f32) (x3 : Vec Ideal S256x64 .bf16)
    (x4 : Vec Ideal S1x64 .f32) (e : Fin 800000) (r : Fin 16000) (q : Fin 64)
    (h0 : ∀ k : Fin 256, x0 (ix2 r k) = featOf A0 e k) (h1 : ∀ k : Fin 256, x1 (ix2 (0 : Fin 1) k) = chanOf A1 k)
    (h2 : ∀ k : Fin 256, x2 (ix2 (0 : Fin 1) k) = chanOf A2 k) (h3 : ∀ k : Fin 256, x3 (ix2 k q) = matOf A3 k q)
    (h4 : x4 (ix2 (0 : Fin 1) q) = rowOf A4 q) :
    k1_pay1 x0 x1 x2 x3 x4 (ix2 r q) = pre A0 A1 A2 A3 A4 e q := by
  refine (k1_pay1_apply x0 x1 x2 x3 x4 r q).trans ?_
  show _ = (∑ k : Fin 256, max ((featOf A0 e k - chanOf A1 k) * Ideal.rsqrt (chanOf A2 k + epsVar)) 0 * matOf A3 k q)
      + rowOf A4 q
  rw [h4]
  exact congrArg (· + _) (Finset.sum_congr rfl fun k _ => by rw [h0 k, h1 k, h2 k, h3 k])

/-- The staged block of window 0 at point `t` holds rows 16000·t … of the first layer. -/
theorem blk0_apply (c : Dev nD) (t : Fin cfg1.N) (r : Fin 16000) (k : Fin 256) :
    iblk1 V c 0 t (ix2 r k) = featOf (arr0 V c) (tileRow (tileOf t) r) k := by
  obtain ⟨e00, e01, -⟩ := idx_facts t
  show arr0 V c (((cfg1.win 0).blk t).view.emb (ix2 r k)) = _
  refine congrArg (arr0 V c) (funext fun a => Fin.ext ?_)
  match a with
  | ⟨0, _⟩ => show win1_0.index t (0 : Fin 2) * 16000 + 1 * r.val = 16000 * t.val + r.val; omega
  | ⟨1, _⟩ => show win1_0.index t (1 : Fin 2) * 256 + 1 * k.val = k.val; omega

/-- The staged block of window 1 is the whole row of means. -/
theorem blk1_apply (c : Dev nD) (t : Fin cfg1.N) (k : Fin 256) :
    iblk1 V c 1 t (ix2 (0 : Fin 1) k) = chanOf (arr1 V c) k := by
  obtain ⟨-, -, e10, e11, -⟩ := idx_facts t
  show arr1 V c (((cfg1.win 1).blk t).view.emb (ix2 (0 : Fin 1) k)) = _
  refine congrArg (arr1 V c) (funext fun a => Fin.ext ?_)
  match a with
  | ⟨0, _⟩ => show win1_1.index t (0 : Fin 2) * 1 + 1 * 0 = 0; omega
  | ⟨1, _⟩ => show win1_1.index t (1 : Fin 2) * 256 + 1 * k.val = k.val; omega

/-- The staged block of window 2 is the whole row of variances. -/
theorem blk2_apply (c : Dev nD) (t : Fin cfg1.N) (k : Fin 256) :
    iblk1 V c 2 t (ix2 (0 : Fin 1) k) = chanOf (arr2 V c) k := by
  obtain ⟨-, -, -, -, e20, e21, -⟩ := idx_facts t
  show arr2 V c (((cfg1.win 2).blk t).view.emb (ix2 (0 : Fin 1) k)) = _
  refine congrArg (arr2 V c) (funext fun a => Fin.ext ?_)
  match a with
  | ⟨0, _⟩ => show win1_2.index t (0 : Fin 2) * 1 + 1 * 0 = 0; omega
  | ⟨1, _⟩ => show win1_2.index t (1 : Fin 2) * 256 + 1 * k.val = k.val; omega

/-- The staged block of window 3 is the whole weight matrix. -/
theorem blk3_apply (c : Dev nD) (t : Fin cfg1.N) (k : Fin 256) (q : Fin 64) :
    iblk1 V c 3 t (ix2 k q) = matOf (arr3 V c) k q := by
  obtain ⟨-, -, -, -, -, -, e30, e31, -⟩ := idx_facts t
  show arr3 V c (((cfg1.win 3).blk t).view.emb (ix2 k q)) = _
  refine congrArg (arr3 V c) (funext fun a => Fin.ext ?_)
  match a with
  | ⟨0, _⟩ => show win1_3.index t (0 : Fin 2) * 256 + 1 * k.val = k.val; omega
  | ⟨1, _⟩ => show win1_3.index t (1 : Fin 2) * 64 + 1 * q.val = q.val; omega

/-- The staged block of window 4 is the whole bias row. -/
theorem blk4_apply (c : Dev nD) (t : Fin cfg1.N) (q : Fin 64) :
    iblk1 V c 4 t (ix2 (0 : Fin 1) q) = rowOf (arr4 V c) q := by
  obtain ⟨-, -, -, -, -, -, -, -, e40, e41, -⟩ := idx_facts t
  show arr4 V c (((cfg1.win 4).blk t).view.emb (ix2 (0 : Fin 1) q)) = _
  refine congrArg (arr4 V c) (funext fun a => Fin.ext ?_)
  match a with
  | ⟨0, _⟩ => show win1_4.index t (0 : Fin 2) * 1 + 1 * 0 = 0; omega
  | ⟨1, _⟩ => show win1_4.index t (1 : Fin 2) * 64 + 1 * q.val = q.val; omega

/-- Entry (r, q) of the body's second-layer tile at point `t` is entry (16000·t + r, q) of the whole second layer. -/
theorem tile_pre (c : Dev nD) (t : Fin cfg1.N) (r : Fin 16000) (q : Fin 64) :
    k1_pay1 (iblk1 V c 0 t) (iblk1 V c 1 t) (iblk1 V c 2 t) (iblk1 V c 3 t) (iblk1 V c 4 t) (ix2 r q)
      = pre (arr0 V c) (arr1 V c) (arr2 V c) (arr3 V c) (arr4 V c) (tileRow (tileOf t) r) q :=
  pre_of_blocks _ _ _ _ _ _ _ _ _ _ _ r q (blk0_apply V c t r) (blk1_apply V c t) (blk2_apply V c t)
    (fun k => blk3_apply V c t k q) (blk4_apply V c t q)

/-! ## What point `t` writes back: its block of the whole-array functions -/

section WriteBacks
variable (c : Dev nD) (t : Fin cfg1.N)

local notation "A0" => (arr0 V c)
local notation "A1" => (arr1 V c)
local notation "A2" => (arr2 V c)
local notation "A3" => (arr3 V c)
local notation "A4" => (arr4 V c)

theorem flushed_pre :
    (dat1 V c).flushed 5 t = ((cfg1.win 5).blk t).view.read (Elt Ideal) (outPre A0 A1 A2 A3 A4) := by
  show (cfg1.win 5).cut (grid1.coords t) ((dat1 V c).after 5 t) = _
  rw [after1_5]
  unfold out1_5
  rw [View.canon_unit_zero hz2]
  simp only [View.ld_unit_zero (S := S16000x256) hz2, View.ld_unit_zero (S := S1x256) hz2, View.ld_unit_zero (S := S256x64) hz2,
    View.ld_unit_zero (S := S1x64) hz2]
  have key : ∀ j : S16000x64.Idx, k1_pay2 (iblk1 V c 0 t) (iblk1 V c 1 t) (iblk1 V c 2 t) (iblk1 V c 3 t) (iblk1 V c 4 t) j
      = outPre A0 A1 A2 A3 A4 (((cfg1.win 5).blk t).view.emb j) := fun j => by
    obtain ⟨r, q, rfl⟩ : ∃ (r : Fin 16000) (q : Fin 64), j = ix2 r q := ⟨j 0, j 1, eq_ix2 j⟩
    obtain ⟨-, -, -, -, -, -, -, -, -, -, e50, e51, -⟩ := idx_facts t
    refine (k1_pay2_apply (iblk1 V c 0 t) (iblk1 V c 1 t) (iblk1 V c 2 t) (iblk1 V c 3 t) (iblk1 V c 4 t) r q).trans ((tile_pre V c t r q).trans ?_)
    unfold outPre
    exact congrArg₂ (pre A0 A1 A2 A3 A4)
      (Fin.ext (by show 16000 * t.val + r.val = win1_5.index t (0 : Fin 2) * 16000 + 1 * r.val; omega))
      (Fin.ext (by show q.val = win1_5.index t (1 : Fin 2) * 64 + 1 * q.val; omega))
  funext j
  exact key j

theorem flushed_sum :
    (dat1 V c).flushed 6 t = ((cfg1.win 6).blk t).view.read (Elt Ideal) (outSum A0 A1 A2 A3 A4) := by
  show (cfg1.win 6).cut (grid1.coords t) ((dat1 V c).after 6 t) = _
  rw [after1_6]
  unfold out1_6
  rw [View.canon_unit_zero hz3]
  simp only [View.ld_unit_zero (S := S16000x256) hz2, View.ld_unit_zero (S := S1x256) hz2, View.ld_unit_zero (S := S256x64) hz2,
    View.ld_unit_zero (S := S1x64) hz2]
  have key : ∀ j : S1x1x64.Idx, k1_pay3 (iblk1 V c 0 t) (iblk1 V c 1 t) (iblk1 V c 2 t) (iblk1 V c 3 t) (iblk1 V c 4 t) j
      = outSum A0 A1 A2 A3 A4 (((cfg1.win 6).blk t).view.emb j) := fun j => by
    obtain ⟨u, u', q, rfl⟩ : ∃ (u u' : Fin 1) (q : Fin 64), j = ix3 u u' q := ⟨j 0, j 1, j 2, eq_ix3 j⟩
    obtain rfl : u = 0 := Fin.ext (by omega)
    obtain rfl : u' = 0 := Fin.ext (by omega)
    obtain ⟨-, -, -, -, -, -, -, -, -, -, -, -, e60, e61, e62, -⟩ := idx_facts t
    refine (k1_pay3_apply (iblk1 V c 0 t) (iblk1 V c 1 t) (iblk1 V c 2 t) (iblk1 V c 3 t) (iblk1 V c 4 t) q).trans ?_
    unfold outSum
    refine Finset.sum_congr rfl fun r _ => (tile_pre V c t r q).trans ?_
    exact congrArg₂ (pre A0 A1 A2 A3 A4)
      (Fin.ext (by show 16000 * t.val + r.val = 16000 * (win1_6.index t (0 : Fin 3) * 1 + 1 * 0) + r.val; omega))
      (Fin.ext (by show q.val = win1_6.index t (2 : Fin 3) * 64 + 1 * q.val; omega))
  funext j
  exact key j

theorem flushed_sumSq :
    (dat1 V c).flushed 7 t = ((cfg1.win 7).blk t).view.read (Elt Ideal) (outSumSq A0 A1 A2 A3 A4) := by
  show (cfg1.win 7).cut (grid1.coords t) ((dat1 V c).after 7 t) = _
  rw [after1_7]
  unfold out1_7
  rw [View.canon_unit_zero hz3]
  simp only [View.ld_unit_zero (S := S16000x256) hz2, View.ld_unit_zero (S := S1x256) hz2, View.ld_unit_zero (S := S256x64) hz2,
    View.ld_unit_zero (S := S1x64) hz2]
  have key : ∀ j : S1x1x64.Idx, k1_pay4 (iblk1 V c 0 t) (iblk1 V c 1 t) (iblk1 V c 2 t) (iblk1 V c 3 t) (iblk1 V c 4 t) j
      = outSumSq A0 A1 A2 A3 A4 (((cfg1.win 7).blk t).view.emb j) := fun j => by
    obtain ⟨u, u', q, rfl⟩ : ∃ (u u' : Fin 1) (q : Fin 64), j = ix3 u u' q := ⟨j 0, j 1, j 2, eq_ix3 j⟩
    obtain rfl : u = 0 := Fin.ext (by omega)
    obtain rfl : u' = 0 := Fin.ext (by omega)
    obtain ⟨-, -, -, -, -, -, -, -, -, -, -, -, -, -, -, e70, e71, e72⟩ := idx_facts t
    refine (k1_pay4_apply (iblk1 V c 0 t) (iblk1 V c 1 t) (iblk1 V c 2 t) (iblk1 V c 3 t) (iblk1 V c 4 t) q).trans ?_
    unfold outSumSq
    have hrow : ∀ r : Fin 16000, k1_pay1 (iblk1 V c 0 t) (iblk1 V c 1 t) (iblk1 V c 2 t) (iblk1 V c 3 t) (iblk1 V c 4 t) (ix2 r q)
        = pre A0 A1 A2 A3 A4 (tileRow ⟨(((cfg1.win 7).blk t).view.emb (ix3 (0 : Fin 1) (0 : Fin 1) q) 0).val, (((cfg1.win 7).blk t).view.emb (ix3 (0 : Fin 1) (0 : Fin 1) q) 0).isLt⟩ r)
            ⟨(((cfg1.win 7).blk t).view.emb (ix3 (0 : Fin 1) (0 : Fin 1) q) 2).val, (((cfg1.win 7).blk t).view.emb (ix3 (0 : Fin 1) (0 : Fin 1) q) 2).isLt⟩ := fun r =>
      (tile_pre V c t r q).trans (congrArg₂ (pre A0 A1 A2 A3 A4)
        (Fin.ext (by show 16000 * t.val + r.val = 16000 * (win1_7.index t (0 : Fin 3) * 1 + 1 * 0) + r.val; omega))
        (Fin.ext (by show q.val = win1_7.index t (2 : Fin 3) * 64 + 1 * q.val; omega)))
    exact Finset.sum_congr rfl fun r _ => by rw [hrow r]
  funext j
  exact key j

end WriteBacks

/-! ## The blocks tile the arrays -/

theorem mem_blk5 (t : Fin cfg1.N) (i : S800000x64.Idx) :
    i ∈ ((cfg1.win 5).blk t).view.set ↔ ∀ a : Fin 2, win1_5.index t a * S16000x64.size a ≤ (i a).val ∧ (i a).val < win1_5.index t a * S16000x64.size a + S16000x64.size a := by
  show i ∈ ((View.whole main_v36_0).slice (win1_5.rect t)).set ↔ _
  rw [View.set_slice_whole, Rect.mem_set_unit]
  exact Iff.rfl

theorem mem_blk6 (t : Fin cfg1.N) (i : S50x1x64.Idx) :
    i ∈ ((cfg1.win 6).blk t).view.set ↔ ∀ a : Fin 3, win1_6.index t a * S1x1x64.size a ≤ (i a).val ∧ (i a).val < win1_6.index t a * S1x1x64.size a + S1x1x64.size a := by
  show i ∈ ((View.whole main_v36_1).slice (win1_6.rect t)).set ↔ _
  rw [View.set_slice_whole, Rect.mem_set_unit]
  exact Iff.rfl

theorem mem_blk7 (t : Fin cfg1.N) (i : S50x1x64.Idx) :
    i ∈ ((cfg1.win 7).blk t).view.set ↔ ∀ a : Fin 3, win1_7.index t a * S1x1x64.size a ≤ (i a).val ∧ (i a).val < win1_7.index t a * S1x1x64.size a + S1x1x64.size a := by
  show i ∈ ((View.whole main_v36_2).slice (win1_7.rect t)).set ↔ _
  rw [View.set_slice_whole, Rect.mem_set_unit]
  exact Iff.rfl

/-- Row `e` of the second layer lies in the block of point `e / 16000`. -/
theorem cover5 (i : S800000x64.Idx) : ∃ t : Fin cfg1.N, (cfg1.win 5).flush t = true ∧ i ∈ ((cfg1.win 5).blk t).view.set := by
  have hi0 : (i 0).val < 800000 := (i 0).isLt
  have hi1 : (i 1).val < 64 := (i 1).isLt
  have hN : grid1.N = 50 := N_1
  refine ⟨⟨(i 0).val / 16000, by show _ < grid1.N; omega⟩, flush1_5 _, ?_⟩
  obtain ⟨-, -, -, -, -, -, -, -, -, -, e50, e51, -⟩ := idx_facts ⟨(i 0).val / 16000, by show _ < grid1.N; omega⟩
  have e50' : win1_5.index ⟨(i 0).val / 16000, by show _ < grid1.N; omega⟩ (0 : Fin 2) = (i 0).val / 16000 := e50
  rw [mem_blk5]
  intro a
  match a with
  | ⟨0, _⟩ => show win1_5.index _ (0 : Fin 2) * 16000 ≤ (i 0).val ∧ (i 0).val < win1_5.index _ (0 : Fin 2) * 16000 + 16000; omega
  | ⟨1, _⟩ => show win1_5.index _ (1 : Fin 2) * 64 ≤ (i 1).val ∧ (i 1).val < win1_5.index _ (1 : Fin 2) * 64 + 64; omega

/-- Row `t` of a per-tile array is the block of point `t`. -/
theorem cover6 (i : S50x1x64.Idx) : ∃ t : Fin cfg1.N, (cfg1.win 6).flush t = true ∧ i ∈ ((cfg1.win 6).blk t).view.set := by
  have hi0 : (i 0).val < 50 := (i 0).isLt
  have hi1 : (i 1).val < 1 := (i 1).isLt
  have hi2 : (i 2).val < 64 := (i 2).isLt
  have hN : grid1.N = 50 := N_1
  refine ⟨⟨(i 0).val, by show _ < grid1.N; omega⟩, flush1_6 _, ?_⟩
  obtain ⟨-, -, -, -, -, -, -, -, -, -, -, -, e60, e61, e62, -⟩ := idx_facts ⟨(i 0).val, by show _ < grid1.N; omega⟩
  have e60' : win1_6.index ⟨(i 0).val, by show _ < grid1.N; omega⟩ (0 : Fin 3) = (i 0).val := e60
  rw [mem_blk6]
  intro a
  match a with
  | ⟨0, _⟩ => show win1_6.index _ (0 : Fin 3) * 1 ≤ (i 0).val ∧ (i 0).val < win1_6.index _ (0 : Fin 3) * 1 + 1; omega
  | ⟨1, _⟩ => show win1_6.index _ (1 : Fin 3) * 1 ≤ (i 1).val ∧ (i 1).val < win1_6.index _ (1 : Fin 3) * 1 + 1; omega
  | ⟨2, _⟩ => show win1_6.index _ (2 : Fin 3) * 64 ≤ (i 2).val ∧ (i 2).val < win1_6.index _ (2 : Fin 3) * 64 + 64; omega

theorem cover7 (i : S50x1x64.Idx) : ∃ t : Fin cfg1.N, (cfg1.win 7).flush t = true ∧ i ∈ ((cfg1.win 7).blk t).view.set := by
  have hi0 : (i 0).val < 50 := (i 0).isLt
  have hi1 : (i 1).val < 1 := (i 1).isLt
  have hi2 : (i 2).val < 64 := (i 2).isLt
  have hN : grid1.N = 50 := N_1
  refine ⟨⟨(i 0).val, by show _ < grid1.N; omega⟩, flush1_7 _, ?_⟩
  obtain ⟨-, -, -, -, -, -, -, -, -, -, -, -, -, -, -, e70, e71, e72⟩ := idx_facts ⟨(i 0).val, by show _ < grid1.N; omega⟩
  have e70' : win1_7.index ⟨(i 0).val, by show _ < grid1.N; omega⟩ (0 : Fin 3) = (i 0).val := e70
  rw [mem_blk7]
  intro a
  match a with
  | ⟨0, _⟩ => show win1_7.index _ (0 : Fin 3) * 1 ≤ (i 0).val ∧ (i 0).val < win1_7.index _ (0 : Fin 3) * 1 + 1; omega
  | ⟨1, _⟩ => show win1_7.index _ (1 : Fin 3) * 1 ≤ (i 1).val ∧ (i 1).val < win1_7.index _ (1 : Fin 3) * 1 + 1; omega
  | ⟨2, _⟩ => show win1_7.index _ (2 : Fin 3) * 64 ≤ (i 2).val ∧ (i 2).val < win1_7.index _ (2 : Fin 3) * 64 + 64; omega

/-! ## The arrays after the grid -/

theorem final_pre (c : Dev nD) : (dat1 V c).arrAt 5 cfg1.N
    = outPre (V c (Pipeline.arrRef spec1 0)) (V c (Pipeline.arrRef spec1 1)) (V c (Pipeline.arrRef spec1 2)) (V c (Pipeline.arrRef spec1 3)) (V c (Pipeline.arrRef spec1 4)) :=
  (dat1 V c).arrAt_eq_of_cover 5 _ (fun t _ => flushed_pre V c t) cover5

theorem final_sum (c : Dev nD) : (dat1 V c).arrAt 6 cfg1.N
    = outSum (V c (Pipeline.arrRef spec1 0)) (V c (Pipeline.arrRef spec1 1)) (V c (Pipeline.arrRef spec1 2)) (V c (Pipeline.arrRef spec1 3)) (V c (Pipeline.arrRef spec1 4)) :=
  (dat1 V c).arrAt_eq_of_cover 6 _ (fun t _ => flushed_sum V c t) cover6

theorem final_sumSq (c : Dev nD) : (dat1 V c).arrAt 7 cfg1.N
    = outSumSq (V c (Pipeline.arrRef spec1 0)) (V c (Pipeline.arrRef spec1 1)) (V c (Pipeline.arrRef spec1 2)) (V c (Pipeline.arrRef spec1 3)) (V c (Pipeline.arrRef spec1 4)) :=
  (dat1 V c).arrAt_eq_of_cover 7 _ (fun t _ => flushed_sumSq V c t) cover7

end Cert.KernelIdeal.Grid1

end
-- ==== Proof.KGrid2.lean ====
/-
  What the third grid leaves in its output array, as a whole-array function of its five input arrays.

  The grid has 50 points; point t stages rows 16000·t … 16000·t + 15999 of the second layer's entries, the whole rows of
  channel means and channel variances, the whole last weight column and the last bias, and writes back row t of the
  output array: for each of the tile's 16000 edges, the edge's row normalized channel by channel (subtract the mean,
  multiply by the reciprocal square root of the variance plus the small constant), clipped below at zero, times the
  weight column, plus the bias. The blocks of the output tile its array, so after the grid the output array IS one
  function of the input arrays: entry (t, 0, r) is the last layer at edge 16000·t + r.
-/
import proofs.«113298_j41841571397745_2_alg».proof.Proof.KernelIdealFrame
import proofs.«113298_j41841571397745_2_alg».proof.Proof.KTile
import proofs.«113298_j41841571397745_2_alg».proof.Proof.Spec
import Idealize.ShloMosaic.Lib.Pipeline.Value
import Idealize.ShloMosaic.Lib.ValueIdx

set_option maxRecDepth 16384

noncomputable section

open scoped BigOperators

namespace Cert.KernelIdeal.Grid2

open Cert.KernelIdeal Cert.KernelIdeal.Gen Cert.KernelIdeal.GenP Cert.KernelIdeal.Tile Cert.EdgeNet
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-- Where each window's block sits at point `t`: the two row-tiled windows at block row `t`, the others at the origin. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 3) = t.val ∧ win2_5.index t (1 : Fin 3) = 0 ∧ win2_5.index t (2 : Fin 3) = 0 :=
  (by decide +kernel : ∀ t : Fin grid2.N, _)

/-- The point as a tile number. -/
abbrev tileOf (t : Fin cfg2.N) : Fin 50 := Fin.cast N_2 t

/-- The second layer's entries, a row of per-channel numbers and the weight column as the grid finds them, by
    coordinates. -/
abbrev featOf (A0 : S800000x64.Idx → EReal) : Fin 800000 → Fin 64 → EReal := fun e k => A0 (ix2 e k)
abbrev chanOf (A : S1x64.Idx → EReal) : Fin 64 → EReal := fun k => A (ix2 (0 : Fin 1) k)
abbrev colOf (A3 : S64x1.Idx → EReal) : Fin 64 → EReal := fun k => A3 (ix2 k (0 : Fin 1))

/-- The output array as a function of the input arrays: entry (t, 0, r) is the last layer, applied to the normalized and
    clipped second layer, at edge 16000·t + r. -/
def outLast (A0 : S800000x64.Idx → EReal) (A1 A2 : S1x64.Idx → EReal) (A3 : S64x1.Idx → EReal) (A4 : S1x1.Idx → EReal) :
    S50x1x16000.Idx → EReal :=
  fun i => lastLayer (normRelu (featOf A0) (chanOf A1) (chanOf A2)) (colOf A3) (A4 (ix2 (0 : Fin 1) (0 : Fin 1)))
    (tileRow ⟨(i 0).val, (i 0).isLt⟩ ⟨(i 2).val, (i 2).isLt⟩)

/-! ## One tile's output entry, from the staged blocks -/

/-- The staged block of the second layer's entries at point `t`, read at (r, k): entry (16000·t + r, k) of the array. -/
theorem blk0 (c : Dev nD) (t : Fin cfg2.N) (r : Fin 16000) (k : Fin 64) :
    iblk2 V c 0 t (ix2 r k) = featOf (V c (Pipeline.arrRef spec2 0)) (tileRow (tileOf t) r) k := by
  obtain ⟨e00, e01, -⟩ := idx_facts t
  show (V c (Pipeline.arrRef spec2 0) : S800000x64.Idx → EReal) (((cfg2.win 0).blk t).view.emb (ix2 r k)) = _
  refine congrArg (V c (Pipeline.arrRef spec2 0) : S800000x64.Idx → EReal) (funext fun a => Fin.ext ?_)
  match a with
  | ⟨0, _⟩ => show win2_0.index t (0 : Fin 2) * 16000 + 1 * r.val = 16000 * t.val + r.val; omega
  | ⟨1, _⟩ => show win2_0.index t (1 : Fin 2) * 64 + 1 * k.val = k.val; omega

/-- The staged row of channel means is the whole array. -/
theorem blk1 (c : Dev nD) (t : Fin cfg2.N) (k : Fin 64) :
    iblk2 V c 1 t (ix2 (0 : Fin 1) k) = chanOf (V c (Pipeline.arrRef spec2 1)) k := by
  obtain ⟨-, -, e10, e11, -⟩ := idx_facts t
  show (V c (Pipeline.arrRef spec2 1) : S1x64.Idx → EReal) (((cfg2.win 1).blk t).view.emb (ix2 (0 : Fin 1) k)) = _
  refine congrArg (V c (Pipeline.arrRef spec2 1) : S1x64.Idx → EReal) (funext fun a => Fin.ext ?_)
  match a with
  | ⟨0, _⟩ => show win2_1.index t (0 : Fin 2) * 1 + 1 * 0 = 0; omega
  | ⟨1, _⟩ => show win2_1.index t (1 : Fin 2) * 64 + 1 * k.val = k.val; omega

/-- The staged row of channel variances is the whole array. -/
theorem blk2 (c : Dev nD) (t : Fin cfg2.N) (k : Fin 64) :
    iblk2 V c 2 t (ix2 (0 : Fin 1) k) = chanOf (V c (Pipeline.arrRef spec2 2)) k := by
  obtain ⟨-, -, -, -, e20, e21, -⟩ := idx_facts t
  show (V c (Pipeline.arrRef spec2 2) : S1x64.Idx → EReal) (((cfg2.win 2).blk t).view.emb (ix2 (0 : Fin 1) k)) = _
  refine congrArg (V c (Pipeline.arrRef spec2 2) : S1x64.Idx → EReal) (funext fun a => Fin.ext ?_)
  match a with
  | ⟨0, _⟩ => show win2_2.index t (0 : Fin 2) * 1 + 1 * 0 = 0; omega
  | ⟨1, _⟩ => show win2_2.index t (1 : Fin 2) * 64 + 1 * k.val = k.val; omega

/-- The staged weight column is the whole array. -/
theorem blk3 (c : Dev nD) (t : Fin cfg2.N) (k : Fin 64) :
    iblk2 V c 3 t (ix2 k (0 : Fin 1)) = colOf (V c (Pipeline.arrRef spec2 3)) k := by
  obtain ⟨-, -, -, -, -, -, e30, e31, -⟩ := idx_facts t
  show (V c (Pipeline.arrRef spec2 3) : S64x1.Idx → EReal) (((cfg2.win 3).blk t).view.emb (ix2 k (0 : Fin 1))) = _
  refine congrArg (V c (Pipeline.arrRef spec2 3) : S64x1.Idx → EReal) (funext fun a => Fin.ext ?_)
  match a with
  | ⟨0, _⟩ => show win2_3.index t (0 : Fin 2) * 64 + 1 * k.val = k.val; omega
  | ⟨1, _⟩ => show win2_3.index t (1 : Fin 2) * 1 + 1 * 0 = 0; omega

/-- The staged bias is the whole one-entry array. -/
theorem blk4 (c : Dev nD) (t : Fin cfg2.N) :
    iblk2 V c 4 t (ix2 (0 : Fin 1) (0 : Fin 1))
      = (V c (Pipeline.arrRef spec2 4) : S1x1.Idx → EReal) (ix2 (0 : Fin 1) (0 : Fin 1)) := by
  obtain ⟨-, -, -, -, -, -, -, -, e40, e41, -⟩ := idx_facts t
  show (V c (Pipeline.arrRef spec2 4) : S1x1.Idx → EReal) (((cfg2.win 4).blk t).view.emb (ix2 (0 : Fin 1) (0 : Fin 1))) = _
  refine congrArg (V c (Pipeline.arrRef spec2 4) : S1x1.Idx → EReal) (funext fun a => Fin.ext ?_)
  match a with
  | ⟨0, _⟩ => show win2_4.index t (0 : Fin 2) * 1 + 1 * 0 = 0; omega
  | ⟨1, _⟩ => show win2_4.index t (1 : Fin 2) * 1 + 1 * 0 = 0; omega

/-- Entry r of the body's output tile at point `t` is the last layer at edge 16000·t + r. -/
theorem tile_last (c : Dev nD) (t : Fin cfg2.N) (r : Fin 16000) :
    k2_pay1 (iblk2 V c 0 t) (iblk2 V c 1 t) (iblk2 V c 2 t) (iblk2 V c 3 t) (iblk2 V c 4 t) (ix3 (0 : Fin 1) (0 : Fin 1) r)
      = lastLayer (normRelu (featOf (V c (Pipeline.arrRef spec2 0))) (chanOf (V c (Pipeline.arrRef spec2 1)))
            (chanOf (V c (Pipeline.arrRef spec2 2)))) (colOf (V c (Pipeline.arrRef spec2 3)))
          ((V c (Pipeline.arrRef spec2 4) : S1x1.Idx → EReal) (ix2 (0 : Fin 1) (0 : Fin 1))) (tileRow (tileOf t) r) := by
  refine (k2_pay1_apply (iblk2 V c 0 t) (iblk2 V c 1 t) (iblk2 V c 2 t) (iblk2 V c 3 t) (iblk2 V c 4 t) r).trans ?_
  show _ = (∑ k : Fin 64,
        max ((featOf (V c (Pipeline.arrRef spec2 0)) (tileRow (tileOf t) r) k - chanOf (V c (Pipeline.arrRef spec2 1)) k)
          * Ideal.rsqrt (chanOf (V c (Pipeline.arrRef spec2 2)) k + Ideal.ofBits .f32 0x3727C5AC#32)) 0
        * colOf (V c (Pipeline.arrRef spec2 3)) k)
      + (V c (Pipeline.arrRef spec2 4) : S1x1.Idx → EReal) (ix2 (0 : Fin 1) (0 : Fin 1))
  rw [blk4 V c t]
  exact congrArg (· + _) (Finset.sum_congr rfl fun k _ => by rw [blk0 V c t r k, blk1 V c t k, blk2 V c t k, blk3 V c t k])

/-! ## What point `t` writes back: its block of the whole-array function -/

section WriteBacks
variable (c : Dev nD) (t : Fin cfg2.N)

local notation "A0" => (V c (Pipeline.arrRef spec2 0))
local notation "A1" => (V c (Pipeline.arrRef spec2 1))
local notation "A2" => (V c (Pipeline.arrRef spec2 2))
local notation "A3" => (V c (Pipeline.arrRef spec2 3))
local notation "A4" => (V c (Pipeline.arrRef spec2 4))

theorem flushed_last :
    (dat2 V c).flushed 5 t = ((cfg2.win 5).blk t).view.read (Elt Ideal) (outLast A0 A1 A2 A3 A4) := by
  show (cfg2.win 5).cut (grid2.coords t) ((dat2 V c).after 5 t) = _
  rw [after2_5]
  unfold out2_5
  rw [View.canon_unit_zero hz3]
  simp only [View.ld_unit_zero (S := S16000x64) hz2, View.ld_unit_zero (S := S1x64) hz2, View.ld_unit_zero (S := S64x1) hz2,
    View.ld_unit_zero (S := S1x1) hz2]
  have key : ∀ j : S1x1x16000.Idx,
      k2_pay1 (iblk2 V c 0 t) (iblk2 V c 1 t) (iblk2 V c 2 t) (iblk2 V c 3 t) (iblk2 V c 4 t) j
        = outLast A0 A1 A2 A3 A4 (((cfg2.win 5).blk t).view.emb j) := fun j => by
    obtain ⟨u, u', r, rfl⟩ : ∃ (u u' : Fin 1) (r : Fin 16000), j = ix3 u u' r := ⟨j 0, j 1, j 2, eq_ix3 j⟩
    obtain rfl : u = 0 := Fin.ext (by omega)
    obtain rfl : u' = 0 := Fin.ext (by omega)
    obtain ⟨-, -, -, -, -, -, -, -, -, -, e50, e51, e52⟩ := idx_facts t
    refine (tile_last V c t r).trans ?_
    unfold outLast
    exact congrArg (lastLayer (normRelu (featOf A0) (chanOf A1) (chanOf A2)) (colOf A3) ((A4 : S1x1.Idx → EReal) (ix2 (0 : Fin 1) (0 : Fin 1))))
      (Fin.ext (by
        show 16000 * t.val + r.val
          = 16000 * (win2_5.index t (0 : Fin 3) * 1 + 1 * 0) + (win2_5.index t (2 : Fin 3) * 16000 + 1 * r.val)
        omega))
  funext j
  exact key j

end WriteBacks

/-! ## The blocks tile the array -/

theorem mem_blk5 (t : Fin cfg2.N) (i : S50x1x16000.Idx) :
    i ∈ ((cfg2.win 5).blk t).view.set ↔ ∀ a : Fin 3, win2_5.index t a * S1x1x16000.size a ≤ (i a).val ∧ (i a).val < win2_5.index t a * S1x1x16000.size a + S1x1x16000.size a := by
  show i ∈ ((View.whole main_v47).slice (win2_5.rect t)).set ↔ _
  rw [View.set_slice_whole, Rect.mem_set_unit]
  exact Iff.rfl

/-- Row `t` of the output array is the block of point `t`. -/
theorem cover5 (i : S50x1x16000.Idx) : ∃ t : Fin cfg2.N, (cfg2.win 5).flush t = true ∧ i ∈ ((cfg2.win 5).blk t).view.set := by
  have hi0 : (i 0).val < 50 := (i 0).isLt
  have hi1 : (i 1).val < 1 := (i 1).isLt
  have hi2 : (i 2).val < 16000 := (i 2).isLt
  have hN : grid2.N = 50 := N_2
  refine ⟨⟨(i 0).val, by show _ < grid2.N; omega⟩, flush2_5 _, ?_⟩
  obtain ⟨-, -, -, -, -, -, -, -, -, -, e50, e51, e52⟩ := idx_facts ⟨(i 0).val, by show _ < grid2.N; omega⟩
  have e50' : win2_5.index ⟨(i 0).val, by show _ < grid2.N; omega⟩ (0 : Fin 3) = (i 0).val := e50
  rw [mem_blk5]
  intro a
  match a with
  | ⟨0, _⟩ => show win2_5.index _ (0 : Fin 3) * 1 ≤ (i 0).val ∧ (i 0).val < win2_5.index _ (0 : Fin 3) * 1 + 1; omega
  | ⟨1, _⟩ => show win2_5.index _ (1 : Fin 3) * 1 ≤ (i 1).val ∧ (i 1).val < win2_5.index _ (1 : Fin 3) * 1 + 1; omega
  | ⟨2, _⟩ => show win2_5.index _ (2 : Fin 3) * 16000 ≤ (i 2).val ∧ (i 2).val < win2_5.index _ (2 : Fin 3) * 16000 + 16000; omega

/-! ## The array after the grid -/

theorem final_last (c : Dev nD) : (dat2 V c).arrAt 5 cfg2.N
    = outLast (V c (Pipeline.arrRef spec2 0)) (V c (Pipeline.arrRef spec2 1)) (V c (Pipeline.arrRef spec2 2))
        (V c (Pipeline.arrRef spec2 3)) (V c (Pipeline.arrRef spec2 4)) :=
  (dat2 V c).arrAt_eq_of_cover 5 _ (fun t _ => flushed_last V c t) cover5

end Cert.KernelIdeal.Grid2

end
-- ==== Proof.LibFinite.lean ====
/-
  Extended reals that are real numbers, and the operations that keep them so.
-/
import Idealize.ShloMosaic.PureOps.Ideal

noncomputable section

namespace Cert.LibFinite

open Idealize.ShloMosaic

/-- An extended real that is a real number (neither infinity). -/
def IsFin (x : EReal) : Prop := ∃ y : ℝ, x = (y : EReal)

theorem isFin_coe (y : ℝ) : IsFin (y : EReal) := ⟨y, rfl⟩

/-- Zero is the real number zero. -/
theorem isFin_zero : IsFin (0 : EReal) := ⟨0, rfl⟩

/-- The sum of two reals is the real sum: the coercion is additive. -/
theorem IsFin.add {x y : EReal} (hx : IsFin x) (hy : IsFin y) : IsFin (x + y) := by
  obtain ⟨a, rfl⟩ := hx
  obtain ⟨b, rfl⟩ := hy
  exact ⟨a + b, (EReal.coe_add a b).symm⟩

/-- The difference of two reals is the real difference. -/
theorem IsFin.sub {x y : EReal} (hx : IsFin x) (hy : IsFin y) : IsFin (x - y) := by
  obtain ⟨a, rfl⟩ := hx
  obtain ⟨b, rfl⟩ := hy
  exact ⟨a - b, (EReal.coe_sub a b).symm⟩

/-- The product of two reals is the real product. -/
theorem IsFin.mul {x y : EReal} (hx : IsFin x) (hy : IsFin y) : IsFin (x * y) := by
  obtain ⟨a, rfl⟩ := hx
  obtain ⟨b, rfl⟩ := hy
  exact ⟨a * b, (EReal.coe_mul a b).symm⟩

/-- The larger of two reals is one of them. -/
theorem IsFin.max {x y : EReal} (hx : IsFin x) (hy : IsFin y) : IsFin (max x y) := by
  rcases max_choice x y with h | h
  · rw [h]; exact hx
  · rw [h]; exact hy

/-- A real divided by a nonzero real is the real quotient: off zero the quotient is the product with the
    inverse, and the inverse of a real is the real inverse. -/
theorem IsFin.div {x y : EReal} (hx : IsFin x) (hy : IsFin y) (h0 : y ≠ 0) : IsFin (Ideal.div x y) := by
  obtain ⟨a, rfl⟩ := hx
  obtain ⟨b, rfl⟩ := hy
  refine ⟨a * b⁻¹, ?_⟩
  rw [Ideal.div, if_neg h0, ← EReal.coe_inv, ← EReal.coe_mul]

/-- A finite sum of reals is a real, by induction on the index set. -/
theorem IsFin.sum {ι : Type} (s : Finset ι) (f : ι → EReal) (h : ∀ i ∈ s, IsFin (f i)) :
    IsFin (∑ i ∈ s, f i) := by
  classical
  induction s using Finset.induction_on with
  | empty => simpa using isFin_zero
  | insert a s ha ih =>
    rw [Finset.sum_insert ha]
    exact (h a (Finset.mem_insert_self a s)).add (ih fun i hi => h i (Finset.mem_insert_of_mem hi))

/-- The pattern of `+0.0` denotes `0`. -/
theorem ofBits_zero : Ideal.ofBits .f32 0x00000000#32 = (0 : EReal) := by
  simp [Ideal.ofBits, Ideal.ieee]

/-- The pattern of `1.0` (exponent field `127`, zero fraction) denotes `2^23 · 2^(127 - 127 - 23) = 1`. -/
theorem ofBits_one : Ideal.ofBits .f32 0x3F800000#32 = ((1 : ℝ) : EReal) := by
  simp [Ideal.ofBits, Ideal.ieee, -EReal.coe_mul]; norm_num

/-- The pattern `0x47C35000` (exponent field `143`, fraction `0x435000`) denotes
    `(2^23 + 0x435000) · 2^(143 - 127 - 23) = 12800000 / 128 = 100000`. -/
theorem ofBits_1e5 : Ideal.ofBits .f32 0x47C35000#32 = ((100000 : ℝ) : EReal) := by
  simp [Ideal.ofBits, Ideal.ieee, -EReal.coe_mul]; norm_num

/-- The pattern `0x3727C5AC` has exponent field `110`, neither all ones nor zero: a normal number, a real. -/
theorem isFin_ofBits_eps : IsFin (Ideal.ofBits .f32 0x3727C5AC#32) := by
  simp [Ideal.ofBits, Ideal.ieee, -EReal.coe_mul]
  exact isFin_coe _

/-- A maximum against `1` is at least `1`, so it is not `0`. -/
theorem max_one_ne_zero (x : EReal) : max x (Ideal.ofBits .f32 0x3F800000#32) ≠ 0 := by
  rw [ofBits_one]
  have h : ((1 : ℝ) : EReal) ≤ max x ((1 : ℝ) : EReal) := le_max_right _ _
  have h0 : (0 : EReal) < ((1 : ℝ) : EReal) := by exact_mod_cast zero_lt_one
  exact (lt_of_lt_of_le h0 h).ne'

end Cert.LibFinite

end
-- ==== Proof.FiniteInputs.lean ====
/-
  Finiteness of the inputs, and two operations that keep it.

  The precondition computes, for each float input x, the conjunction over all entries of "|x| < +infinity", and
  states that the conjunction of the seven results is true. Read back entry by entry: an extended real whose
  absolute value lies strictly below the top element is neither infinity, hence a real number. A gather only
  selects entries of its operand, and a concatenation only selects entries of its pieces, so both keep the
  property "every entry is a real number".
-/
import proofs.«113298_j41841571397745_2_alg».proof.Pre_finite_inputs
import proofs.«113298_j41841571397745_2_alg».proof.Proof.LibFinite
import Idealize.ShloMosaic.Lib.ReduceAll
import Idealize.ShloMosaic.Lib.ValueIdx
import Idealize.ShloMosaic.PureOps.Ideal

noncomputable section

namespace Cert.EdgeNet.Inputs

open Idealize.ShloMosaic Cert.LibFinite Cert.Pre_finite_inputs

/-- The scalar shape has exactly one index. -/
instance subsingleton_scalarIdx : Subsingleton S_.Idx := ⟨fun a b => funext fun d => d.elim0⟩

/-- The single-precision pattern with all exponent bits set and zero fraction denotes the top element. -/
theorem ofBits_inf : Ideal.ofBits .f32 0x7F800000#32 = (⊤ : EReal) := by
  simp [Ideal.ofBits, Ideal.ieee]

/-- A one-bit word made from a truth value is 1 exactly when the truth value is true. -/
theorem ofBool_eq_one {b : Bool} : BitVec.ofBool b = 1#1 ↔ b = true := by cases b <;> decide

/-- If the comparison "|x| < +infinity" came out true then x is a real number: at the bottom and at the top element
    the absolute value max x (-x) is the top element, which is not strictly below itself. -/
theorem isFin_of_abs_lt_inf (x : EReal)
    (h : FloatOps.cmpf (F := Ideal) (φ := .f32) .olt (FloatOps.hostAbsf (F := Ideal) (φ := .f32) x)
      (FloatOps.ofBits (F := Ideal) .f32 0x7F800000#32) = 1#1) : IsFin x := by
  have hlt : max x (-x) < (⊤ : EReal) := by
    have h' : BitVec.ofBool (decide (max x (-x) < Ideal.ofBits .f32 0x7F800000#32)) = 1#1 := h
    rw [ofBool_eq_one, decide_eq_true_eq, ofBits_inf] at h'
    exact h'
  induction x using EReal.rec with
  | bot => simp at hlt
  | top => simp at hlt
  | coe r => exact isFin_coe r

/-- One input's part of the precondition: if the conjunction over all entries of "|x| < +infinity" is true, every
    entry of x is a real number. -/
theorem all_fin {s : Shape} {axes : List (Fin s.rank)} (x : FVec Ideal s .f32)
    (hb : S_.BroadcastsInDim s (![] : Fin 0 → Fin s.rank)) (hr : s.ReducesTo axes S_) (h0 : 0 < S_.numel)
    (init : IVec S_ 1) (j : S_.Idx)
    (e : Host.reduce IntOp.andi
        (cmpf .olt (Host.absf x) (broadcastInDim s ![] hb (constant (F := Ideal) S_ .f32 0x7F800000#32))) init hr h0 j
      = 1#1) : ∀ i, IsFin (x i) :=
  fun i => isFin_of_abs_lt_inf (x i) (Host.reduce_andi_all _ init hr h0 j e i)

/-- The precondition read back: every entry of each of the five float inputs the network uses is a real number. -/
theorem inputs_finite [Cert.Pre_finite_inputs.Facts]
    (x0 : FVec Ideal S50000x64 .f32) (x1 : IVec S2x800000 32) (x2 : FVec Ideal S128x256 .f32)
    (x3 : FVec Ideal S256 .f32) (x4 : FVec Ideal S256x64 .f32) (x5 : FVec Ideal S64 .f32)
    (x6 : FVec Ideal S64x1 .f32) (x7 : FVec Ideal S1 .f32)
    (h : Cert.Pre_finite_inputs.fn (F := Ideal) x0 x1 x2 x3 x4 x5 x6 x7 = fun _ => 1#1) :
    (∀ i, IsFin (x0 i)) ∧ (∀ i, IsFin (x2 i)) ∧ (∀ i, IsFin (x3 i)) ∧ (∀ i, IsFin (x4 i)) ∧ (∀ i, IsFin (x5 i)) := by
  have e := congrFun h ValueIdx.ix0
  dsimp only [Cert.Pre_finite_inputs.fn, Cert.Pre_finite_inputs.fn_part1] at e
  simp only [andi, IntOp.andi_eq_one] at e
  obtain ⟨⟨⟨⟨⟨⟨e0, e2⟩, e3⟩, e4⟩, e5⟩, -⟩, -⟩ := e
  exact ⟨all_fin x0 _ _ _ _ _ e0, all_fin x2 _ _ _ _ _ e2, all_fin x3 _ _ _ _ _ e3, all_fin x4 _ _ _ _ _ e4,
    all_fin x5 _ _ _ _ _ e5⟩

/-- Every entry of a gather is an entry of its operand. -/
theorem gather_fin {s si t : Shape} {w : Nat} (d : GatherDims s si t) (x : s.Idx → EReal) (idx : IVec si w)
    (hx : ∀ i, IsFin (x i)) : ∀ j, IsFin (Host.gather d x idx j) :=
  fun j => hx (d.operandIdx j idx)

/-- Every entry of a concatenation is an entry of one of its pieces: a property of all entries of all pieces is a
    property of all entries of the result. -/
theorem concat_all {α : Type} (P : α → Prop) {t : Shape} (a : Fin t.rank) (xs : List ((s : Shape) × (s.Idx → α)))
    (h : Shape.Concatenates (xs.map (·.1)) t a) (hx : ∀ p ∈ xs, ∀ i, P (p.2 i)) (j : t.Idx) :
    P (concatenate t a xs h j) := by
  unfold concatenate
  exact hx _ (List.getElem_mem _) _

/-- Every entry of a two-piece concatenation of arrays of real numbers is a real number. -/
theorem concat_fin {t s₁ s₂ : Shape} (a : Fin t.rank) (x₁ : s₁.Idx → EReal) (x₂ : s₂.Idx → EReal)
    (h : Shape.Concatenates [s₁, s₂] t a) (h₁ : ∀ i, IsFin (x₁ i)) (h₂ : ∀ i, IsFin (x₂ i)) :
    ∀ j, IsFin (concatenate t a [⟨s₁, x₁⟩, ⟨s₂, x₂⟩] h j) := by
  intro j
  refine concat_all IsFin a [⟨s₁, x₁⟩, ⟨s₂, x₂⟩] h (fun p hp => ?_) j
  rcases List.mem_cons.1 hp with rfl | hp
  · exact h₁
  · rcases List.mem_cons.1 hp with rfl | hp
    · exact h₂
    · exact absurd hp (List.not_mem_nil)

end Cert.EdgeNet.Inputs

end
-- ==== Proof.KHostInputs.lean ====
/-
  The arrays the first stretch of host operations hands to the first region, read back from the arguments.

  The stretch takes the two rows of the index array, adds the table height to each negative index, gathers the
  indexed rows of the embedding table twice and joins the two gathered matrices side by side: the feature matrix. It
  also passes the two weight matrices through a change of format, which is the identity on extended reals, and gives
  each bias vector a leading axis of extent one. It writes none of the arguments.

  The reference program builds its feature matrix by the same operations in the same order (without the change of
  format), so the two feature matrices are the same function of the table and the index array. A gather only selects
  entries of its operand and a concatenation only selects entries of its pieces, so the feature matrix of a table of
  real numbers consists of real numbers.
-/
import proofs.«113298_j41841571397745_2_alg».proof.Proof.KernelIdealLaunch
import proofs.«113298_j41841571397745_2_alg».proof.Proof.FiniteInputs
import proofs.«113298_j41841571397745_2_alg».proof.Proof.Gen.ReferenceIdeal.Read
import Idealize.ShloMosaic.Lib.StableHlo.Run
import Idealize.ShloMosaic.Lib.ValueIdx
import Idealize.ShloMosaic.Lib.ValueLayout
import Idealize.ShloMosaic.Lib.Pipeline.Value

noncomputable section

namespace Cert.KernelIdeal.HostInputs

open Cert.KernelIdeal Cert.KernelIdeal.Gen Cert.KernelIdeal.GenP
open Idealize.ShloMosaic Idealize.ShloMosaic.ValueIdx Idealize.ShloMosaic.TcCoe Idealize.SL.Sem
open Idealize.ShloMosaic.StableHlo (after_of_forall_not_mem)
open Cert.LibFinite Cert.EdgeNet.Inputs

variable (Vin : Valuation τ sig (Elt Ideal))

/-! ## The stretch writes no argument -/

theorem kept0_main_arg6 :
    StableHlo.after (hostOps0 (F := Ideal)) Vin (Proc.devRef .tc main_arg6) = Vin (Proc.devRef .tc main_arg6) :=
  StableHlo.after_of_forall_not_mem (b := Proc.devRef .tc main_arg6) _ _ (List.forall_iff_forall_mem.mp (by
    simp only [hostOps0, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

theorem kept0_main_arg0 :
    StableHlo.after (hostOps0 (F := Ideal)) Vin (Proc.devRef .tc main_arg0) = Vin (Proc.devRef .tc main_arg0) :=
  StableHlo.after_of_forall_not_mem (b := Proc.devRef .tc main_arg0) _ _ (List.forall_iff_forall_mem.mp (by
    simp only [hostOps0, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

theorem kept0_main_arg1 :
    StableHlo.after (hostOps0 (F := Ideal)) Vin (Proc.devRef .tc main_arg1) = Vin (Proc.devRef .tc main_arg1) :=
  StableHlo.after_of_forall_not_mem (b := Proc.devRef .tc main_arg1) _ _ (List.forall_iff_forall_mem.mp (by
    simp only [hostOps0, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

theorem kept0_main_arg2 :
    StableHlo.after (hostOps0 (F := Ideal)) Vin (Proc.devRef .tc main_arg2) = Vin (Proc.devRef .tc main_arg2) :=
  StableHlo.after_of_forall_not_mem (b := Proc.devRef .tc main_arg2) _ _ (List.forall_iff_forall_mem.mp (by
    simp only [hostOps0, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

theorem kept0_main_arg3 :
    StableHlo.after (hostOps0 (F := Ideal)) Vin (Proc.devRef .tc main_arg3) = Vin (Proc.devRef .tc main_arg3) :=
  StableHlo.after_of_forall_not_mem (b := Proc.devRef .tc main_arg3) _ _ (List.forall_iff_forall_mem.mp (by
    simp only [hostOps0, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

theorem kept0_main_arg4 :
    StableHlo.after (hostOps0 (F := Ideal)) Vin (Proc.devRef .tc main_arg4) = Vin (Proc.devRef .tc main_arg4) :=
  StableHlo.after_of_forall_not_mem (b := Proc.devRef .tc main_arg4) _ _ (List.forall_iff_forall_mem.mp (by
    simp only [hostOps0, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

theorem kept0_main_arg5 :
    StableHlo.after (hostOps0 (F := Ideal)) Vin (Proc.devRef .tc main_arg5) = Vin (Proc.devRef .tc main_arg5) :=
  StableHlo.after_of_forall_not_mem (b := Proc.devRef .tc main_arg5) _ _ (List.forall_iff_forall_mem.mp (by
    simp only [hostOps0, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

theorem kept0_main_arg7 :
    StableHlo.after (hostOps0 (F := Ideal)) Vin (Proc.devRef .tc main_arg7) = Vin (Proc.devRef .tc main_arg7) :=
  StableHlo.after_of_forall_not_mem (b := Proc.devRef .tc main_arg7) _ _ (List.forall_iff_forall_mem.mp (by
    simp only [hostOps0, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

/-! ## The weights and the biases -/

/-- The first weight matrix as the first region reads it is the argument: the change of format is the identity. -/
theorem w1_eq : (StableHlo.after (hostOps0 (F := Ideal)) Vin (Proc.devRef .tc main_v20) : S128x256.Idx → EReal)
    = (Vin (Proc.devRef .tc main_arg2) : S128x256.Idx → EReal) := by
  after_results
  rfl

theorem w1_apply (k : Fin 128) (c : Fin 256) :
    (StableHlo.after (hostOps0 (F := Ideal)) Vin (Proc.devRef .tc main_v20) : S128x256.Idx → EReal) (ix2 k c)
      = (Vin (Proc.devRef .tc main_arg2) : S128x256.Idx → EReal) (ix2 k c) :=
  congrFun (w1_eq Vin) (ix2 k c)

/-- The second weight matrix likewise. -/
theorem w2_eq : (StableHlo.after (hostOps0 (F := Ideal)) Vin (Proc.devRef .tc main_v21) : S256x64.Idx → EReal)
    = (Vin (Proc.devRef .tc main_arg4) : S256x64.Idx → EReal) := by
  after_results
  rfl

theorem w2_apply (k : Fin 256) (c : Fin 64) :
    (StableHlo.after (hostOps0 (F := Ideal)) Vin (Proc.devRef .tc main_v21) : S256x64.Idx → EReal) (ix2 k c)
      = (Vin (Proc.devRef .tc main_arg4) : S256x64.Idx → EReal) (ix2 k c) :=
  congrFun (w2_eq Vin) (ix2 k c)

/-- The first bias with its leading unit axis: entry (z, c) is entry c of the argument. -/
theorem b1_apply (z : Fin 1) (c : Fin 256) :
    (StableHlo.after (hostOps0 (F := Ideal)) Vin (Proc.devRef .tc main_v22) : S1x256.Idx → EReal) (ix2 z c)
      = (Vin (Proc.devRef .tc main_arg3) : S256.Idx → EReal) (ix1 c) := by
  have e : (StableHlo.after (hostOps0 (F := Ideal)) Vin (Proc.devRef .tc main_v22) : S1x256.Idx → EReal)
      = shapeCast S1x256 (Vin (Proc.devRef .tc main_arg3) : S256.Idx → EReal) shapeCasts_S256_S1x256 := by
    after_results
    rfl
  rw [e]
  exact shapeCast_a_1a_apply _ _ z c

/-- The second bias with its leading unit axis. -/
theorem b2_apply (z : Fin 1) (c : Fin 64) :
    (StableHlo.after (hostOps0 (F := Ideal)) Vin (Proc.devRef .tc main_v23) : S1x64.Idx → EReal) (ix2 z c)
      = (Vin (Proc.devRef .tc main_arg5) : S64.Idx → EReal) (ix1 c) := by
  have e : (StableHlo.after (hostOps0 (F := Ideal)) Vin (Proc.devRef .tc main_v23) : S1x64.Idx → EReal)
      = shapeCast S1x64 (Vin (Proc.devRef .tc main_arg5) : S64.Idx → EReal) shapeCasts_S64_S1x64 := by
    after_results
    rfl
  rw [e]
  exact shapeCast_a_1a_apply _ _ z c

/-- The last bias, one number, with its leading unit axis. -/
theorem b3_apply (z z' : Fin 1) :
    (StableHlo.after (hostOps0 (F := Ideal)) Vin (Proc.devRef .tc main_v24) : S1x1.Idx → EReal) (ix2 z z')
      = (Vin (Proc.devRef .tc main_arg7) : S1.Idx → EReal) (ix1 (0 : Fin 1)) := by
  have e : (StableHlo.after (hostOps0 (F := Ideal)) Vin (Proc.devRef .tc main_v24) : S1x1.Idx → EReal)
      = shapeCast S1x1 (Vin (Proc.devRef .tc main_arg7) : S1.Idx → EReal) shapeCasts_S1_S1x1 := by
    after_results
    rfl
  rw [e]
  have hz : z' = (0 : Fin 1) := Subsingleton.elim _ _
  rw [hz]
  exact shapeCast_a_1a_apply _ _ z (0 : Fin 1)

/-! ## The feature matrix -/

/-- The feature matrix the first region reads is the one the reference program builds from the same table and the
    same index array: both are the two gathers at the wrapped index rows, joined along the second axis. -/
theorem feat_eq : (StableHlo.after (hostOps0 (F := Ideal)) Vin (Proc.devRef .tc main_v19) : S800000x128.Idx → EReal)
    = Cert.ReferenceIdeal.Read.val_main_v18 (F := Ideal) (Vin (Proc.devRef .tc main_arg0)) (Vin (Proc.devRef .tc main_arg1)) := by
  after_results_simp
  rfl

/-- Every entry of the feature matrix of a table of real numbers is a real number. -/
theorem feat_fin (h0 : ∀ i, IsFin ((Vin (Proc.devRef .tc main_arg0) : S50000x64.Idx → EReal) i)) :
    ∀ i, IsFin ((StableHlo.after (hostOps0 (F := Ideal)) Vin (Proc.devRef .tc main_v19) : S800000x128.Idx → EReal) i) := by
  rw [feat_eq]
  unfold Cert.ReferenceIdeal.Read.val_main_v18 Cert.ReferenceIdeal.Read.val_main_v10 Cert.ReferenceIdeal.Read.val_main_v17
  exact concat_fin _ _ _ _ (gather_fin _ _ _ h0) (gather_fin _ _ _ h0)

end Cert.KernelIdeal.HostInputs

end
-- ==== Proof.KHostStats.lean ====
/-
  The host arithmetic between the kernel calls, read at an index.

  Between the calls the program adds the 50 per-tile partial sums of each channel and of each channel's squares,
  divides both by the number of edges, and takes the variance as the mean of the squares minus the square of the mean,
  clipped below at zero. After the last call it flattens the [50, 1, 16000] result into one column of 800000 rows:
  row e sits in tile e / 16000 at position e % 16000. Each stretch leaves every other array as it found it.
-/
import proofs.«113298_j41841571397745_2_alg».proof.Proof.KernelIdealLaunch
import proofs.«113298_j41841571397745_2_alg».proof.Proof.Spec
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.HostStats

open Cert.KernelIdeal Cert.KernelIdeal.Gen Cert.KernelIdeal.GenP Idealize.ShloMosaic Idealize.ShloMosaic.ValueIdx
  Idealize.ShloMosaic.TcCoe Idealize.SL.Sem
open Cert.EdgeNet (nEdges)

/-! ## The operations of a stretch at an index -/

/-- A constant broadcast from the scalar shape reads as the constant's value everywhere. -/
theorem scalarBcast_apply {t : Shape} (h : S_.BroadcastsInDim t (![] : Fin 0 → Fin t.rank)) (b : BitVec 32) (j : t.Idx) :
    broadcastInDim t ![] h (constant (F := Ideal) S_ .f32 b) j = Ideal.ofBits .f32 b :=
  broadcastInDim_apply _ h _ j (fun a => a.elim0) (fun a => a.elim0)

/-- The host's sum over the tile axis of a [50, 1, 256] array, started from zero, read at a channel. -/
theorem tileSum256_apply (y : (⟨S50x1x256, .f32⟩ : BufTy).Contents (Elt Ideal)) (z : Fin 1) (c : Fin 256) :
    Host.reduceAdd (F := Ideal) y (constant (F := Ideal) S_ .f32 0x00000000#32) reducesTo_S50x1x256_S1x256_d0 h_S_ (ix2 z c)
      = ∑ t : Fin 50, y (ix3 t (0 : Fin 1) c) := by
  obtain rfl : z = 0 := Subsingleton.elim z 0
  simp only [Host.reduceAdd, Ideal.hostReduceAdd_def]
  rw [Ideal.hostReduceAdd_single reducesTo_S50x1x256_S1x256_d0 (by decide)]
  refine (congrArg₂ (· + ·) (Ideal.ofBits_zero_f32 : constant (F := Ideal) S_ .f32 0x00000000#32 (Shape.Idx.first h_S_) = 0)
    (Finset.sum_congr rfl fun k _ => congrArg y (funext fun a => Fin.ext (by
      match a with | ⟨0, _⟩ => rfl | ⟨1, _⟩ => rfl | ⟨2, _⟩ => rfl)))).trans (zero_add _)

/-! ## The first stretch -/

/-- The mean of the first layer's channel from the per-tile partial sums. -/
theorem mean1_apply (Vin : Valuation τ sig (Elt Ideal)) (z : Fin 1) (c : Fin 256) :
    (StableHlo.after (hostOps1 (F := Ideal)) Vin (Proc.devRef .tc main_v28) : S1x256.Idx → EReal) (ix2 z c)
      = Ideal.div (∑ t : Fin 50, (Vin (Proc.devRef .tc main_v25_1) : S50x1x256.Idx → EReal) (ix3 t (0 : Fin 1) c)) nEdges := by
  have e : (StableHlo.after (hostOps1 (F := Ideal)) Vin (Proc.devRef .tc main_v28) : S1x256.Idx → EReal)
      = Host.divf (F := Ideal)
          (Host.reduceAdd (F := Ideal) (Vin (Proc.devRef .tc main_v25_1)) (constant (F := Ideal) S_ .f32 0x00000000#32)
            reducesTo_S50x1x256_S1x256_d0 h_S_)
          (broadcastInDim S1x256 ![] bcast_S_S1x256 (constant (F := Ideal) S_ .f32 0x49435000#32)) := by
    after_results
  rw [e]
  unfold Host.divf
  rw [tileSum256_apply, scalarBcast_apply]
  rfl

/-- The variance of the first layer's channel from the per-tile partial sums of squares: the mean of the squares minus
    the square of the mean, clipped below at zero. -/
theorem var1_apply (Vin : Valuation τ sig (Elt Ideal)) (z : Fin 1) (c : Fin 256) :
    (StableHlo.after (hostOps1 (F := Ideal)) Vin (Proc.devRef .tc main_v35) : S1x256.Idx → EReal) (ix2 z c)
      = max (Ideal.div (∑ t : Fin 50, (Vin (Proc.devRef .tc main_v25_2) : S50x1x256.Idx → EReal) (ix3 t (0 : Fin 1) c)) nEdges
          - Ideal.div (∑ t : Fin 50, (Vin (Proc.devRef .tc main_v25_1) : S50x1x256.Idx → EReal) (ix3 t (0 : Fin 1) c)) nEdges
            * Ideal.div (∑ t : Fin 50, (Vin (Proc.devRef .tc main_v25_1) : S50x1x256.Idx → EReal) (ix3 t (0 : Fin 1) c)) nEdges)
          0 := by
  have e : (StableHlo.after (hostOps1 (F := Ideal)) Vin (Proc.devRef .tc main_v35) : S1x256.Idx → EReal)
      = maximumf (F := Ideal)
          (subf (F := Ideal)
            (Host.divf (F := Ideal)
              (Host.reduceAdd (F := Ideal) (Vin (Proc.devRef .tc main_v25_2)) (constant (F := Ideal) S_ .f32 0x00000000#32)
                reducesTo_S50x1x256_S1x256_d0 h_S_)
              (broadcastInDim S1x256 ![] bcast_S_S1x256 (constant (F := Ideal) S_ .f32 0x49435000#32)))
            (mulf (F := Ideal)
              (Host.divf (F := Ideal)
                (Host.reduceAdd (F := Ideal) (Vin (Proc.devRef .tc main_v25_1)) (constant (F := Ideal) S_ .f32 0x00000000#32)
                  reducesTo_S50x1x256_S1x256_d0 h_S_)
                (broadcastInDim S1x256 ![] bcast_S_S1x256 (constant (F := Ideal) S_ .f32 0x49435000#32)))
              (Host.divf (F := Ideal)
                (Host.reduceAdd (F := Ideal) (Vin (Proc.devRef .tc main_v25_1)) (constant (F := Ideal) S_ .f32 0x00000000#32)
                  reducesTo_S50x1x256_S1x256_d0 h_S_)
                (broadcastInDim S1x256 ![] bcast_S_S1x256 (constant (F := Ideal) S_ .f32 0x49435000#32)))))
          (broadcastInDim S1x256 ![] bcast_S_S1x256 (constant (F := Ideal) S_ .f32 0x00000000#32)) := by
    after_results
  rw [e, maximumf_apply, subf_apply, mulf_apply]
  unfold Host.divf
  rw [tileSum256_apply, tileSum256_apply, scalarBcast_apply, scalarBcast_apply, Ideal.ofBits_zero_f32]
  rfl

/-- The stretch writes none of these arrays. -/
theorem kept1 (Vin : Valuation τ sig (Elt Ideal)) (b : Ref sig .tc)
    (hb : b ∉ [main_cst, main_v26, main_cst_3, main_v27, main_v28, main_cst_4, main_v29, main_cst_5, main_v30, main_v31,
      main_v32, main_v33, main_cst_6, main_v34, main_v35]) :
    StableHlo.after (hostOps1 (F := Ideal)) Vin (Proc.devRef .tc b) = Vin (Proc.devRef .tc b) :=
  StableHlo.after_of_writes_sub (W := [main_cst, main_v26, main_cst_3, main_v27, main_v28, main_cst_4, main_v29,
      main_cst_5, main_v30, main_v31, main_v32, main_v33, main_cst_6, main_v34, main_v35]) _ Vin (by
    simp only [hostOps1, List.Forall, StableHlo.nullary_writes, StableHlo.unary_writes, StableHlo.binary_writes]
    decide) hb

theorem kept1_main_v25_0 (Vin : Valuation τ sig (Elt Ideal)) :
    StableHlo.after (hostOps1 (F := Ideal)) Vin (Proc.devRef .tc main_v25_0) = Vin (Proc.devRef .tc main_v25_0) :=
  kept1 Vin main_v25_0 (by decide)

theorem kept1_main_v21 (Vin : Valuation τ sig (Elt Ideal)) :
    StableHlo.after (hostOps1 (F := Ideal)) Vin (Proc.devRef .tc main_v21) = Vin (Proc.devRef .tc main_v21) :=
  kept1 Vin main_v21 (by decide)

theorem kept1_main_v23 (Vin : Valuation τ sig (Elt Ideal)) :
    StableHlo.after (hostOps1 (F := Ideal)) Vin (Proc.devRef .tc main_v23) = Vin (Proc.devRef .tc main_v23) :=
  kept1 Vin main_v23 (by decide)

theorem kept1_main_v24 (Vin : Valuation τ sig (Elt Ideal)) :
    StableHlo.after (hostOps1 (F := Ideal)) Vin (Proc.devRef .tc main_v24) = Vin (Proc.devRef .tc main_v24) :=
  kept1 Vin main_v24 (by decide)

theorem kept1_main_arg6 (Vin : Valuation τ sig (Elt Ideal)) :
    StableHlo.after (hostOps1 (F := Ideal)) Vin (Proc.devRef .tc main_arg6) = Vin (Proc.devRef .tc main_arg6) :=
  kept1 Vin main_arg6 (by decide)

/-! ## The second stretch: the same arithmetic on 64 channels -/

/-- The host's sum over the tile axis of a [50, 1, 64] array, started from zero, read at a channel. -/
theorem tileSum64_apply (y : (⟨S50x1x64, .f32⟩ : BufTy).Contents (Elt Ideal)) (z : Fin 1) (c : Fin 64) :
    Host.reduceAdd (F := Ideal) y (constant (F := Ideal) S_ .f32 0x00000000#32) reducesTo_S50x1x64_S1x64_d0 h_S_ (ix2 z c)
      = ∑ t : Fin 50, y (ix3 t (0 : Fin 1) c) := by
  obtain rfl : z = 0 := Subsingleton.elim z 0
  simp only [Host.reduceAdd, Ideal.hostReduceAdd_def]
  rw [Ideal.hostReduceAdd_single reducesTo_S50x1x64_S1x64_d0 (by decide)]
  refine (congrArg₂ (· + ·) (Ideal.ofBits_zero_f32 : constant (F := Ideal) S_ .f32 0x00000000#32 (Shape.Idx.first h_S_) = 0)
    (Finset.sum_congr rfl fun k _ => congrArg y (funext fun a => Fin.ext (by
      match a with | ⟨0, _⟩ => rfl | ⟨1, _⟩ => rfl | ⟨2, _⟩ => rfl)))).trans (zero_add _)

/-- The mean of the second layer's channel from the per-tile partial sums. -/
theorem mean2_apply (Vin : Valuation τ sig (Elt Ideal)) (z : Fin 1) (c : Fin 64) :
    (StableHlo.after (hostOps2 (F := Ideal)) Vin (Proc.devRef .tc main_v39) : S1x64.Idx → EReal) (ix2 z c)
      = Ideal.div (∑ t : Fin 50, (Vin (Proc.devRef .tc main_v36_1) : S50x1x64.Idx → EReal) (ix3 t (0 : Fin 1) c)) nEdges := by
  have e : (StableHlo.after (hostOps2 (F := Ideal)) Vin (Proc.devRef .tc main_v39) : S1x64.Idx → EReal)
      = Host.divf (F := Ideal)
          (Host.reduceAdd (F := Ideal) (Vin (Proc.devRef .tc main_v36_1)) (constant (F := Ideal) S_ .f32 0x00000000#32)
            reducesTo_S50x1x64_S1x64_d0 h_S_)
          (broadcastInDim S1x64 ![] bcast_S_S1x64 (constant (F := Ideal) S_ .f32 0x49435000#32)) := by
    after_results
  rw [e]
  unfold Host.divf
  rw [tileSum64_apply, scalarBcast_apply]
  rfl

/-- The variance of the second layer's channel from the per-tile partial sums of squares: the mean of the squares minus
    the square of the mean, clipped below at zero. -/
theorem var2_apply (Vin : Valuation τ sig (Elt Ideal)) (z : Fin 1) (c : Fin 64) :
    (StableHlo.after (hostOps2 (F := Ideal)) Vin (Proc.devRef .tc main_v46) : S1x64.Idx → EReal) (ix2 z c)
      = max (Ideal.div (∑ t : Fin 50, (Vin (Proc.devRef .tc main_v36_2) : S50x1x64.Idx → EReal) (ix3 t (0 : Fin 1) c)) nEdges
          - Ideal.div (∑ t : Fin 50, (Vin (Proc.devRef .tc main_v36_1) : S50x1x64.Idx → EReal) (ix3 t (0 : Fin 1) c)) nEdges
            * Ideal.div (∑ t : Fin 50, (Vin (Proc.devRef .tc main_v36_1) : S50x1x64.Idx → EReal) (ix3 t (0 : Fin 1) c)) nEdges)
          0 := by
  have e : (StableHlo.after (hostOps2 (F := Ideal)) Vin (Proc.devRef .tc main_v46) : S1x64.Idx → EReal)
      = maximumf (F := Ideal)
          (subf (F := Ideal)
            (Host.divf (F := Ideal)
              (Host.reduceAdd (F := Ideal) (Vin (Proc.devRef .tc main_v36_2)) (constant (F := Ideal) S_ .f32 0x00000000#32)
                reducesTo_S50x1x64_S1x64_d0 h_S_)
              (broadcastInDim S1x64 ![] bcast_S_S1x64 (constant (F := Ideal) S_ .f32 0x49435000#32)))
            (mulf (F := Ideal)
              (Host.divf (F := Ideal)
                (Host.reduceAdd (F := Ideal) (Vin (Proc.devRef .tc main_v36_1)) (constant (F := Ideal) S_ .f32 0x00000000#32)
                  reducesTo_S50x1x64_S1x64_d0 h_S_)
                (broadcastInDim S1x64 ![] bcast_S_S1x64 (constant (F := Ideal) S_ .f32 0x49435000#32)))
              (Host.divf (F := Ideal)
                (Host.reduceAdd (F := Ideal) (Vin (Proc.devRef .tc main_v36_1)) (constant (F := Ideal) S_ .f32 0x00000000#32)
                  reducesTo_S50x1x64_S1x64_d0 h_S_)
                (broadcastInDim S1x64 ![] bcast_S_S1x64 (constant (F := Ideal) S_ .f32 0x49435000#32)))))
          (broadcastInDim S1x64 ![] bcast_S_S1x64 (constant (F := Ideal) S_ .f32 0x00000000#32)) := by
    after_results
  rw [e, maximumf_apply, subf_apply, mulf_apply]
  unfold Host.divf
  rw [tileSum64_apply, tileSum64_apply, scalarBcast_apply, scalarBcast_apply, Ideal.ofBits_zero_f32]
  rfl

/-- The stretch writes none of these arrays. -/
theorem kept2 (Vin : Valuation τ sig (Elt Ideal)) (b : Ref sig .tc)
    (hb : b ∉ [main_cst_7, main_v37, main_cst_8, main_v38, main_v39, main_cst_9, main_v40, main_cst_10, main_v41, main_v42,
      main_v43, main_v44, main_cst_11, main_v45, main_v46]) :
    StableHlo.after (hostOps2 (F := Ideal)) Vin (Proc.devRef .tc b) = Vin (Proc.devRef .tc b) :=
  StableHlo.after_of_writes_sub (W := [main_cst_7, main_v37, main_cst_8, main_v38, main_v39, main_cst_9, main_v40,
      main_cst_10, main_v41, main_v42, main_v43, main_v44, main_cst_11, main_v45, main_v46]) _ Vin (by
    simp only [hostOps2, List.Forall, StableHlo.nullary_writes, StableHlo.unary_writes, StableHlo.binary_writes]
    decide) hb

theorem kept2_main_v36_0 (Vin : Valuation τ sig (Elt Ideal)) :
    StableHlo.after (hostOps2 (F := Ideal)) Vin (Proc.devRef .tc main_v36_0) = Vin (Proc.devRef .tc main_v36_0) :=
  kept2 Vin main_v36_0 (by decide)

theorem kept2_main_arg6 (Vin : Valuation τ sig (Elt Ideal)) :
    StableHlo.after (hostOps2 (F := Ideal)) Vin (Proc.devRef .tc main_arg6) = Vin (Proc.devRef .tc main_arg6) :=
  kept2 Vin main_arg6 (by decide)

theorem kept2_main_v24 (Vin : Valuation τ sig (Elt Ideal)) :
    StableHlo.after (hostOps2 (F := Ideal)) Vin (Proc.devRef .tc main_v24) = Vin (Proc.devRef .tc main_v24) :=
  kept2 Vin main_v24 (by decide)

/-! ## The last stretch: the result flattened into one column -/

/-- Row `e` of the flattened result is position `e % 16000` of tile `e / 16000`. -/
theorem out_apply (Vin : Valuation τ sig (Elt Ideal)) (e : Fin 800000) :
    (StableHlo.after (hostOps3 (F := Ideal)) Vin (Proc.devRef .tc main_v48) : S800000x1.Idx → EReal) (ix2 e (0 : Fin 1))
      = (Vin (Proc.devRef .tc main_v47) : S50x1x16000.Idx → EReal)
          (ix3 ⟨e.val / 16000, by omega⟩ (0 : Fin 1) ⟨e.val % 16000, by omega⟩) := by
  have h : (StableHlo.after (hostOps3 (F := Ideal)) Vin (Proc.devRef .tc main_v48) : S800000x1.Idx → EReal)
      = shapeCast S800000x1 (Vin (Proc.devRef .tc main_v47) : S50x1x16000.Idx → EReal)
          shapeCasts_S50x1x16000_S800000x1 := by
    after_results
    rfl
  rw [h]
  exact shapeCast_apply _ _ _ _ (by
    show (S50x1x16000.rowMajor (ix3 (⟨e.val / 16000, by omega⟩ : Fin 50) (0 : Fin 1)
        (⟨e.val % 16000, by omega⟩ : Fin 16000))).val = (S800000x1.rowMajor (ix2 e (0 : Fin 1))).val
    rw [Shape.rowMajor_val_three, Shape.rowMajor_val_two]
    show (e.val / 16000 * 1 + 0) * 16000 + e.val % 16000 = e.val * 1 + 0
    omega)

end Cert.KernelIdeal.HostStats

end
-- ==== Proof.KValue.lean ====
/-
  The idealized kernel program's result, entry by entry: the network with tile-by-tile statistics, of the argument arrays.

  The buffer contents are followed from the launch through the first host stretch (the edge features gathered, the weights
  and biases laid out), the first grid (first-layer entries and their per-tile sums), the second stretch (channel means and
  variances from the partial sums), the second grid, the third stretch, the third grid (the last layer, 16000 edges per
  row of a [50, 1, 16000] array) and the closing reshape to [800000, 1]: edge e sits at row e / 16000, position e mod 16000.
-/
import proofs.«113298_j41841571397745_2_alg».proof.Proof.KernelIdealFrame
import proofs.«113298_j41841571397745_2_alg».proof.Proof.KGrid0
import proofs.«113298_j41841571397745_2_alg».proof.Proof.KGrid1
import proofs.«113298_j41841571397745_2_alg».proof.Proof.KGrid2
import proofs.«113298_j41841571397745_2_alg».proof.Proof.KHostInputs
import proofs.«113298_j41841571397745_2_alg».proof.Proof.KHostStats
import proofs.«113298_j41841571397745_2_alg».proof.Proof.Spec

set_option maxRecDepth 16384

noncomputable section

open scoped BigOperators

namespace Cert.KernelIdeal.Whole

open Cert.KernelIdeal Cert.KernelIdeal.Gen Cert.KernelIdeal.GenP Cert.EdgeNet
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

/-! ## The network's data, from the launch memory -/

/-- The edge features: what the first host stretch gathers and joins. -/
abbrev feat : Fin 800000 → Fin 128 → EReal :=
  fun e k => (W1 m ρ c (Proc.devRef .tc main_v19) : S800000x128.Idx → EReal) (ix2 e k)
abbrev w1 : Fin 128 → Fin 256 → EReal := fun k q => (m ((c.tc : Thread nD τ).loc main_arg2) : S128x256.Idx → EReal) (ix2 k q)
abbrev b1 : Fin 256 → EReal := fun q => (m ((c.tc : Thread nD τ).loc main_arg3) : S256.Idx → EReal) (ix1 q)
abbrev w2 : Fin 256 → Fin 64 → EReal := fun k q => (m ((c.tc : Thread nD τ).loc main_arg4) : S256x64.Idx → EReal) (ix2 k q)
abbrev b2 : Fin 64 → EReal := fun q => (m ((c.tc : Thread nD τ).loc main_arg5) : S64.Idx → EReal) (ix1 q)
abbrev w3 : Fin 64 → EReal := fun k => (m ((c.tc : Thread nD τ).loc main_arg6) : S64x1.Idx → EReal) (ix2 k (0 : Fin 1))
abbrev b3 : EReal := (m ((c.tc : Thread nD τ).loc main_arg7) : S1.Idx → EReal) (ix1 (0 : Fin 1))

abbrev H1 : Fin 800000 → Fin 256 → EReal := affine (feat m ρ c) (w1 m c) (b1 m c)
abbrev A1 : Fin 800000 → Fin 256 → EReal := normRelu (H1 m ρ c) (meanTiled (H1 m ρ c)) (varTiled (H1 m ρ c))
abbrev H2 : Fin 800000 → Fin 64 → EReal := affine (A1 m ρ c) (w2 m c) (b2 m c)
abbrev A2 : Fin 800000 → Fin 64 → EReal := normRelu (H2 m ρ c) (meanTiled (H2 m ρ c)) (varTiled (H2 m ρ c))

/-! ## The first grid -/

theorem pre0_eq : Grid0.pre (V1 m ρ c (Pipeline.arrRef spec0 0)) (V1 m ρ c (Pipeline.arrRef spec0 1)) (V1 m ρ c (Pipeline.arrRef spec0 2))
    = H1 m ρ c := by
  have e1 : Grid0.matOf (V1 m ρ c (Pipeline.arrRef spec0 1)) = w1 m c :=
    funext fun k => funext fun q => HostInputs.w1_apply (W0 m ρ c) k q
  have e2 : Grid0.rowOf (V1 m ρ c (Pipeline.arrRef spec0 2)) = b1 m c :=
    funext fun q => HostInputs.b1_apply (W0 m ρ c) (0 : Fin 1) q
  show affine (Grid0.featOf (V1 m ρ c (Pipeline.arrRef spec0 0))) (Grid0.matOf (V1 m ρ c (Pipeline.arrRef spec0 1)))
      (Grid0.rowOf (V1 m ρ c (Pipeline.arrRef spec0 2))) = _
  rw [e1, e2]

theorem h1_at (e : Fin 800000) (q : Fin 256) :
    (W2 m ρ c (Proc.devRef .tc main_v25_0) : S800000x256.Idx → EReal) (ix2 e q) = H1 m ρ c e q := by
  have h := (W2_arr m ρ c 3).trans (Grid0.final_pre (V1 m ρ) c)
  have h' : (W2 m ρ c (Proc.devRef .tc main_v25_0) : S800000x256.Idx → EReal) (ix2 e q)
      = Grid0.outPre (V1 m ρ c (Pipeline.arrRef spec0 0)) (V1 m ρ c (Pipeline.arrRef spec0 1)) (V1 m ρ c (Pipeline.arrRef spec0 2)) (ix2 e q) :=
    congrFun h (ix2 e q)
  rw [h']
  unfold Grid0.outPre
  rw [pre0_eq]

theorem s1_at (t : Fin 50) (q : Fin 256) :
    (W2 m ρ c (Proc.devRef .tc main_v25_1) : S50x1x256.Idx → EReal) (ix3 t (0 : Fin 1) q) = ∑ r : Fin 16000, H1 m ρ c (tileRow t r) q := by
  have h := (W2_arr m ρ c 4).trans (Grid0.final_sum (V1 m ρ) c)
  have h' : (W2 m ρ c (Proc.devRef .tc main_v25_1) : S50x1x256.Idx → EReal) (ix3 t (0 : Fin 1) q)
      = Grid0.outSum (V1 m ρ c (Pipeline.arrRef spec0 0)) (V1 m ρ c (Pipeline.arrRef spec0 1)) (V1 m ρ c (Pipeline.arrRef spec0 2)) (ix3 t (0 : Fin 1) q) :=
    congrFun h (ix3 t (0 : Fin 1) q)
  rw [h']
  unfold Grid0.outSum
  rw [pre0_eq]

theorem q1_at (t : Fin 50) (q : Fin 256) :
    (W2 m ρ c (Proc.devRef .tc main_v25_2) : S50x1x256.Idx → EReal) (ix3 t (0 : Fin 1) q)
      = ∑ r : Fin 16000, H1 m ρ c (tileRow t r) q * H1 m ρ c (tileRow t r) q := by
  have h := (W2_arr m ρ c 5).trans (Grid0.final_sumSq (V1 m ρ) c)
  have h' : (W2 m ρ c (Proc.devRef .tc main_v25_2) : S50x1x256.Idx → EReal) (ix3 t (0 : Fin 1) q)
      = Grid0.outSumSq (V1 m ρ c (Pipeline.arrRef spec0 0)) (V1 m ρ c (Pipeline.arrRef spec0 1)) (V1 m ρ c (Pipeline.arrRef spec0 2)) (ix3 t (0 : Fin 1) q) :=
    congrFun h (ix3 t (0 : Fin 1) q)
  rw [h']
  unfold Grid0.outSumSq
  rw [pre0_eq]

/-! ## The second host stretch: the first layer's channel statistics -/

theorem mean1_at (z : Fin 1) (q : Fin 256) :
    (W3 m ρ c (Proc.devRef .tc main_v28) : S1x256.Idx → EReal) (ix2 z q) = meanTiled (H1 m ρ c) q := by
  refine (HostStats.mean1_apply (W2 m ρ c) z q).trans ?_
  show _ = Ideal.div (∑ t : Fin 50, ∑ r : Fin 16000, H1 m ρ c (tileRow t r) q) nEdges
  exact congrArg (Ideal.div · nEdges) (Finset.sum_congr rfl fun t _ => s1_at m ρ c t q)

theorem var1_at (z : Fin 1) (q : Fin 256) :
    (W3 m ρ c (Proc.devRef .tc main_v35) : S1x256.Idx → EReal) (ix2 z q) = varTiled (H1 m ρ c) q := by
  refine (HostStats.var1_apply (W2 m ρ c) z q).trans ?_
  simp only [s1_at m ρ c, q1_at m ρ c]
  rfl

/-! ## The second grid -/

theorem pre1_eq : Grid1.pre (V3 m ρ c (Pipeline.arrRef spec1 0)) (V3 m ρ c (Pipeline.arrRef spec1 1)) (V3 m ρ c (Pipeline.arrRef spec1 2))
    (V3 m ρ c (Pipeline.arrRef spec1 3)) (V3 m ρ c (Pipeline.arrRef spec1 4)) = H2 m ρ c := by
  have e0 : Grid1.featOf (V3 m ρ c (Pipeline.arrRef spec1 0)) = H1 m ρ c := funext fun e => funext fun k => by
    show (W3 m ρ c (Proc.devRef .tc main_v25_0) : S800000x256.Idx → EReal) (ix2 e k) = _
    rw [show W3 m ρ c (Proc.devRef .tc main_v25_0) = W2 m ρ c (Proc.devRef .tc main_v25_0) from HostStats.kept1_main_v25_0 (W2 m ρ c)]
    exact h1_at m ρ c e k
  have e1 : Grid1.chanOf (V3 m ρ c (Pipeline.arrRef spec1 1)) = meanTiled (H1 m ρ c) :=
    funext fun k => mean1_at m ρ c (0 : Fin 1) k
  have e2 : Grid1.chanOf (V3 m ρ c (Pipeline.arrRef spec1 2)) = varTiled (H1 m ρ c) :=
    funext fun k => var1_at m ρ c (0 : Fin 1) k
  have e3 : Grid1.matOf (V3 m ρ c (Pipeline.arrRef spec1 3)) = w2 m c := funext fun k => funext fun q => by
    show (W3 m ρ c (Proc.devRef .tc main_v21) : S256x64.Idx → EReal) (ix2 k q) = _
    rw [show W3 m ρ c (Proc.devRef .tc main_v21) = W2 m ρ c (Proc.devRef .tc main_v21) from HostStats.kept1_main_v21 (W2 m ρ c),
      W2_of_ne m ρ c main_v21 (by decide)]
    exact HostInputs.w2_apply (W0 m ρ c) k q
  have e4 : Grid1.rowOf (V3 m ρ c (Pipeline.arrRef spec1 4)) = b2 m c := funext fun q => by
    show (W3 m ρ c (Proc.devRef .tc main_v23) : S1x64.Idx → EReal) (ix2 (0 : Fin 1) q) = _
    rw [show W3 m ρ c (Proc.devRef .tc main_v23) = W2 m ρ c (Proc.devRef .tc main_v23) from HostStats.kept1_main_v23 (W2 m ρ c),
      W2_of_ne m ρ c main_v23 (by decide)]
    exact HostInputs.b2_apply (W0 m ρ c) (0 : Fin 1) q
  show affine (normRelu (Grid1.featOf (V3 m ρ c (Pipeline.arrRef spec1 0))) (Grid1.chanOf (V3 m ρ c (Pipeline.arrRef spec1 1)))
      (Grid1.chanOf (V3 m ρ c (Pipeline.arrRef spec1 2)))) (Grid1.matOf (V3 m ρ c (Pipeline.arrRef spec1 3)))
      (Grid1.rowOf (V3 m ρ c (Pipeline.arrRef spec1 4))) = _
  rw [e0, e1, e2, e3, e4]

theorem h2_at (e : Fin 800000) (q : Fin 64) :
    (W4 m ρ c (Proc.devRef .tc main_v36_0) : S800000x64.Idx → EReal) (ix2 e q) = H2 m ρ c e q := by
  have h := (W4_arr m ρ c 5).trans (Grid1.final_pre (V3 m ρ) c)
  have h' : (W4 m ρ c (Proc.devRef .tc main_v36_0) : S800000x64.Idx → EReal) (ix2 e q)
      = Grid1.outPre (V3 m ρ c (Pipeline.arrRef spec1 0)) (V3 m ρ c (Pipeline.arrRef spec1 1)) (V3 m ρ c (Pipeline.arrRef spec1 2))
          (V3 m ρ c (Pipeline.arrRef spec1 3)) (V3 m ρ c (Pipeline.arrRef spec1 4)) (ix2 e q) := congrFun h (ix2 e q)
  rw [h']
  unfold Grid1.outPre
  rw [pre1_eq]

theorem s2_at (t : Fin 50) (q : Fin 64) :
    (W4 m ρ c (Proc.devRef .tc main_v36_1) : S50x1x64.Idx → EReal) (ix3 t (0 : Fin 1) q) = ∑ r : Fin 16000, H2 m ρ c (tileRow t r) q := by
  have h := (W4_arr m ρ c 6).trans (Grid1.final_sum (V3 m ρ) c)
  have h' : (W4 m ρ c (Proc.devRef .tc main_v36_1) : S50x1x64.Idx → EReal) (ix3 t (0 : Fin 1) q)
      = Grid1.outSum (V3 m ρ c (Pipeline.arrRef spec1 0)) (V3 m ρ c (Pipeline.arrRef spec1 1)) (V3 m ρ c (Pipeline.arrRef spec1 2))
          (V3 m ρ c (Pipeline.arrRef spec1 3)) (V3 m ρ c (Pipeline.arrRef spec1 4)) (ix3 t (0 : Fin 1) q) := congrFun h (ix3 t (0 : Fin 1) q)
  rw [h']
  unfold Grid1.outSum
  rw [pre1_eq]

theorem q2_at (t : Fin 50) (q : Fin 64) :
    (W4 m ρ c (Proc.devRef .tc main_v36_2) : S50x1x64.Idx → EReal) (ix3 t (0 : Fin 1) q)
      = ∑ r : Fin 16000, H2 m ρ c (tileRow t r) q * H2 m ρ c (tileRow t r) q := by
  have h := (W4_arr m ρ c 7).trans (Grid1.final_sumSq (V3 m ρ) c)
  have h' : (W4 m ρ c (Proc.devRef .tc main_v36_2) : S50x1x64.Idx → EReal) (ix3 t (0 : Fin 1) q)
      = Grid1.outSumSq (V3 m ρ c (Pipeline.arrRef spec1 0)) (V3 m ρ c (Pipeline.arrRef spec1 1)) (V3 m ρ c (Pipeline.arrRef spec1 2))
          (V3 m ρ c (Pipeline.arrRef spec1 3)) (V3 m ρ c (Pipeline.arrRef spec1 4)) (ix3 t (0 : Fin 1) q) := congrFun h (ix3 t (0 : Fin 1) q)
  rw [h']
  unfold Grid1.outSumSq
  rw [pre1_eq]

/-! ## The third host stretch: the second layer's channel statistics -/

theorem mean2_at (z : Fin 1) (q : Fin 64) :
    (W5 m ρ c (Proc.devRef .tc main_v39) : S1x64.Idx → EReal) (ix2 z q) = meanTiled (H2 m ρ c) q := by
  refine (HostStats.mean2_apply (W4 m ρ c) z q).trans ?_
  show _ = Ideal.div (∑ t : Fin 50, ∑ r : Fin 16000, H2 m ρ c (tileRow t r) q) nEdges
  exact congrArg (Ideal.div · nEdges) (Finset.sum_congr rfl fun t _ => s2_at m ρ c t q)

theorem var2_at (z : Fin 1) (q : Fin 64) :
    (W5 m ρ c (Proc.devRef .tc main_v46) : S1x64.Idx → EReal) (ix2 z q) = varTiled (H2 m ρ c) q := by
  refine (HostStats.var2_apply (W4 m ρ c) z q).trans ?_
  simp only [s2_at m ρ c, q2_at m ρ c]
  rfl

/-! ## The third grid and the closing reshape -/

/-- The last weight column and bias reach the third grid as launched: no stretch and no grid writes them. -/
theorem w3_kept : W5 m ρ c (Proc.devRef .tc main_arg6) = m ((c.tc : Thread nD τ).loc main_arg6) :=
  calc W5 m ρ c (Proc.devRef .tc main_arg6)
    _ = W4 m ρ c (Proc.devRef .tc main_arg6) := HostStats.kept2_main_arg6 (W4 m ρ c)
    _ = W3 m ρ c (Proc.devRef .tc main_arg6) := W4_of_ne m ρ c main_arg6 (by decide)
    _ = W2 m ρ c (Proc.devRef .tc main_arg6) := HostStats.kept1_main_arg6 (W2 m ρ c)
    _ = W1 m ρ c (Proc.devRef .tc main_arg6) := W2_of_ne m ρ c main_arg6 (by decide)
    _ = W0 m ρ c (Proc.devRef .tc main_arg6) := HostInputs.kept0_main_arg6 (W0 m ρ c)
    _ = m ((c.tc : Thread nD τ).loc main_arg6) := rfl

theorem b3_kept : W5 m ρ c (Proc.devRef .tc main_v24) = W1 m ρ c (Proc.devRef .tc main_v24) :=
  calc W5 m ρ c (Proc.devRef .tc main_v24)
    _ = W4 m ρ c (Proc.devRef .tc main_v24) := HostStats.kept2_main_v24 (W4 m ρ c)
    _ = W3 m ρ c (Proc.devRef .tc main_v24) := W4_of_ne m ρ c main_v24 (by decide)
    _ = W2 m ρ c (Proc.devRef .tc main_v24) := HostStats.kept1_main_v24 (W2 m ρ c)
    _ = W1 m ρ c (Proc.devRef .tc main_v24) := W2_of_ne m ρ c main_v24 (by decide)

theorem last_at (t : Fin 50) (r : Fin 16000) :
    (W6 m ρ c (Proc.devRef .tc main_v47) : S50x1x16000.Idx → EReal) (ix3 t (0 : Fin 1) r)
      = lastLayer (A2 m ρ c) (w3 m c) (b3 m c) (tileRow t r) := by
  have h := (W6_arr m ρ c 5).trans (Grid2.final_last (V5 m ρ) c)
  have h' : (W6 m ρ c (Proc.devRef .tc main_v47) : S50x1x16000.Idx → EReal) (ix3 t (0 : Fin 1) r)
      = Grid2.outLast (V5 m ρ c (Pipeline.arrRef spec2 0)) (V5 m ρ c (Pipeline.arrRef spec2 1)) (V5 m ρ c (Pipeline.arrRef spec2 2))
          (V5 m ρ c (Pipeline.arrRef spec2 3)) (V5 m ρ c (Pipeline.arrRef spec2 4)) (ix3 t (0 : Fin 1) r) := congrFun h (ix3 t (0 : Fin 1) r)
  rw [h']
  have e0 : Grid2.featOf (V5 m ρ c (Pipeline.arrRef spec2 0)) = H2 m ρ c := funext fun e => funext fun k => by
    show (W5 m ρ c (Proc.devRef .tc main_v36_0) : S800000x64.Idx → EReal) (ix2 e k) = _
    rw [show W5 m ρ c (Proc.devRef .tc main_v36_0) = W4 m ρ c (Proc.devRef .tc main_v36_0) from HostStats.kept2_main_v36_0 (W4 m ρ c)]
    exact h2_at m ρ c e k
  have e1 : Grid2.chanOf (V5 m ρ c (Pipeline.arrRef spec2 1)) = meanTiled (H2 m ρ c) :=
    funext fun k => mean2_at m ρ c (0 : Fin 1) k
  have e2 : Grid2.chanOf (V5 m ρ c (Pipeline.arrRef spec2 2)) = varTiled (H2 m ρ c) :=
    funext fun k => var2_at m ρ c (0 : Fin 1) k
  have e3 : Grid2.colOf (V5 m ρ c (Pipeline.arrRef spec2 3)) = w3 m c := funext fun k => by
    show (W5 m ρ c (Proc.devRef .tc main_arg6) : S64x1.Idx → EReal) (ix2 k (0 : Fin 1)) = _
    rw [w3_kept m ρ c]
  have e4 : (V5 m ρ c (Pipeline.arrRef spec2 4) : S1x1.Idx → EReal) (ix2 (0 : Fin 1) (0 : Fin 1)) = b3 m c := by
    show (W5 m ρ c (Proc.devRef .tc main_v24) : S1x1.Idx → EReal) (ix2 (0 : Fin 1) (0 : Fin 1)) = _
    rw [b3_kept m ρ c]
    exact HostInputs.b3_apply (W0 m ρ c) (0 : Fin 1) (0 : Fin 1)
  unfold Grid2.outLast
  rw [e0, e1, e2, e3, e4]

/-- THE RESULT: entry e of the result buffer is the network, with tile-by-tile statistics, at edge e. -/
theorem result_at (e : Fin 800000) :
    (W7 m ρ c (Proc.devRef .tc main_v48) : S800000x1.Idx → EReal) (ix2 e (0 : Fin 1))
      = netTiled (feat m ρ c) (w1 m c) (b1 m c) (w2 m c) (b2 m c) (w3 m c) (b3 m c) e := by
  have he : e.val < 800000 := e.isLt
  refine (HostStats.out_apply (W6 m ρ c) e).trans ?_
  refine (last_at m ρ c ⟨e.val / 16000, by omega⟩ ⟨e.val % 16000, by omega⟩).trans ?_
  have hrow : tileRow ⟨e.val / 16000, by omega⟩ ⟨e.val % 16000, by omega⟩ = e :=
    Fin.ext (by show 16000 * (e.val / 16000) + e.val % 16000 = e.val; omega)
  rw [hrow]
  rfl

end Cert.KernelIdeal.Whole

end
-- ==== Proof.LibReindex.lean ====
/-
  Re-indexing finite sums over consecutive indices. A sum over `n = a * b` indices is a double sum over `a`
  blocks of `b` indices each, the index written `i * b + j` or `b * i + j`; a sum over `n = a + b + c` indices
  is the sum of its three consecutive blocks. All over an arbitrary additive commutative monoid.
-/
import Mathlib.Algebra.BigOperators.Fin
import Mathlib.Logic.Equiv.Fin.Basic

namespace Cert.LibReindex

open scoped BigOperators

variable {M : Type*} [AddCommMonoid M]

/-- Position `j` of block `i`, among `a` blocks of `b`, lies below `a * b`. -/
theorem mul_add_lt {a b : ℕ} (i : Fin a) (j : Fin b) : i.val * b + j.val < a * b :=
  calc i.val * b + j.val < i.val * b + b := Nat.add_lt_add_left j.isLt _
    _ = (i.val + 1) * b := (Nat.succ_mul _ _).symm
    _ ≤ a * b := Nat.mul_le_mul_right _ i.isLt

/-- The same with the block size written first. -/
theorem mul_add_lt' {a b : ℕ} (i : Fin a) (j : Fin b) : b * i.val + j.val < a * b :=
  Nat.mul_comm b i.val ▸ mul_add_lt i j

/-- A sum over `n = a * b` indices is the double sum over `a` blocks of `b`: the index is `i * b + j`. -/
theorem sum_mul_add {n : ℕ} (a b : ℕ) (hn : n = a * b) (f : Fin n → M) :
    ∑ r : Fin n, f r = ∑ i : Fin a, ∑ j : Fin b, f ⟨i.val * b + j.val, hn ▸ mul_add_lt i j⟩ := by
  subst hn
  rw [← Equiv.sum_comp finProdFinEquiv f, Fintype.sum_prod_type]
  refine Finset.sum_congr rfl fun i _ => Finset.sum_congr rfl fun j _ => congrArg f (Fin.ext ?_)
  show j.val + b * i.val = i.val * b + j.val
  rw [Nat.add_comm, Nat.mul_comm]

/-- A sum over `n = a * b` indices is the double sum over `a` blocks of `b`: the index is `b * i + j`. -/
theorem sum_mul_add' {n : ℕ} (a b : ℕ) (hn : n = a * b) (f : Fin n → M) :
    ∑ r : Fin n, f r = ∑ i : Fin a, ∑ j : Fin b, f ⟨b * i.val + j.val, hn ▸ mul_add_lt' i j⟩ := by
  rw [sum_mul_add a b hn f]
  refine Finset.sum_congr rfl fun i _ => Finset.sum_congr rfl fun j _ => congrArg f (Fin.ext ?_)
  show i.val * b + j.val = b * i.val + j.val
  rw [Nat.mul_comm]

/-- A sum over `n = a + b + c` indices is the sum of its three consecutive blocks. -/
theorem sum_three_blocks {n : ℕ} (a b c : ℕ) (hn : n = a + b + c) (f : Fin n → M) :
    ∑ k : Fin n, f k
      = (∑ i : Fin a, f ⟨i.val, by omega⟩ + ∑ i : Fin b, f ⟨a + i.val, by omega⟩)
        + ∑ i : Fin c, f ⟨a + b + i.val, by omega⟩ := by
  subst hn
  rw [Fin.sum_univ_add, Fin.sum_univ_add]
  rfl

end Cert.LibReindex
-- ==== Proof.Algebra.lean ====
/-
  The two ways of taking a channel's mean and variance agree on real numbers, and so do the two networks.

  The tiled mean is the same sum in another order. The tiled variance is the mean of the squares minus the
  square of the mean, clipped below at zero; for real numbers x_1 .. x_n with mean m this difference equals the
  mean of the squared deviations (x_i - m)^2, which is never negative, so the clip changes nothing. The
  identity needs every entry to be a real number (it fails at the infinities), and every layer keeps its
  entries real: sums, products and differences of reals are reals, the variance is a real that is not
  negative, and the reciprocal square root of a positive real is a real.
-/
import proofs.«113298_j41841571397745_2_alg».proof.Proof.Spec
import proofs.«113298_j41841571397745_2_alg».proof.Proof.LibFinite
import proofs.«113298_j41841571397745_2_alg».proof.Proof.LibReindex
import Mathlib.Tactic

noncomputable section

open scoped BigOperators

namespace Cert.EdgeNet

open Idealize.ShloMosaic Cert.LibFinite

/-! ### The two constants -/

/-- The pattern `0x49435000` (exponent field `146`, fraction `0x435000`) denotes
    `(2^23 + 0x435000) · 2^(146 - 127 - 23) = 12800000 / 16 = 800000`. -/
theorem nEdges_eq : nEdges = ((800000 : ℝ) : EReal) := by
  show Ideal.ofBits .f32 0x49435000#32 = ((800000 : ℝ) : EReal)
  simp [Ideal.ofBits, Ideal.ieee, -EReal.coe_mul]; norm_num

/-- The number of edges is not zero. -/
theorem nEdges_ne_zero : nEdges ≠ 0 := by
  rw [nEdges_eq]
  exact_mod_cast (by norm_num : (800000 : ℝ) ≠ 0)

/-- The pattern `0x3727C5AC` (sign `0`, exponent field `110`, fraction `0x27C5AC`) denotes the positive real
    `(2^23 + 0x27C5AC) · 2^(110 - 127 - 23) = 10995116 · 2^(-40)`. -/
theorem epsVar_pos : ∃ r : ℝ, 0 < r ∧ epsVar = (r : EReal) := by
  refine ⟨10995116 * (2 : ℝ) ^ (-40 : ℤ), by positivity, ?_⟩
  show Ideal.ofBits .f32 0x3727C5AC#32 = _
  simp [Ideal.ofBits, Ideal.ieee, -EReal.coe_mul]

/-! ### Sums in tile order -/

/-- A sum over all edges, taken tile by tile. -/
theorem sum_tiles {M : Type*} [AddCommMonoid M] (f : Fin 800000 → M) :
    ∑ t : Fin 50, ∑ r : Fin 16000, f (tileRow t r) = ∑ e : Fin 800000, f e := by
  rw [LibReindex.sum_mul_add' 50 16000 (by norm_num) f]
  rfl

variable {K C : ℕ}

/-- The tiled mean is the mean: the same sum in tile order. -/
theorem meanTiled_eq (H : Fin 800000 → Fin C → EReal) : meanTiled H = meanAll H := by
  funext c
  show Ideal.div (∑ t : Fin 50, ∑ r : Fin 16000, H (tileRow t r) c) nEdges = Ideal.div (∑ e : Fin 800000, H e c) nEdges
  have h : ∑ t : Fin 50, ∑ r : Fin 16000, H (tileRow t r) c = ∑ e : Fin 800000, H e c :=
    sum_tiles (fun e => H e c)
  rw [h]

/-! ### The variance identity on real numbers -/

/-- For real `x_1 .. x_n` (`n > 0`) with mean `m`: the mean of the squares minus `m^2` is the mean of the
    `(x_i - m)^2` — expand the square and use `∑ x_i = n m` — and that is not negative, so clipping it below
    at zero changes nothing. -/
theorem real_var {ι : Type} [Fintype ι] (x : ι → ℝ) (n : ℝ) (hn : (Fintype.card ι : ℝ) = n) (hn0 : 0 < n) :
    max ((∑ i, x i * x i) * (1 / n) - ((∑ i, x i) * (1 / n)) * ((∑ i, x i) * (1 / n))) 0
      = (∑ i, (x i - (∑ j, x j) * (1 / n)) * (x i - (∑ j, x j) * (1 / n))) * (1 / n) := by
  set m := (∑ j, x j) * (1 / n) with hm
  have hS1 : ∑ j, x j = n * m := by rw [hm]; field_simp
  have hexp : ∑ i, (x i - m) * (x i - m) = (∑ i, x i * x i) - 2 * m * (∑ i, x i) + n * (m * m) := by
    have h : ∀ i, (x i - m) * (x i - m) = x i * x i - 2 * m * x i + m * m := fun i => by ring
    simp only [h, Finset.sum_add_distrib, Finset.sum_sub_distrib, ← Finset.mul_sum, Finset.sum_const,
      Finset.card_univ, nsmul_eq_mul, hn]
    ring
  have hnn : 0 ≤ ∑ i, (x i - m) * (x i - m) := Finset.sum_nonneg (fun i _ => mul_self_nonneg _)
  have heq : (∑ i, x i * x i) * (1 / n) - m * m = (∑ i, (x i - m) * (x i - m)) * (1 / n) := by
    rw [hexp, hS1]; field_simp; ring
  rw [heq]
  exact max_eq_left (mul_nonneg hnn (by positivity))

/-! ### From real numbers to extended reals -/

/-- A finite sum of real numbers, taken in the extended reals, is the real sum. -/
theorem coe_sum {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The larger of two real numbers, taken in the extended reals, is the real maximum: the inclusion is monotone. -/
theorem coe_max (a b : ℝ) : max (a : EReal) (b : EReal) = ((max a b : ℝ) : EReal) :=
  (Monotone.map_max EReal.coe_strictMono.monotone).symm

/-- The mean of a real column is the real mean. -/
theorem meanAll_coe (H : Fin 800000 → Fin C → EReal) (c : Fin C) (g : Fin 800000 → ℝ)
    (hg : ∀ e, H e c = (g e : EReal)) :
    meanAll H c = (((∑ e, g e) * (1 / 800000) : ℝ) : EReal) := by
  have hsum : ∑ e, H e c = ((∑ e, g e : ℝ) : EReal) := by
    rw [← coe_sum]; exact Finset.sum_congr rfl (fun e _ => hg e)
  show Ideal.div (∑ e, H e c) nEdges = _
  rw [nEdges_eq, Ideal.div_coe (by norm_num), hsum, ← EReal.coe_mul]

/-- The variance of a real column is the real variance. -/
theorem varAll_coe (H : Fin 800000 → Fin C → EReal) (c : Fin C) (g : Fin 800000 → ℝ)
    (hg : ∀ e, H e c = (g e : EReal)) :
    varAll H c = (((∑ e, (g e - (∑ j, g j) * (1 / 800000)) * (g e - (∑ j, g j) * (1 / 800000)))
      * (1 / 800000) : ℝ) : EReal) := by
  have hdev : ∑ e, (H e c - meanAll H c) * (H e c - meanAll H c)
      = ((∑ e, (g e - (∑ j, g j) * (1 / 800000)) * (g e - (∑ j, g j) * (1 / 800000)) : ℝ) : EReal) := by
    rw [← coe_sum]
    exact Finset.sum_congr rfl (fun e _ => by
      rw [hg e, meanAll_coe H c g hg, ← EReal.coe_sub, ← EReal.coe_mul])
  show Ideal.div (∑ e, (H e c - meanAll H c) * (H e c - meanAll H c)) nEdges = _
  rw [nEdges_eq, Ideal.div_coe (by norm_num), hdev, ← EReal.coe_mul]

/-- The tiled variance is the variance, when every entry is a real number. -/
theorem varTiled_eq (H : Fin 800000 → Fin C → EReal) (hH : ∀ e c, IsFin (H e c)) : varTiled H = varAll H := by
  funext c
  choose g hg using hH
  have hgc : ∀ e, H e c = ((g e c : ℝ) : EReal) := fun e => hg e c
  have hsq : ∑ t : Fin 50, ∑ r : Fin 16000, H (tileRow t r) c * H (tileRow t r) c
      = ((∑ e, g e c * g e c : ℝ) : EReal) := by
    have h : ∑ t : Fin 50, ∑ r : Fin 16000, H (tileRow t r) c * H (tileRow t r) c = ∑ e, H e c * H e c :=
      sum_tiles (fun e => H e c * H e c)
    rw [h, ← coe_sum]
    exact Finset.sum_congr rfl (fun e _ => by rw [hgc e, ← EReal.coe_mul])
  rw [varAll_coe H c (fun e => g e c) hgc]
  show max (Ideal.div (∑ t : Fin 50, ∑ r : Fin 16000, H (tileRow t r) c * H (tileRow t r) c) nEdges
    - meanTiled H c * meanTiled H c) 0 = _
  rw [meanTiled_eq, meanAll_coe H c (fun e => g e c) hgc, hsq, nEdges_eq, Ideal.div_coe (by norm_num),
    ← EReal.coe_mul, ← EReal.coe_mul, ← EReal.coe_sub, ← EReal.coe_zero, coe_max,
    real_var (fun e => g e c) 800000 (by simp) (by norm_num)]

/-! ### Every layer keeps its entries real -/

/-- An affine layer of real matrices is real. -/
theorem affine_fin {E : ℕ} {X : Fin E → Fin K → EReal} {W : Fin K → Fin C → EReal} {b : Fin C → EReal}
    (hX : ∀ e k, IsFin (X e k)) (hW : ∀ k c, IsFin (W k c)) (hb : ∀ c, IsFin (b c)) :
    ∀ e c, IsFin (affine X W b e c) :=
  fun e c => (IsFin.sum _ _ (fun k _ => (hX e k).mul (hW k c))).add (hb c)

/-- The mean of a real matrix's column is real. -/
theorem meanAll_fin {H : Fin 800000 → Fin C → EReal} (hH : ∀ e c, IsFin (H e c)) : ∀ c, IsFin (meanAll H c) := by
  intro c
  choose g hg using hH
  rw [meanAll_coe H c (fun e => g e c) (fun e => hg e c)]
  exact isFin_coe _

/-- The variance of a real matrix's column is real. -/
theorem varAll_fin {H : Fin 800000 → Fin C → EReal} (hH : ∀ e c, IsFin (H e c)) : ∀ c, IsFin (varAll H c) := by
  intro c
  choose g hg using hH
  rw [varAll_coe H c (fun e => g e c) (fun e => hg e c)]
  exact isFin_coe _

/-- The variance of a real matrix's column is not negative: a sum of squares over a positive count. -/
theorem varAll_nonneg {H : Fin 800000 → Fin C → EReal} (hH : ∀ e c, IsFin (H e c)) : ∀ c, 0 ≤ varAll H c := by
  intro c
  choose g hg using hH
  rw [varAll_coe H c (fun e => g e c) (fun e => hg e c)]
  have h : (0 : ℝ) ≤ (∑ e, (g e c - (∑ j, g j c) * (1 / 800000)) * (g e c - (∑ j, g j c) * (1 / 800000)))
      * (1 / 800000) :=
    mul_nonneg (Finset.sum_nonneg (fun e _ => mul_self_nonneg _)) (by norm_num)
  exact_mod_cast h

/-- Normalizing a real matrix with a real mean and a real variance that is not negative gives a real matrix:
    the variance plus the small positive constant is a positive real `r`, whose reciprocal square root is the
    real `(√r)⁻¹`. -/
theorem normRelu_fin {E : ℕ} {H : Fin E → Fin C → EReal} {μ v : Fin C → EReal}
    (hH : ∀ e c, IsFin (H e c)) (hμ : ∀ c, IsFin (μ c)) (hv : ∀ c, IsFin (v c)) (hv0 : ∀ c, 0 ≤ v c) :
    ∀ e c, IsFin (normRelu H μ v e c) := by
  intro e c
  obtain ⟨a, ha⟩ := hv c
  obtain ⟨r, hr, hre⟩ := epsVar_pos
  have ha0 : 0 ≤ a := by
    have h := hv0 c
    rw [ha] at h
    exact_mod_cast h
  have hpos : 0 < a + r := by linarith
  have hrs : Ideal.rsqrt (v c + epsVar) = (((Real.sqrt (a + r))⁻¹ : ℝ) : EReal) := by
    rw [ha, hre, ← EReal.coe_add, Ideal.rsqrt_coe, if_neg (not_lt.mpr hpos.le), if_neg hpos.ne']
  show IsFin (max ((H e c - μ c) * Ideal.rsqrt (v c + epsVar)) 0)
  rw [hrs]
  exact (((hH e c).sub (hμ c)).mul (isFin_coe _)).max isFin_zero

/-! ### The two networks agree -/

/-- On real inputs and real first- and second-layer parameters the tiled network is the network: at each of
    the two normalizations the matrix being normalized is real, so its tiled mean and variance are its mean and
    variance. The last layer is the same function of the same matrix. -/
theorem netTiled_eq_netAll (X : Fin 800000 → Fin 128 → EReal) (W1 : Fin 128 → Fin 256 → EReal)
    (b1 : Fin 256 → EReal) (W2 : Fin 256 → Fin 64 → EReal) (b2 : Fin 64 → EReal) (w3 : Fin 64 → EReal)
    (b3 : EReal)
    (hX : ∀ e k, IsFin (X e k)) (hW1 : ∀ k c, IsFin (W1 k c)) (hb1 : ∀ c, IsFin (b1 c))
    (hW2 : ∀ k c, IsFin (W2 k c)) (hb2 : ∀ c, IsFin (b2 c)) :
    netTiled X W1 b1 W2 b2 w3 b3 = netAll X W1 b1 W2 b2 w3 b3 := by
  have hH1 := affine_fin hX hW1 hb1
  have hA1 := normRelu_fin hH1 (meanAll_fin hH1) (varAll_fin hH1) (varAll_nonneg hH1)
  have hH2 := affine_fin hA1 hW2 hb2
  simp only [netTiled, netAll, meanTiled_eq]
  rw [varTiled_eq _ hH1, varTiled_eq _ hH2]

end Cert.EdgeNet

end
-- ==== Proof.RefIsNet.lean ====
/-
  The reference program computes the edge network with whole-column statistics.

  The reference is read one operation at a time: the first affine layer, each channel's mean over all edges, the mean of
  the squared deviations, the normalized and clipped activation, the second layer with the same statistics, and the last
  affine layer with one output channel. Each lemma identifies one of these arrays, at explicit coordinates, with the
  matching function of the specification; the edge feature matrix is kept as an opaque array.
-/
import proofs.«113298_j41841571397745_2_alg».proof.Proof.Gen.ReferenceIdeal.Read
import proofs.«113298_j41841571397745_2_alg».proof.Proof.Spec
import Idealize.ShloMosaic.Lib.ValueIdx
import Idealize.ShloMosaic.PureOps.Ideal.Laws

noncomputable section

open scoped BigOperators

namespace Cert.EdgeNet.Ref

open Idealize.ShloMosaic Idealize.ShloMosaic.ValueIdx Cert.ReferenceIdeal Cert.ReferenceIdeal.Read

/-- The edge feature matrix by coordinates. -/
abbrev feat (x0 : (⟨S50000x64, .f32⟩ : BufTy).Contents (Elt Ideal)) (x1 : (⟨S2x800000, .i32⟩ : BufTy).Contents (Elt Ideal)) :
    Fin 800000 → Fin 128 → EReal := fun e k => val_main_v18 (F := Ideal) x0 x1 (ix2 e k)
/-- A weight matrix by coordinates. -/
abbrev mat {K C : ℕ} (w : (⟨(⟨2, ![K, C]⟩ : Shape), .f32⟩ : BufTy).Contents (Elt Ideal)) : Fin K → Fin C → EReal :=
  fun k c => w (ix2 k c)
/-- A bias vector by coordinates. -/
abbrev vec {C : ℕ} (b : (⟨(⟨1, ![C]⟩ : Shape), .f32⟩ : BufTy).Contents (Elt Ideal)) : Fin C → EReal :=
  fun c => b (ix1 c)

section layer1

variable (x0 : (⟨S50000x64, .f32⟩ : BufTy).Contents (Elt Ideal)) (x1 : (⟨S2x800000, .i32⟩ : BufTy).Contents (Elt Ideal))
  (x2 : (⟨S128x256, .f32⟩ : BufTy).Contents (Elt Ideal)) (x3 : (⟨S256, .f32⟩ : BufTy).Contents (Elt Ideal))

/-- The first affine layer. -/
abbrev H1 : Fin 800000 → Fin 256 → EReal := affine (feat x0 x1) (mat x2) (vec x3)

/-- The first layer's pre-activation is the affine layer of the specification. -/
theorem h1_eq (e : Fin 800000) (c : Fin 256) :
    val_main_v22 (F := Ideal) x0 x1 x2 x3 (ix2 e c) = H1 x0 x1 x2 x3 e c := by
  rw [val_main_v22_apply, val_main_v19_apply, val_main_v21_apply, val_main_v20_apply]
  simp only [Ideal.addf_def]
  unfold H1 affine
  refine congrArg₂ (· + ·) (Finset.sum_congr rfl fun k _ => ?_) ?_
  · rw [show lidx_main_v19 (ix2 e c) k = ix2 e k from
          funext fun a => Fin.ext (by match a with | ⟨0, _⟩ => rfl | ⟨1, _⟩ => rfl),
        show ridx_main_v19 (ix2 e c) k = ix2 k c from
          funext fun a => Fin.ext (by match a with | ⟨0, _⟩ => rfl | ⟨1, _⟩ => rfl)]
  · exact congrArg x3 (funext fun a => Fin.ext (by match a with | ⟨0, _⟩ => rfl))

/-- Each channel's mean of the first layer over all edges. -/
theorem mean1_eq (z : Fin 1) (c : Fin 256) :
    val_main_v26 (F := Ideal) x0 x1 x2 x3 (ix2 z c) = meanAll (H1 x0 x1 x2 x3) c := by
  rw [val_main_v26_apply, val_main_v24_apply, val_main_v23_apply, val_main_v25_apply, val_main_cst_3_apply,
    val_main_cst_apply]
  simp only [Ideal.hostDivf_def, Ideal.ofBits_def, Ideal.ofBits_zero_f32, zero_add]
  unfold meanAll
  refine congrArg (Ideal.div · nEdges) (Finset.sum_congr rfl fun k _ => ?_)
  rw [show idx_main_v23 (idx_main_v24 (ix2 z c)) k = ix2 k c from
        funext fun a => Fin.ext (by match a with | ⟨0, _⟩ => rfl | ⟨1, _⟩ => rfl), h1_eq]

/-- Each channel's variance of the first layer over all edges. -/
theorem var1_eq (z : Fin 1) (c : Fin 256) :
    val_main_v33 (F := Ideal) x0 x1 x2 x3 (ix2 z c) = varAll (H1 x0 x1 x2 x3) c := by
  rw [val_main_v33_apply, val_main_v31_apply, val_main_v30_apply, val_main_v32_apply, val_main_cst_5_apply,
    val_main_cst_4_apply]
  simp only [Ideal.hostDivf_def, Ideal.ofBits_def, Ideal.ofBits_zero_f32, zero_add]
  unfold varAll
  refine congrArg (Ideal.div · nEdges) (Finset.sum_congr rfl fun k _ => ?_)
  rw [show idx_main_v30 (idx_main_v31 (ix2 z c)) k = ix2 k c from
        funext fun a => Fin.ext (by match a with | ⟨0, _⟩ => rfl | ⟨1, _⟩ => rfl),
    val_main_v29_apply, val_main_v28_apply, val_main_v27_apply,
    show idx_main_v27 (ix2 k c) = ix2 (0 : Fin 1) c from
        funext fun a => Fin.ext (by match a with | ⟨0, _⟩ => rfl | ⟨1, _⟩ => rfl),
    h1_eq, mean1_eq]
  simp only [Ideal.mulf_def, Ideal.subf_def]

/-- The first layer's activation: normalized with the whole-column statistics and clipped below at zero. -/
theorem act1_eq (e : Fin 800000) (c : Fin 256) :
    val_main_v41 (F := Ideal) x0 x1 x2 x3 (ix2 e c)
      = normRelu (H1 x0 x1 x2 x3) (meanAll (H1 x0 x1 x2 x3)) (varAll (H1 x0 x1 x2 x3)) e c := by
  rw [val_main_v41_apply, val_main_v40_apply, val_main_v35_apply, val_main_v34_apply, val_main_v39_apply,
    val_main_v38_apply, val_main_v37_apply, val_main_v36_apply, val_main_cst_6_apply, val_main_call0_v0_apply,
    val_main_call0_cst_apply,
    show idx_main_v34 (ix2 e c) = ix2 (0 : Fin 1) c from
        funext fun a => Fin.ext (by match a with | ⟨0, _⟩ => rfl | ⟨1, _⟩ => rfl),
    show idx_main_v39 (ix2 e c) = ix2 (0 : Fin 1) c from
        funext fun a => Fin.ext (by match a with | ⟨0, _⟩ => rfl | ⟨1, _⟩ => rfl),
    h1_eq, mean1_eq, var1_eq]
  simp only [Ideal.maximumf_def, Ideal.mulf_def, Ideal.subf_def, Ideal.addf_def, Ideal.hostUnary_rsqrt_def,
    Ideal.ofBits_def, Ideal.ofBits_zero_f32]
  rfl

end layer1

section layer2

variable (x0 : (⟨S50000x64, .f32⟩ : BufTy).Contents (Elt Ideal)) (x1 : (⟨S2x800000, .i32⟩ : BufTy).Contents (Elt Ideal))
  (x2 : (⟨S128x256, .f32⟩ : BufTy).Contents (Elt Ideal)) (x3 : (⟨S256, .f32⟩ : BufTy).Contents (Elt Ideal))
  (x4 : (⟨S256x64, .f32⟩ : BufTy).Contents (Elt Ideal)) (x5 : (⟨S64, .f32⟩ : BufTy).Contents (Elt Ideal))

/-- The first layer's activation. -/
abbrev A1 : Fin 800000 → Fin 256 → EReal :=
  normRelu (H1 x0 x1 x2 x3) (meanAll (H1 x0 x1 x2 x3)) (varAll (H1 x0 x1 x2 x3))

/-- The second affine layer. -/
abbrev H2 : Fin 800000 → Fin 64 → EReal := affine (A1 x0 x1 x2 x3) (mat x4) (vec x5)

/-- The second layer's pre-activation is the affine layer of the first activation. -/
theorem h2_eq (e : Fin 800000) (c : Fin 64) :
    val_main_v45 (F := Ideal) x0 x1 x2 x3 x4 x5 (ix2 e c) = H2 x0 x1 x2 x3 x4 x5 e c := by
  rw [val_main_v45_apply, val_main_v42_apply, val_main_v44_apply, val_main_v43_apply]
  simp only [Ideal.addf_def]
  unfold H2 affine
  refine congrArg₂ (· + ·) (Finset.sum_congr rfl fun k _ => ?_) ?_
  · rw [show lidx_main_v42 (ix2 e c) k = ix2 e k from
          funext fun a => Fin.ext (by match a with | ⟨0, _⟩ => rfl | ⟨1, _⟩ => rfl),
        show ridx_main_v42 (ix2 e c) k = ix2 k c from
          funext fun a => Fin.ext (by match a with | ⟨0, _⟩ => rfl | ⟨1, _⟩ => rfl), act1_eq]
  · exact congrArg x5 (funext fun a => Fin.ext (by match a with | ⟨0, _⟩ => rfl))

/-- Each channel's mean of the second layer over all edges. -/
theorem mean2_eq (z : Fin 1) (c : Fin 64) :
    val_main_v49 (F := Ideal) x0 x1 x2 x3 x4 x5 (ix2 z c) = meanAll (H2 x0 x1 x2 x3 x4 x5) c := by
  rw [val_main_v49_apply, val_main_v47_apply, val_main_v46_apply, val_main_v48_apply, val_main_cst_8_apply,
    val_main_cst_7_apply]
  simp only [Ideal.hostDivf_def, Ideal.ofBits_def, Ideal.ofBits_zero_f32, zero_add]
  unfold meanAll
  refine congrArg (Ideal.div · nEdges) (Finset.sum_congr rfl fun k _ => ?_)
  rw [show idx_main_v46 (idx_main_v47 (ix2 z c)) k = ix2 k c from
        funext fun a => Fin.ext (by match a with | ⟨0, _⟩ => rfl | ⟨1, _⟩ => rfl), h2_eq]

/-- Each channel's variance of the second layer over all edges. -/
theorem var2_eq (z : Fin 1) (c : Fin 64) :
    val_main_v56 (F := Ideal) x0 x1 x2 x3 x4 x5 (ix2 z c) = varAll (H2 x0 x1 x2 x3 x4 x5) c := by
  rw [val_main_v56_apply, val_main_v54_apply, val_main_v53_apply, val_main_v55_apply, val_main_cst_10_apply,
    val_main_cst_9_apply]
  simp only [Ideal.hostDivf_def, Ideal.ofBits_def, Ideal.ofBits_zero_f32, zero_add]
  unfold varAll
  refine congrArg (Ideal.div · nEdges) (Finset.sum_congr rfl fun k _ => ?_)
  rw [show idx_main_v53 (idx_main_v54 (ix2 z c)) k = ix2 k c from
        funext fun a => Fin.ext (by match a with | ⟨0, _⟩ => rfl | ⟨1, _⟩ => rfl),
    val_main_v52_apply, val_main_v51_apply, val_main_v50_apply,
    show idx_main_v50 (ix2 k c) = ix2 (0 : Fin 1) c from
        funext fun a => Fin.ext (by match a with | ⟨0, _⟩ => rfl | ⟨1, _⟩ => rfl),
    h2_eq, mean2_eq]
  simp only [Ideal.mulf_def, Ideal.subf_def]

/-- The second layer's activation: normalized with the whole-column statistics and clipped below at zero. -/
theorem act2_eq (e : Fin 800000) (c : Fin 64) :
    val_main_v64 (F := Ideal) x0 x1 x2 x3 x4 x5 (ix2 e c)
      = normRelu (H2 x0 x1 x2 x3 x4 x5) (meanAll (H2 x0 x1 x2 x3 x4 x5)) (varAll (H2 x0 x1 x2 x3 x4 x5)) e c := by
  rw [val_main_v64_apply, val_main_v63_apply, val_main_v58_apply, val_main_v57_apply, val_main_v62_apply,
    val_main_v61_apply, val_main_v60_apply, val_main_v59_apply, val_main_cst_11_apply, val_main_call1_v0_apply,
    val_main_call1_cst_apply,
    show idx_main_v57 (ix2 e c) = ix2 (0 : Fin 1) c from
        funext fun a => Fin.ext (by match a with | ⟨0, _⟩ => rfl | ⟨1, _⟩ => rfl),
    show idx_main_v62 (ix2 e c) = ix2 (0 : Fin 1) c from
        funext fun a => Fin.ext (by match a with | ⟨0, _⟩ => rfl | ⟨1, _⟩ => rfl),
    h2_eq, mean2_eq, var2_eq]
  simp only [Ideal.maximumf_def, Ideal.mulf_def, Ideal.subf_def, Ideal.addf_def, Ideal.hostUnary_rsqrt_def,
    Ideal.ofBits_def, Ideal.ofBits_zero_f32]
  rfl

end layer2

section output

variable (x0 : (⟨S50000x64, .f32⟩ : BufTy).Contents (Elt Ideal)) (x1 : (⟨S2x800000, .i32⟩ : BufTy).Contents (Elt Ideal))
  (x2 : (⟨S128x256, .f32⟩ : BufTy).Contents (Elt Ideal)) (x3 : (⟨S256, .f32⟩ : BufTy).Contents (Elt Ideal))
  (x4 : (⟨S256x64, .f32⟩ : BufTy).Contents (Elt Ideal)) (x5 : (⟨S64, .f32⟩ : BufTy).Contents (Elt Ideal))
  (x6 : (⟨S64x1, .f32⟩ : BufTy).Contents (Elt Ideal)) (x7 : (⟨S1, .f32⟩ : BufTy).Contents (Elt Ideal))

/-- The second layer's activation. -/
abbrev A2 : Fin 800000 → Fin 64 → EReal :=
  normRelu (H2 x0 x1 x2 x3 x4 x5) (meanAll (H2 x0 x1 x2 x3 x4 x5)) (varAll (H2 x0 x1 x2 x3 x4 x5))

/-- The last layer at an edge: the second activation's row times the one output column, plus the bias. -/
theorem out_eq (e : Fin 800000) :
    val_main_v68 (F := Ideal) x0 x1 x2 x3 x4 x5 x6 x7 (ix2 e (0 : Fin 1))
      = lastLayer (A2 x0 x1 x2 x3 x4 x5) (fun c => x6 (ix2 c (0 : Fin 1))) (x7 (ix1 (0 : Fin 1))) e := by
  rw [val_main_v68_apply, val_main_v65_apply, val_main_v67_apply, val_main_v66_apply]
  simp only [Ideal.addf_def]
  unfold lastLayer
  refine congrArg₂ (· + ·) (Finset.sum_congr rfl fun k _ => ?_) ?_
  · rw [show lidx_main_v65 (ix2 e (0 : Fin 1)) k = ix2 e k from
          funext fun a => Fin.ext (by match a with | ⟨0, _⟩ => rfl | ⟨1, _⟩ => rfl),
        show ridx_main_v65 (ix2 e (0 : Fin 1)) k = ix2 k (0 : Fin 1) from
          funext fun a => Fin.ext (by match a with | ⟨0, _⟩ => rfl | ⟨1, _⟩ => rfl), act2_eq]
  · exact congrArg x7 (funext fun a => Fin.ext (by match a with | ⟨0, _⟩ => rfl))

end output

/-- The reference program's result, read at any index, is the network with whole-column statistics applied to the edge
    feature matrix and the weight arrays by coordinates. -/
theorem ref_is_netAll (x0 : (⟨S50000x64, .f32⟩ : BufTy).Contents (Elt Ideal))
    (x1 : (⟨S2x800000, .i32⟩ : BufTy).Contents (Elt Ideal)) (x2 : (⟨S128x256, .f32⟩ : BufTy).Contents (Elt Ideal))
    (x3 : (⟨S256, .f32⟩ : BufTy).Contents (Elt Ideal)) (x4 : (⟨S256x64, .f32⟩ : BufTy).Contents (Elt Ideal))
    (x5 : (⟨S64, .f32⟩ : BufTy).Contents (Elt Ideal)) (x6 : (⟨S64x1, .f32⟩ : BufTy).Contents (Elt Ideal))
    (x7 : (⟨S1, .f32⟩ : BufTy).Contents (Elt Ideal)) (i : S800000x1.Idx) :
    Cert.ReferenceIdeal.Read.val_main_v68 (F := Ideal) x0 x1 x2 x3 x4 x5 x6 x7 i
      = Cert.EdgeNet.netAll
          (fun e k => Cert.ReferenceIdeal.Read.val_main_v18 (F := Ideal) x0 x1 (ValueIdx.ix2 e k))
          (fun k c => x2 (ValueIdx.ix2 k c)) (fun c => x3 (ValueIdx.ix1 c))
          (fun k c => x4 (ValueIdx.ix2 k c)) (fun c => x5 (ValueIdx.ix1 c))
          (fun c => x6 (ValueIdx.ix2 c (0 : Fin 1))) (x7 (ValueIdx.ix1 (0 : Fin 1)))
          ⟨(i 0).val, (i 0).isLt⟩ := by
  obtain ⟨e, z, rfl⟩ : ∃ (e : Fin 800000) (z : Fin 1), i = ix2 e z := ⟨i 0, i 1, eq_ix2 i⟩
  obtain rfl : z = 0 := Subsingleton.elim z 0
  exact out_eq x0 x1 x2 x3 x4 x5 x6 x7 e

end Cert.EdgeNet.Ref

end
-- ==== Proof.Bridge.lean ====
/-
  The two programs' results are equal.

  The reference program's result is the network with whole-column statistics applied to the edge features and the
  weight arrays; the kernel program's result is the network with tile-by-tile statistics applied to the same data. When
  every input entry is a real number the two networks agree, and the two programs build their edge features from the
  same table and the same index array in the same way.
-/
import proofs.«113298_j41841571397745_2_alg».proof.Proof.KValue
import proofs.«113298_j41841571397745_2_alg».proof.Proof.Spec
import proofs.«113298_j41841571397745_2_alg».proof.Proof.Algebra
import proofs.«113298_j41841571397745_2_alg».proof.Proof.RefIsNet
import proofs.«113298_j41841571397745_2_alg».proof.Proof.FiniteInputs
import proofs.«113298_j41841571397745_2_alg».proof.Proof.KHostInputs
import proofs.«113298_j41841571397745_2_alg».proof.Defs

noncomputable section

open scoped BigOperators

namespace Cert.Bridge

open Idealize.ShloMosaic Idealize.ShloMosaic.TcCoe Idealize.ShloMosaic.ValueIdx Idealize.SL.Sem
open Cert.LibFinite Cert.EdgeNet

/-- The two programs' result buffers hold the same array. -/
theorem result_eq [hP : Cert.Pre_finite_inputs.Facts]
    (m : (ℓ : Loc Cert.KernelIdeal.nD Cert.KernelIdeal.τ Cert.KernelIdeal.sig) → Buf (Elt Ideal) ℓ)
    (ρ : Dev Cert.KernelIdeal.nD → PrngReg)
    (m' : (ℓ : Loc Cert.ReferenceIdeal.nD Cert.ReferenceIdeal.τ Cert.ReferenceIdeal.sig) → Buf (Elt Ideal) ℓ)
    (hpre : Cert.Pre_KernelIdeal m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (c : Dev Cert.KernelIdeal.nD) :
    Cert.ReferenceIdeal.Value.res_main_v68 (F := Ideal) m' c
      = Cert.KernelIdeal.GenP.W7 m ρ c (Proc.devRef .tc Cert.KernelIdeal.main_v48) := by
  -- every entry of the five float inputs the network uses is a real number
  obtain ⟨hf0, hf2, hf3, hf4, hf5⟩ := Cert.EdgeNet.Inputs.inputs_finite _ _ _ _ _ _ _ _ (hpre c)
  have hX : ∀ e k, IsFin (Cert.KernelIdeal.Whole.feat m ρ c e k) := fun e k =>
    Cert.KernelIdeal.HostInputs.feat_fin (Cert.KernelIdeal.GenP.W0 m ρ c) hf0 (ix2 e k)
  have hW1 : ∀ k q, IsFin (Cert.KernelIdeal.Whole.w1 m c k q) := fun k q => hf2 (ix2 k q)
  have hb1 : ∀ q, IsFin (Cert.KernelIdeal.Whole.b1 m c q) := fun q => hf3 (ix1 q)
  have hW2 : ∀ k q, IsFin (Cert.KernelIdeal.Whole.w2 m c k q) := fun k q => hf4 (ix2 k q)
  have hb2 : ∀ q, IsFin (Cert.KernelIdeal.Whole.b2 m c q) := fun q => hf5 (ix1 q)
  -- the kernel program's edge features are the reference program's
  have hfeat : Cert.KernelIdeal.Whole.feat m ρ c
      = fun e k => Cert.ReferenceIdeal.Read.val_main_v18 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1)) (ix2 e k) :=
    funext fun e => funext fun k =>
      congrFun (Cert.KernelIdeal.HostInputs.feat_eq (Cert.KernelIdeal.GenP.W0 m ρ c)) (ix2 e k)
  obtain ⟨h0, h1, h2, h3, h4, h5, h6, h7⟩ := hagree c
  funext i
  obtain ⟨e, z, rfl⟩ : ∃ (e : Fin 800000) (z : Fin 1), i = ix2 e z := ⟨i 0, i 1, eq_ix2 i⟩
  obtain rfl : z = 0 := Subsingleton.elim z 0
  rw [Cert.ReferenceIdeal.Read.val_main_v68_eq, Cert.EdgeNet.Ref.ref_is_netAll, h0, h1, h2, h3, h4, h5, h6, h7]
  refine Eq.trans ?_ (Cert.KernelIdeal.Whole.result_at m ρ c e).symm
  rw [netTiled_eq_netAll _ _ _ _ _ _ _ hX hW1 hb1 hW2 hb2, hfeat]

end Cert.Bridge

end
-- ==== Proof.lean ====
/-
  The certificate: a three-layer edge network with per-channel normalization over all 800000 edges, computed by a kernel
  program of three tiled grids, equals its reference as extended reals.

  Both programs gather the same two rows of the embedding table per edge and join them into the edge feature matrix. Each of
  the first two layers is an affine map followed by normalizing every channel over ALL edges and clipping below at zero; the
  last layer has one output channel. The reference takes a channel's mean and variance directly (the mean, then the mean of
  the squared deviations). The kernel program cannot: each grid walks the edges in 50 tiles of 16000, so the first two grids
  also write per-tile sums and sums of squares of their outputs, the host adds the 50 partial sums, and the variance is the mean
  of the squares minus the squared mean, clipped below at zero. The two agree because (i) a sum taken tile by tile is the whole
  sum, and (ii) for real numbers the mean of the squares minus the squared mean IS the mean of the squared deviations, which is
  not negative, so the clip does nothing. Step (ii) expands a square and cancels, which is sound only for finite numbers: this
  is where the precondition (every float input finite) is used, carried forward layer by layer (finite features and weights
  give finite layer entries, finite statistics, a positive real under the reciprocal square root, finite activations).
  The changes of float format in the kernel program are the identity on extended reals, its matrix products into a zero
  accumulator and its column sums are the reference's products and sums, and the closing reshape puts edge e, found at row
  e / 16000 and position e mod 16000 of the last grid's output, at row e.

  The three frame claims: the reference's from its run; the two kernel programs' from their frame certificates. The ideal pass
  rewrote nothing, so the idealization claim is trivial.
-/
import proofs.«113298_j41841571397745_2_alg».proof.Defs
import proofs.«113298_j41841571397745_2_alg».proof.Proof.Gen.Kernel
import proofs.«113298_j41841571397745_2_alg».proof.Proof.Gen.KernelIdeal
import proofs.«113298_j41841571397745_2_alg».proof.Proof.Gen.ReferenceIdeal
import proofs.«113298_j41841571397745_2_alg».proof.Proof.Gen.Pre_finite_inputs
import proofs.«113298_j41841571397745_2_alg».proof.Proof.Gen.ReferenceIdeal.Run
import proofs.«113298_j41841571397745_2_alg».proof.Proof.Gen.ReferenceIdeal.Read
import proofs.«113298_j41841571397745_2_alg».proof.Proof.KernelFrame
import proofs.«113298_j41841571397745_2_alg».proof.Proof.KernelIdealFrame
import proofs.«113298_j41841571397745_2_alg».proof.Proof.KRun
import proofs.«113298_j41841571397745_2_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_kernel : Cert.frame_Kernel := fun m ρ _ => Cert.Kernel.GenP.frame m ρ

/-- So does the idealized kernel program. -/
theorem frame_kernelIdeal : Cert.frame_KernelIdeal := fun m ρ _ => Cert.KernelIdeal.GenP.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories that agree on the arguments both programs run, and the reference's result is the kernel program's. -/
theorem algebraic : Cert.algebraic_KernelIdeal_ReferenceIdeal := by
  intro m ρ m' ρ' hpre hagree
  refine ⟨fun c => Cert.KernelIdeal.GenP.W7 m ρ c (Proc.devRef .tc Cert.KernelIdeal.main_v48),
    Cert.KernelIdeal.Run.run_named m ρ, ?_⟩
  refine (θ_run Cert.ReferenceIdeal.defs _ _).mono (fun _ h c => ⟨(h c).1.trans ?_, (h c).2⟩)
    (Cert.ReferenceIdeal.Value.run (F := Ideal) m' ρ')
  exact Cert.Bridge.result_eq m ρ m' hpre hagree c

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
